-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x128 : Shape := ⟨3, ![128, 128, 128]⟩
abbrev S262144x3 : Shape := ⟨2, ![262144, 3]⟩
abbrev S262144x128 : Shape := ⟨2, ![262144, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S128x128x128 : S_.BroadcastsInDim S128x128x128 (![] : Fin 0 → Fin S128x128x128.rank)
  reducesTo_S128x128x128_S_d0_1_2 : S128x128x128.ReducesTo [0, 1, 2] S_
  h_S_ : 0 < S_.numel
  bcast_S_S262144x3 : S_.BroadcastsInDim S262144x3 (![] : Fin 0 → Fin S262144x3.rank)
  reducesTo_S262144x3_S_d0_1 : S262144x3.ReducesTo [0, 1] S_
  bcast_S_S262144x128 : S_.BroadcastsInDim S262144x128 (![] : Fin 0 → Fin S262144x128.rank)
  reducesTo_S262144x128_S_d0_1 : S262144x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S128x128 .f32) (main_arg7 : FVec F S128 .f32) (main_v13 : IVec S_ 1) (main_v16 : IVec S262144x3 1) : IVec S_ 1 :=
  let main_c_5 : IVec S_ 1 := constantI S_ 1 1#1
  let main_v17 : IVec S_ 1 := (fun x v => Host.reduce IntOp.andi x v reducesTo_S262144x3_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S128x128x128 .f32) (main_arg1 : FVec F S262144x3 .f32) (main_arg2 : FVec F S262144x128 .f32) (main_arg3 : FVec F S262144x3 .f32) (main_arg4 : FVec F S256x128 .f32) (main_arg5 : FVec F S128 .f32) (main_arg6 : FVec F S128x128 .f32) (main_arg7 : FVec F S128 .f32) : IVec S_ 1 :=
  let main_v0 : FVec F S128x128x128 .f32 := Host.absf main_arg0
  let main_cst : FVec F S_ .f32 := constant S_ .f32 0x7F800000#32
  let main_v1 : FVec F S128x128x128 .f32 := broadcastInDim S128x128x128 ![] bcast_S_S128x128x128 main_cst
  let main_v2 : IVec S128x128x128 1 := cmpf .olt main_v0 main_v1
  let main_c : IVec S_ 1 := constantI S_ 1 1#1
  let main_v3 : IVec S_ 1 := (fun x v => Host.reduce IntOp.andi x v reducesTo_S128x128x128_S_d0_1_2 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x3 .f32 := Host.absf main_arg3
  let main_cst_4 : FVec F S_ .f32 := constant S_ .f32 0x7F800000#32
  let main_v15 : FVec F S262144x3 .f32 := broadcastInDim S262144x3 ![] bcast_S_S262144x3 main_cst_4
  let main_v16 : IVec S262144x3 1 := cmpf .olt main_v14 main_v15
  fn_part1 (F := F) main_arg4 main_arg5 main_arg6 main_arg7 main_v13 main_v16
-- ==== Kernel.lean ====
abbrev S128x128x128 : Shape := ⟨3, ![128, 128, 128]⟩
abbrev S262144x3 : Shape := ⟨2, ![262144, 3]⟩
abbrev S262144x128 : Shape := ⟨2, ![262144, 128]⟩
abbrev S256x128 : Shape := ⟨2, ![256, 128]⟩
abbrev S128 : Shape := ⟨1, ![128]⟩
abbrev S128x128 : Shape := ⟨2, ![128, 128]⟩
abbrev S2097152 : Shape := ⟨1, ![2097152]⟩
abbrev S_ : Shape := ⟨0, ![]⟩
abbrev S262144x1 : Shape := ⟨2, ![262144, 1]⟩
abbrev S1x128 : Shape := ⟨2, ![1, 128]⟩
abbrev S262144x128x1 : Shape := ⟨3, ![262144, 128, 1]⟩
abbrev S1 : Shape := ⟨1, ![1]⟩
abbrev S1x1x1 : Shape := ⟨3, ![1, 1, 1]⟩
abbrev S2048x128 : Shape := ⟨2, ![2048, 128]⟩
abbrev S2048x1 : Shape := ⟨2, ![2048, 1]⟩
abbrev S2048 : Shape := ⟨1, ![2048]⟩
abbrev S262144 : Shape := ⟨1, ![262144]⟩

abbrev nBuf : Space → Nat
  | .hbm => 183
  | .vmem => 15
  | .smem => 0
  | _ => 0

abbrev hbmTy0_0 (i : Nat) : BufTy := match i % 128 with
  | 0 => ⟨S128x128x128, .f32⟩
  | 1 => ⟨S262144x3, .f32⟩
  | 2 => ⟨S262144x128, .f32⟩
  | 3 => ⟨S262144x3, .f32⟩
  | 4 => ⟨S256x128, .f32⟩
  | 5 => ⟨S128, .f32⟩
  | 6 => ⟨S128x128, .f32⟩
  | 7 => ⟨S128, .f32⟩
  | 8 => ⟨S128, .i32⟩
  | 9 => ⟨S128, .i32⟩
  | 10 => ⟨S128, .i32⟩
  | 11 => ⟨S2097152, .f32⟩
  | 12 => ⟨S262144x3, .i32⟩
  | 13 => ⟨S_, .i32⟩
  | 14 => ⟨S_, .i32⟩
  | 15 => ⟨S_, .i32⟩
  | 16 => ⟨S262144x3, .i32⟩
  | 17 => ⟨S262144x3, .i32⟩
  | 18 => ⟨S_, .i32⟩
  | 19 => ⟨S262144x3, .i32⟩
  | 20 => ⟨S262144x3, .i32⟩
  | 21 => ⟨S262144x1, .i32⟩
  | 22 => ⟨S1x128, .i32⟩
  | 23 => ⟨S262144x128, .i32⟩
  | 24 => ⟨S262144x128, .i32⟩
  | 25 => ⟨S262144x128, .i32⟩
  | 26 => ⟨S_, .i32⟩
  | 27 => ⟨S_, .i32⟩
  | 28 => ⟨S_, .i32⟩
  | 29 => ⟨S262144x128, .i32⟩
  | 30 => ⟨S262144x128, .i32⟩
  | 31 => ⟨S_, .i32⟩
  | 32 => ⟨S262144x128, .i32⟩
  | 33 => ⟨S262144x128, .i32⟩
  | 34 => ⟨S262144x1, .i32⟩
  | 35 => ⟨S1x128, .i32⟩
  | 36 => ⟨S262144x128, .i32⟩
  | 37 => ⟨S262144x128, .i32⟩
  | 38 => ⟨S262144x128, .i32⟩
  | 39 => ⟨S_, .i32⟩
  | 40 => ⟨S_, .i32⟩
  | 41 => ⟨S_, .i32⟩
  | 42 => ⟨S262144x128, .i32⟩
  | 43 => ⟨S262144x128, .i32⟩
  | 44 => ⟨S_, .i32⟩
  | 45 => ⟨S262144x128, .i32⟩
  | 46 => ⟨S262144x128, .i32⟩
  | 47 => ⟨S262144x1, .i32⟩
  | 48 => ⟨S1x128, .i32⟩
  | 49 => ⟨S262144x128, .i32⟩
  | 50 => ⟨S262144x128, .i32⟩
  | 51 => ⟨S262144x128, .i32⟩
  | 52 => ⟨S_, .i32⟩
  | 53 => ⟨S_, .i32⟩
  | 54 => ⟨S_, .i32⟩
  | 55 => ⟨S262144x128, .i32⟩
  | 56 => ⟨S262144x128, .i32⟩
  | 57 => ⟨S_, .i32⟩
  | 58 => ⟨S262144x128, .i32⟩
  | 59 => ⟨S262144x128, .i32⟩
  | 60 => ⟨S_, .i32⟩
  | 61 => ⟨S262144x128, .i32⟩
  | 62 => ⟨S262144x128, .i32⟩
  | 63 => ⟨S_, .i32⟩
  | 64 => ⟨S262144x128, .i32⟩
  | 65 => ⟨S262144x128, .i32⟩
  | 66 => ⟨S262144x128, .i32⟩
  | 67 => ⟨S262144x128, .i32⟩
  | 68 => ⟨S_, .i32⟩
  | 69 => ⟨S262144x128, .i32⟩
  | 70 => ⟨S262144x128, .i1⟩
  | 71 => ⟨S_, .i32⟩
  | 72 => ⟨S262144x128, .i32⟩
  | 73 => ⟨S262144x128, .i32⟩
  | 74 => ⟨S262144x128, .i32⟩
  | 75 => ⟨S262144x128x1, .i32⟩
  | 76 => ⟨S1, .i32⟩
  | 77 => ⟨S_, .i32⟩
  | 78 => ⟨S262144x128x1, .i32⟩
  | 79 => ⟨S262144x128x1, .i1⟩
  | 80 => ⟨S1x1x1, .i32⟩
  | 81 => ⟨S262144x128x1, .i32⟩
  | 82 => ⟨S262144x128x1, .i1⟩
  | 83 => ⟨S262144x128x1, .i1⟩
  | 84 => ⟨S_, .i1⟩
  | 85 => ⟨S262144x128, .i1⟩
  | 86 => ⟨S262144x128, .f32⟩
  | 87 => ⟨S_, .f32⟩
  | 88 => ⟨S262144x128, .f32⟩
  | 89 => ⟨S262144x128, .f32⟩
  | 90 => ⟨S262144x3, .f32⟩
  | 91 => ⟨S262144x3, .i32⟩
  | 92 => ⟨S_, .i32⟩
  | 93 => ⟨S_, .i32⟩
  | 94 => ⟨S_, .i32⟩
  | 95 => ⟨S262144x3, .i32⟩
  | 96 => ⟨S262144x3, .i32⟩
  | 97 => ⟨S_, .i32⟩
  | 98 => ⟨S262144x3, .i32⟩
  | 99 => ⟨S262144x3, .i32⟩
  | 100 => ⟨S262144x1, .i32⟩
  | 101 => ⟨S1x128, .i32⟩
  | 102 => ⟨S262144x128, .i32⟩
  | 103 => ⟨S262144x128, .i32⟩
  | 104 => ⟨S262144x128, .i32⟩
  | 105 => ⟨S_, .i32⟩
  | 106 => ⟨S_, .i32⟩
  | 107 => ⟨S_, .i32⟩
  | 108 => ⟨S262144x128, .i32⟩
  | 109 => ⟨S262144x128, .i32⟩
  | 110 => ⟨S_, .i32⟩
  | 111 => ⟨S262144x128, .i32⟩
  | 112 => ⟨S262144x128, .i32⟩
  | 113 => ⟨S262144x1, .i32⟩
  | 114 => ⟨S1x128, .i32⟩
  | 115 => ⟨S262144x128, .i32⟩
  | 116 => ⟨S262144x128, .i32⟩
  | 117 => ⟨S262144x128, .i32⟩
  | 118 => ⟨S_, .i32⟩
  | 119 => ⟨S_, .i32⟩
  | 120 => ⟨S_, .i32⟩
  | 121 => ⟨S262144x128, .i32⟩
  | 122 => ⟨S262144x128, .i32⟩
  | 123 => ⟨S_, .i32⟩
  | 124 => ⟨S262144x128, .i32⟩
  | 125 => ⟨S262144x128, .i32⟩
  | 126 => ⟨S262144x1, .i32⟩
  | 127 => ⟨S1x128, .i32⟩
  | _ => ⟨S128x128x128, .f32⟩

abbrev hbmTy0_1 (i : Nat) : BufTy := match i % 128 with
  | 0 => ⟨S262144x128, .i32⟩
  | 1 => ⟨S262144x128, .i32⟩
  | 2 => ⟨S262144x128, .i32⟩
  | 3 => ⟨S_, .i32⟩
  | 4 => ⟨S_, .i32⟩
  | 5 => ⟨S_, .i32⟩
  | 6 => ⟨S262144x128, .i32⟩
  | 7 => ⟨S262144x128, .i32⟩
  | 8 => ⟨S_, .i32⟩
  | 9 => ⟨S262144x128, .i32⟩
  | 10 => ⟨S262144x128, .i32⟩
  | 11 => ⟨S_, .i32⟩
  | 12 => ⟨S262144x128, .i32⟩
  | 13 => ⟨S262144x128, .i32⟩
  | 14 => ⟨S_, .i32⟩
  | 15 => ⟨S262144x128, .i32⟩
  | 16 => ⟨S262144x128, .i32⟩
  | 17 => ⟨S262144x128, .i32⟩
  | 18 => ⟨S262144x128, .i32⟩
  | 19 => ⟨S_, .i32⟩
  | 20 => ⟨S262144x128, .i32⟩
  | 21 => ⟨S262144x128, .i1⟩
  | 22 => ⟨S_, .i32⟩
  | 23 => ⟨S262144x128, .i32⟩
  | 24 => ⟨S262144x128, .i32⟩
  | 25 => ⟨S262144x128, .i32⟩
  | 26 => ⟨S262144x128x1, .i32⟩
  | 27 => ⟨S1, .i32⟩
  | 28 => ⟨S_, .i32⟩
  | 29 => ⟨S262144x128x1, .i32⟩
  | 30 => ⟨S262144x128x1, .i1⟩
  | 31 => ⟨S1x1x1, .i32⟩
  | 32 => ⟨S262144x128x1, .i32⟩
  | 33 => ⟨S262144x128x1, .i1⟩
  | 34 => ⟨S262144x128x1, .i1⟩
  | 35 => ⟨S_, .i1⟩
  | 36 => ⟨S262144x128, .i1⟩
  | 37 => ⟨S262144x128, .f32⟩
  | 38 => ⟨S_, .f32⟩
  | 39 => ⟨S262144x128, .f32⟩
  | 40 => ⟨S262144x128, .f32⟩
  | 41 => ⟨S128x128, .f32⟩
  | 42 => ⟨S128x128, .f32⟩
  | 43 => ⟨S1x128, .f32⟩
  | 44 => ⟨S1x128, .f32⟩
  | 45 => ⟨S262144x1, .f32⟩
  | 46 => ⟨S262144x1, .f32⟩
  | 47 => ⟨S262144, .f32⟩
  | 48 => ⟨S262144, .f32⟩
  | 49 => ⟨S_, .f32⟩
  | 50 => ⟨S262144, .f32⟩
  | 51 => ⟨S262144, .i1⟩
  | 52 => ⟨S262144x1, .i1⟩
  | 53 => ⟨S262144x3, .i1⟩
  | 54 => ⟨S262144x3, .f32⟩
  | _ => ⟨S128x128x128, .f32⟩

abbrev hbmTy (i : Nat) : BufTy := match i / 128 with
  | 0 => hbmTy0_0 i
  | 1 => hbmTy0_1 i
  | _ => ⟨S128x128x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | _, _ => ⟨S128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_4 : Ref sig .tc := ⟨.hbm, 26, rfl⟩
abbrev main_c_5 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_6 : Ref sig .tc := ⟨.hbm, 39, rfl⟩
abbrev main_c_7 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_8 : Ref sig .tc := ⟨.hbm, 52, rfl⟩
abbrev main_c_9 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v20 : Ref sig .tc := ⟨.hbm, 59, rfl⟩
abbrev main_c_10 : Ref sig .tc := ⟨.hbm, 60, rfl⟩
abbrev main_v21 : Ref sig .tc := ⟨.hbm, 61, rfl⟩
abbrev main_v22 : Ref sig .tc := ⟨.hbm, 62, rfl⟩
abbrev main_c_11 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_cst : Ref sig .tc := ⟨.hbm, 87, rfl⟩
abbrev main_call4_v14 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_c_12 : Ref sig .tc := ⟨.hbm, 92, rfl⟩
abbrev main_c_13 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_c_14 : Ref sig .tc := ⟨.hbm, 105, rfl⟩
abbrev main_c_15 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_c_16 : Ref sig .tc := ⟨.hbm, 118, rfl⟩
abbrev main_c_17 : Ref sig .tc := ⟨.hbm, 119, rfl⟩
abbrev main_call7_v0 : Ref sig .tc := ⟨.hbm, 120, rfl⟩
abbrev main_call7_v1 : Ref sig .tc := ⟨.hbm, 121, rfl⟩
abbrev main_call7_v2 : Ref sig .tc := ⟨.hbm, 122, rfl⟩
abbrev main_call7_v3 : Ref sig .tc := ⟨.hbm, 123, rfl⟩
abbrev main_call7_v4 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_c_18 : Ref sig .tc := ⟨.hbm, 131, rfl⟩
abbrev main_c_19 : Ref sig .tc := ⟨.hbm, 132, rfl⟩
abbrev main_call8_v0 : Ref sig .tc := ⟨.hbm, 133, rfl⟩
abbrev main_call8_v1 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_v48 : Ref sig .tc := ⟨.hbm, 138, rfl⟩
abbrev main_c_20 : Ref sig .tc := ⟨.hbm, 139, rfl⟩
abbrev main_v49 : Ref sig .tc := ⟨.hbm, 140, rfl⟩
abbrev main_v50 : Ref sig .tc := ⟨.hbm, 141, rfl⟩
abbrev main_c_21 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_call9_c : Ref sig .tc := ⟨.hbm, 147, rfl⟩
abbrev main_call9_v0 : Ref sig .tc := ⟨.hbm, 148, rfl⟩
abbrev main_call9_v1 : Ref sig .tc := ⟨.hbm, 149, rfl⟩
abbrev main_call9_c_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_v5 : Ref sig .tc := ⟨.hbm, 154, rfl⟩
abbrev main_call9_c_1 : Ref sig .tc := ⟨.hbm, 155, rfl⟩
abbrev main_call9_c_2 : Ref sig .tc := ⟨.hbm, 156, rfl⟩
abbrev main_call9_v6 : Ref sig .tc := ⟨.hbm, 157, rfl⟩
abbrev main_call9_v7 : Ref sig .tc := ⟨.hbm, 158, rfl⟩
abbrev main_call9_v8 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_c_3 : Ref sig .tc := ⟨.hbm, 163, rfl⟩
abbrev main_call9_v12 : Ref sig .tc := ⟨.hbm, 164, rfl⟩
abbrev main_call9_v13 : Ref sig .tc := ⟨.hbm, 165, rfl⟩
abbrev main_call9_cst : Ref sig .tc := ⟨.hbm, 166, rfl⟩
abbrev main_call9_v14 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60_0 : Ref sig .tc := ⟨.hbm, 173, rfl⟩
abbrev main_v60_1 : Ref sig .tc := ⟨.hbm, 174, rfl⟩
abbrev main_v61 : Ref sig .tc := ⟨.hbm, 175, rfl⟩
abbrev main_v62 : Ref sig .tc := ⟨.hbm, 176, rfl⟩
abbrev main_cst : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_call10_v0 : Ref sig .tc := ⟨.hbm, 181, rfl⟩
abbrev main_v66 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128x128x128_S2097152 : S128x128x128.ShapeCasts S2097152
  bcast_S_S262144x3 : S_.BroadcastsInDim S262144x3 (![] : Fin 0 → Fin S262144x3.rank)
  slices_S262144x3_S262144x1_0_0 : S262144x3.Slices ![0, 0] S262144x1
  bcast_S128_S1x128_1 : S128.BroadcastsInDim S1x128 (![1] : Fin 1 → Fin S1x128.rank)
  bcast_S262144x1_S262144x128_0_1 : S262144x1.BroadcastsInDim S262144x128 (![0, 1] : Fin 2 → Fin S262144x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S262144x3_S262144x1_0_1 : S262144x3.Slices ![0, 1] S262144x1
  slices_S262144x3_S262144x1_0_2 : S262144x3.Slices ![0, 2] S262144x1
  bcast_S262144x128_S262144x128x1_0_1 : S262144x128.BroadcastsInDim S262144x128x1 (![0, 1] : Fin 2 → Fin S262144x128x1.rank)
  bcast_S_S262144x128x1 : S_.BroadcastsInDim S262144x128x1 (![] : Fin 0 → Fin S262144x128x1.rank)
  bcast_S1_S1x1x1_2 : S1.BroadcastsInDim S1x1x1 (![2] : Fin 1 → Fin S1x1x1.rank)
  bcast_S1x1x1_S262144x128x1_0_1_2 : S1x1x1.BroadcastsInDim S262144x128x1 (![0, 1, 2] : Fin 3 → Fin S262144x128x1.rank)
  reducesTo_S262144x128x1_S262144x128_d2 : S262144x128x1.ReducesTo [2] S262144x128
  h_S_ : 0 < S_.numel
  slices_S256x128_S128x128_0_0 : S256x128.Slices ![0, 0] S128x128
  slices_S256x128_S128x128_128_0 : S256x128.Slices ![128, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2048x128_S2048x128 : S2048x128.ShapeCasts S2048x128
  broadcasts_S1x128_S2048x128 : S1x128.Broadcasts S2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  natLt_1_32 : 1 < 32
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)
  gather_S2097152_S262144x128x1_S262144x128_n_0_n_n_0_2_1_wf : GatherDims.WF S2097152 S262144x128x1 S262144x128 [] [0] [] [0] [] 2 ![1]
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S262144x1.size a
  hwx0_8 : ∀ i : grid0.Coords, EltTy.bits .f32 = 32 ∨ (Rect.block (s := S262144x1) S2048x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S262144x1.size a
  hwx0_9 : ∀ i : grid0.Coords, EltTy.bits .f32 = 32 ∨ (Rect.block (s := S262144x1) S2048x1.size (cc0_transform_9 i) (hinb0_9 i)).WholeWords (EltTy.packing .f32)

variable [Facts₀]

def gather_S2097152_S262144x128x1_S262144x128_n_0_n_n_0_2_1 : GatherDims S2097152 S262144x128x1 S262144x128 where
  offsetDims := []
  collapsedSliceDims := [0]
  operandBatchingDims := []
  startIndicesBatchingDims := []
  startIndexMap := [0]
  indexVectorDim := 2
  sliceSizes := ![1]
  wf := gather_S2097152_S262144x128x1_S262144x128_n_0_n_n_0_2_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60_0) S2048x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v60_1) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S128x128x128 : Shape := ⟨3, ![128, 128, 128]⟩
abbrev S262144x3 : Shape := ⟨2, ![262144, 3]⟩
abbrev S262144x128 : Shape := ⟨2, ![262144, 128]⟩
abbrev S256x128 : Shape := ⟨2, ![256, 128]⟩
abbrev S128 : Shape := ⟨1, ![128]⟩
abbrev S128x128 : Shape := ⟨2, ![128, 128]⟩
abbrev S_ : Shape := ⟨0, ![]⟩
abbrev S262144x1 : Shape := ⟨2, ![262144, 1]⟩
abbrev S1x128 : Shape := ⟨2, ![1, 128]⟩
abbrev S262144x128x1 : Shape := ⟨3, ![262144, 128, 1]⟩
abbrev S262144x128x3 : Shape := ⟨3, ![262144, 128, 3]⟩
abbrev S262144x256 : Shape := ⟨2, ![262144, 256]⟩
abbrev S262144 : Shape := ⟨1, ![262144]⟩

abbrev nBuf : Space → Nat
  | .hbm => 195
  | .vmem => 0
  | .smem => 0
  | _ => 0

abbrev hbmTy0_0 (i : Nat) : BufTy := match i % 128 with
  | 0 => ⟨S128x128x128, .f32⟩
  | 1 => ⟨S262144x3, .f32⟩
  | 2 => ⟨S262144x128, .f32⟩
  | 3 => ⟨S262144x3, .f32⟩
  | 4 => ⟨S256x128, .f32⟩
  | 5 => ⟨S128, .f32⟩
  | 6 => ⟨S128x128, .f32⟩
  | 7 => ⟨S128, .f32⟩
  | 8 => ⟨S128, .i32⟩
  | 9 => ⟨S128, .i32⟩
  | 10 => ⟨S128, .i32⟩
  | 11 => ⟨S262144x3, .i32⟩
  | 12 => ⟨S_, .i32⟩
  | 13 => ⟨S_, .i32⟩
  | 14 => ⟨S_, .i32⟩
  | 15 => ⟨S262144x3, .i32⟩
  | 16 => ⟨S262144x3, .i32⟩
  | 17 => ⟨S_, .i32⟩
  | 18 => ⟨S262144x3, .i32⟩
  | 19 => ⟨S262144x3, .i32⟩
  | 20 => ⟨S262144x1, .i32⟩
  | 21 => ⟨S1x128, .i32⟩
  | 22 => ⟨S262144x128, .i32⟩
  | 23 => ⟨S262144x128, .i32⟩
  | 24 => ⟨S262144x128, .i32⟩
  | 25 => ⟨S_, .i32⟩
  | 26 => ⟨S_, .i32⟩
  | 27 => ⟨S_, .i32⟩
  | 28 => ⟨S262144x128, .i32⟩
  | 29 => ⟨S262144x128, .i32⟩
  | 30 => ⟨S_, .i32⟩
  | 31 => ⟨S262144x128, .i32⟩
  | 32 => ⟨S262144x128, .i32⟩
  | 33 => ⟨S262144x1, .i32⟩
  | 34 => ⟨S1x128, .i32⟩
  | 35 => ⟨S262144x128, .i32⟩
  | 36 => ⟨S262144x128, .i32⟩
  | 37 => ⟨S262144x128, .i32⟩
  | 38 => ⟨S_, .i32⟩
  | 39 => ⟨S_, .i32⟩
  | 40 => ⟨S_, .i32⟩
  | 41 => ⟨S262144x128, .i32⟩
  | 42 => ⟨S262144x128, .i32⟩
  | 43 => ⟨S_, .i32⟩
  | 44 => ⟨S262144x128, .i32⟩
  | 45 => ⟨S262144x128, .i32⟩
  | 46 => ⟨S262144x1, .i32⟩
  | 47 => ⟨S1x128, .i32⟩
  | 48 => ⟨S262144x128, .i32⟩
  | 49 => ⟨S262144x128, .i32⟩
  | 50 => ⟨S262144x128, .i32⟩
  | 51 => ⟨S_, .i32⟩
  | 52 => ⟨S_, .i32⟩
  | 53 => ⟨S_, .i32⟩
  | 54 => ⟨S262144x128, .i32⟩
  | 55 => ⟨S262144x128, .i32⟩
  | 56 => ⟨S_, .i32⟩
  | 57 => ⟨S262144x128, .i32⟩
  | 58 => ⟨S262144x128, .i32⟩
  | 59 => ⟨S_, .i32⟩
  | 60 => ⟨S262144x128, .i32⟩
  | 61 => ⟨S262144x128, .i1⟩
  | 62 => ⟨S_, .i32⟩
  | 63 => ⟨S262144x128, .i32⟩
  | 64 => ⟨S262144x128, .i32⟩
  | 65 => ⟨S262144x128, .i32⟩
  | 66 => ⟨S_, .i32⟩
  | 67 => ⟨S262144x128, .i32⟩
  | 68 => ⟨S262144x128, .i1⟩
  | 69 => ⟨S_, .i32⟩
  | 70 => ⟨S262144x128, .i32⟩
  | 71 => ⟨S262144x128, .i32⟩
  | 72 => ⟨S262144x128, .i32⟩
  | 73 => ⟨S_, .i32⟩
  | 74 => ⟨S262144x128, .i32⟩
  | 75 => ⟨S262144x128, .i1⟩
  | 76 => ⟨S_, .i32⟩
  | 77 => ⟨S262144x128, .i32⟩
  | 78 => ⟨S262144x128, .i32⟩
  | 79 => ⟨S262144x128, .i32⟩
  | 80 => ⟨S262144x128x1, .i32⟩
  | 81 => ⟨S262144x128x1, .i32⟩
  | 82 => ⟨S262144x128x1, .i32⟩
  | 83 => ⟨S262144x128x3, .i32⟩
  | 84 => ⟨S262144x128, .f32⟩
  | 85 => ⟨S262144x256, .f32⟩
  | 86 => ⟨S262144x128, .f32⟩
  | 87 => ⟨S1x128, .f32⟩
  | 88 => ⟨S262144x128, .f32⟩
  | 89 => ⟨S262144x128, .f32⟩
  | 90 => ⟨S262144x128, .f32⟩
  | 91 => ⟨S262144x128, .f32⟩
  | 92 => ⟨S1x128, .f32⟩
  | 93 => ⟨S262144x128, .f32⟩
  | 94 => ⟨S262144x128, .f32⟩
  | 95 => ⟨S262144x128, .f32⟩
  | 96 => ⟨S262144x128, .f32⟩
  | 97 => ⟨S_, .f32⟩
  | 98 => ⟨S262144, .f32⟩
  | 99 => ⟨S262144, .f32⟩
  | 100 => ⟨S262144x3, .f32⟩
  | 101 => ⟨S262144x3, .i32⟩
  | 102 => ⟨S_, .i32⟩
  | 103 => ⟨S_, .i32⟩
  | 104 => ⟨S_, .i32⟩
  | 105 => ⟨S262144x3, .i32⟩
  | 106 => ⟨S262144x3, .i32⟩
  | 107 => ⟨S_, .i32⟩
  | 108 => ⟨S262144x3, .i32⟩
  | 109 => ⟨S262144x3, .i32⟩
  | 110 => ⟨S262144x1, .i32⟩
  | 111 => ⟨S1x128, .i32⟩
  | 112 => ⟨S262144x128, .i32⟩
  | 113 => ⟨S262144x128, .i32⟩
  | 114 => ⟨S262144x128, .i32⟩
  | 115 => ⟨S_, .i32⟩
  | 116 => ⟨S_, .i32⟩
  | 117 => ⟨S_, .i32⟩
  | 118 => ⟨S262144x128, .i32⟩
  | 119 => ⟨S262144x128, .i32⟩
  | 120 => ⟨S_, .i32⟩
  | 121 => ⟨S262144x128, .i32⟩
  | 122 => ⟨S262144x128, .i32⟩
  | 123 => ⟨S262144x1, .i32⟩
  | 124 => ⟨S1x128, .i32⟩
  | 125 => ⟨S262144x128, .i32⟩
  | 126 => ⟨S262144x128, .i32⟩
  | 127 => ⟨S262144x128, .i32⟩
  | _ => ⟨S128x128x128, .f32⟩

abbrev hbmTy0_1 (i : Nat) : BufTy := match i % 128 with
  | 0 => ⟨S_, .i32⟩
  | 1 => ⟨S_, .i32⟩
  | 2 => ⟨S_, .i32⟩
  | 3 => ⟨S262144x128, .i32⟩
  | 4 => ⟨S262144x128, .i32⟩
  | 5 => ⟨S_, .i32⟩
  | 6 => ⟨S262144x128, .i32⟩
  | 7 => ⟨S262144x128, .i32⟩
  | 8 => ⟨S262144x1, .i32⟩
  | 9 => ⟨S1x128, .i32⟩
  | 10 => ⟨S262144x128, .i32⟩
  | 11 => ⟨S262144x128, .i32⟩
  | 12 => ⟨S262144x128, .i32⟩
  | 13 => ⟨S_, .i32⟩
  | 14 => ⟨S_, .i32⟩
  | 15 => ⟨S_, .i32⟩
  | 16 => ⟨S262144x128, .i32⟩
  | 17 => ⟨S262144x128, .i32⟩
  | 18 => ⟨S_, .i32⟩
  | 19 => ⟨S262144x128, .i32⟩
  | 20 => ⟨S262144x128, .i32⟩
  | 21 => ⟨S_, .i32⟩
  | 22 => ⟨S262144x128, .i32⟩
  | 23 => ⟨S262144x128, .i1⟩
  | 24 => ⟨S_, .i32⟩
  | 25 => ⟨S262144x128, .i32⟩
  | 26 => ⟨S262144x128, .i32⟩
  | 27 => ⟨S262144x128, .i32⟩
  | 28 => ⟨S_, .i32⟩
  | 29 => ⟨S262144x128, .i32⟩
  | 30 => ⟨S262144x128, .i1⟩
  | 31 => ⟨S_, .i32⟩
  | 32 => ⟨S262144x128, .i32⟩
  | 33 => ⟨S262144x128, .i32⟩
  | 34 => ⟨S262144x128, .i32⟩
  | 35 => ⟨S_, .i32⟩
  | 36 => ⟨S262144x128, .i32⟩
  | 37 => ⟨S262144x128, .i1⟩
  | 38 => ⟨S_, .i32⟩
  | 39 => ⟨S262144x128, .i32⟩
  | 40 => ⟨S262144x128, .i32⟩
  | 41 => ⟨S262144x128, .i32⟩
  | 42 => ⟨S262144x128x1, .i32⟩
  | 43 => ⟨S262144x128x1, .i32⟩
  | 44 => ⟨S262144x128x1, .i32⟩
  | 45 => ⟨S262144x128x3, .i32⟩
  | 46 => ⟨S262144x128, .f32⟩
  | 47 => ⟨S262144x256, .f32⟩
  | 48 => ⟨S262144x128, .f32⟩
  | 49 => ⟨S1x128, .f32⟩
  | 50 => ⟨S262144x128, .f32⟩
  | 51 => ⟨S262144x128, .f32⟩
  | 52 => ⟨S262144x128, .f32⟩
  | 53 => ⟨S262144x128, .f32⟩
  | 54 => ⟨S1x128, .f32⟩
  | 55 => ⟨S262144x128, .f32⟩
  | 56 => ⟨S262144x128, .f32⟩
  | 57 => ⟨S262144x128, .f32⟩
  | 58 => ⟨S262144x128, .f32⟩
  | 59 => ⟨S_, .f32⟩
  | 60 => ⟨S262144, .f32⟩
  | 61 => ⟨S262144, .f32⟩
  | 62 => ⟨S262144, .i1⟩
  | 63 => ⟨S262144x1, .i1⟩
  | 64 => ⟨S262144x3, .i1⟩
  | 65 => ⟨S262144x3, .f32⟩
  | 66 => ⟨S262144, .f32⟩
  | _ => ⟨S128x128x128, .f32⟩

abbrev hbmTy (i : Nat) : BufTy := match i / 128 with
  | 0 => hbmTy0_0 i
  | 1 => hbmTy0_1 i
  | _ => ⟨S128x128x128, .f32⟩

abbrev bufTy : (tb : Table) → Fin (tcTables nBuf tb) → BufTy
  | .hbm, ⟨i, _⟩ => hbmTy i
  | _, _ => ⟨S128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_4 : Ref sig .tc := ⟨.hbm, 25, rfl⟩
abbrev main_c_5 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_6 : Ref sig .tc := ⟨.hbm, 38, rfl⟩
abbrev main_c_7 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_8 : Ref sig .tc := ⟨.hbm, 51, rfl⟩
abbrev main_c_9 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v19 : Ref sig .tc := ⟨.hbm, 58, rfl⟩
abbrev main_c_10 : Ref sig .tc := ⟨.hbm, 59, rfl⟩
abbrev main_v20 : Ref sig .tc := ⟨.hbm, 60, rfl⟩
abbrev main_v21 : Ref sig .tc := ⟨.hbm, 61, rfl⟩
abbrev main_c_11 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_c_12 : Ref sig .tc := ⟨.hbm, 66, rfl⟩
abbrev main_v25 : Ref sig .tc := ⟨.hbm, 67, rfl⟩
abbrev main_v26 : Ref sig .tc := ⟨.hbm, 68, rfl⟩
abbrev main_c_13 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c_14 : Ref sig .tc := ⟨.hbm, 73, rfl⟩
abbrev main_v30 : Ref sig .tc := ⟨.hbm, 74, rfl⟩
abbrev main_v31 : Ref sig .tc := ⟨.hbm, 75, rfl⟩
abbrev main_c_15 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_call4_v0 : Ref sig .tc := ⟨.hbm, 96, rfl⟩
abbrev main_call4_cst : Ref sig .tc := ⟨.hbm, 97, rfl⟩
abbrev main_call4_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_c_16 : Ref sig .tc := ⟨.hbm, 102, rfl⟩
abbrev main_c_17 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_c_18 : Ref sig .tc := ⟨.hbm, 115, rfl⟩
abbrev main_c_19 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_c_20 : Ref sig .tc := ⟨.hbm, 128, rfl⟩
abbrev main_c_21 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_c_22 : Ref sig .tc := ⟨.hbm, 141, rfl⟩
abbrev main_c_23 : Ref sig .tc := ⟨.hbm, 142, rfl⟩
abbrev main_call8_v0 : Ref sig .tc := ⟨.hbm, 143, rfl⟩
abbrev main_call8_v1 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_v72 : Ref sig .tc := ⟨.hbm, 148, rfl⟩
abbrev main_c_24 : Ref sig .tc := ⟨.hbm, 149, rfl⟩
abbrev main_v73 : Ref sig .tc := ⟨.hbm, 150, rfl⟩
abbrev main_v74 : Ref sig .tc := ⟨.hbm, 151, rfl⟩
abbrev main_c_25 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_c_26 : Ref sig .tc := ⟨.hbm, 156, rfl⟩
abbrev main_v78 : Ref sig .tc := ⟨.hbm, 157, rfl⟩
abbrev main_v79 : Ref sig .tc := ⟨.hbm, 158, rfl⟩
abbrev main_c_27 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_c_28 : Ref sig .tc := ⟨.hbm, 163, rfl⟩
abbrev main_v83 : Ref sig .tc := ⟨.hbm, 164, rfl⟩
abbrev main_v84 : Ref sig .tc := ⟨.hbm, 165, rfl⟩
abbrev main_c_29 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_call9_v0 : Ref sig .tc := ⟨.hbm, 186, rfl⟩
abbrev main_call9_cst : Ref sig .tc := ⟨.hbm, 187, rfl⟩
abbrev main_call9_v1 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_call10_v0 : Ref sig .tc := ⟨.hbm, 192, rfl⟩
abbrev main_v107 : Ref sig .tc := ⟨.hbm, 193, rfl⟩
abbrev main_v108 : Ref sig .tc := ⟨.hbm, 194, rfl⟩

abbrev nD : Nat := 1
abbrev τ : Topo := Topo.v7x

variable {F : FTy → Type} [FloatOps F]

class Facts₀ : Prop where
  bcast_S_S262144x3 : S_.BroadcastsInDim S262144x3 (![] : Fin 0 → Fin S262144x3.rank)
  slices_S262144x3_S262144x1_0_0 : S262144x3.Slices ![0, 0] S262144x1
  bcast_S128_S1x128_1 : S128.BroadcastsInDim S1x128 (![1] : Fin 1 → Fin S1x128.rank)
  bcast_S262144x1_S262144x128_0_1 : S262144x1.BroadcastsInDim S262144x128 (![0, 1] : Fin 2 → Fin S262144x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S262144x3_S262144x1_0_1 : S262144x3.Slices ![0, 1] S262144x1
  slices_S262144x3_S262144x1_0_2 : S262144x3.Slices ![0, 2] S262144x1
  bcast_S262144x128_S262144x128x1_0_1 : S262144x128.BroadcastsInDim S262144x128x1 (![0, 1] : Fin 2 → Fin S262144x128x1.rank)
  concatenates_S262144x128x1_S262144x128x1_S262144x128x1_S262144x128x3_d2 : Shape.Concatenates [S262144x128x1, S262144x128x1, S262144x128x1] S262144x128x3 2
  concatenates_S262144x128_S262144x128_S262144x256_d1 : Shape.Concatenates [S262144x128, S262144x128] S262144x256 1
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)
  gather_S128x128x128_S262144x128x3_S262144x128_n_012_n_n_012_2_111_wf : GatherDims.WF S128x128x128 S262144x128x3 S262144x128 [] [0, 1, 2] [] [0, 1, 2] [] 2 ![1, 1, 1]
  dot_S262144x256_S256x128_S262144x128_1_0_0_1_n_n_wf : DotDims.WF S262144x256 S256x128 S262144x128 [1] [0] [0] [1] [] []
  dot_S262144x128_S128x128_S262144x128_1_0_0_1_n_n_wf : DotDims.WF S262144x128 S128x128 S262144x128 [1] [0] [0] [1] [] []

variable [Facts₀]

def gather_S128x128x128_S262144x128x3_S262144x128_n_012_n_n_012_2_111 : GatherDims S128x128x128 S262144x128x3 S262144x128 where
  offsetDims := []
  collapsedSliceDims := [0, 1, 2]
  operandBatchingDims := []
  startIndicesBatchingDims := []
  startIndexMap := [0, 1, 2]
  indexVectorDim := 2
  sliceSizes := ![1, 1, 1]
  wf := gather_S128x128x128_S262144x128x3_S262144x128_n_012_n_n_012_2_111_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.StabSpec.lean ====
/-
  The stability residual of one unit, as a function of that unit's own data.

  A unit carries a signature row `s` and a sampled neighbourhood row `l` (128 numbers each). A two-layer network
  with weights `Wa`, `Wb` (the signature half and the neighbourhood half of the first layer), `W2` and biases
  `b1`, `b2` maps the pair to a response; the residual is the Euclidean norm of response minus signature:

    hidden k  = tanh (∑ a, s a · Wa a k  +  ∑ a, l a · Wb a k  +  b1 k)
    resid j   = (∑ k, hidden k · W2 k j  +  b2 j)  −  s j
    rowStab   = sqrt (∑ j, resid j · resid j)

  all on the extended reals. Nothing here depends on how the units are stored or tiled.
-/
import Idealize.ShloMosaic.PureOps.Ideal
import Idealize.ShloMosaic.PureOps.Ideal.Laws

noncomputable section

namespace StabSpec

open Idealize.ShloMosaic

/-- The hidden layer's `k`-th activation: the signature's and the neighbourhood's contributions are two separate
    sums of 128 products, added, then the bias. -/
def hidden (s l : Fin 128 → EReal) (Wa Wb : Fin 128 → Fin 128 → EReal) (b1 : Fin 128 → EReal) (k : Fin 128) : EReal :=
  Ideal.tanh (((∑ a : Fin 128, s a * Wa a k) + (∑ a : Fin 128, l a * Wb a k)) + b1 k)

/-- The response's `j`-th entry minus the signature's. -/
def resid (s l : Fin 128 → EReal) (Wa Wb : Fin 128 → Fin 128 → EReal) (b1 : Fin 128 → EReal)
    (W2 : Fin 128 → Fin 128 → EReal) (b2 : Fin 128 → EReal) (j : Fin 128) : EReal :=
  ((∑ k : Fin 128, hidden s l Wa Wb b1 k * W2 k j) + b2 j) - s j

/-- The residual norm of one unit. -/
def rowStab (s l : Fin 128 → EReal) (Wa Wb : Fin 128 → Fin 128 → EReal) (b1 : Fin 128 → EReal)
    (W2 : Fin 128 → Fin 128 → EReal) (b2 : Fin 128 → EReal) : EReal :=
  Ideal.sqrt (∑ j : Fin 128, resid s l Wa Wb b1 W2 b2 j * resid s l Wa Wb b1 W2 b2 j)

/-- The formula depends on its seven data only through their values. -/
theorem rowStab_congr {s s' l l' : Fin 128 → EReal} {Wa Wa' Wb Wb' : Fin 128 → Fin 128 → EReal} {b1 b1' : Fin 128 → EReal}
    {W2 W2' : Fin 128 → Fin 128 → EReal} {b2 b2' : Fin 128 → EReal}
    (hs : ∀ a, s a = s' a) (hl : ∀ a, l a = l' a) (ha : ∀ a k, Wa a k = Wa' a k) (hb : ∀ a k, Wb a k = Wb' a k)
    (h1 : ∀ k, b1 k = b1' k) (hw : ∀ k j, W2 k j = W2' k j) (h2 : ∀ j, b2 j = b2' j) :
    rowStab s l Wa Wb b1 W2 b2 = rowStab s' l' Wa' Wb' b1' W2' b2' := by
  obtain rfl : s = s' := funext hs
  obtain rfl : l = l' := funext hl
  obtain rfl : Wa = Wa' := funext fun a => funext (ha a)
  obtain rfl : Wb = Wb' := funext fun a => funext (hb a)
  obtain rfl : b1 = b1' := funext h1
  obtain rfl : W2 = W2' := funext fun k => funext (hw k)
  obtain rfl : b2 = b2' := funext h2
  rfl

end StabSpec

end
-- ==== Proof.KPay.lean ====
/-
  The kernel body's arithmetic, read one row at a time.

  The body works on a block of 2048 units. Every operation in it is row-wise: the two first-layer products contract
  over a row's 128 entries, the bias is one row laid over all rows, tanh is pointwise, the second product again
  contracts along the row, and the squared residual is summed along the row. So the block's result at row `r` is
  `StabSpec.rowStab` of row `r` of the signature block and of the neighbourhood block.
-/
import proofs.«119652_j82712480186467_2_alg».proof.Proof.Gen.KernelIdeal.Skeleton
import proofs.«119652_j82712480186467_2_alg».proof.Proof.StabSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen

/-- A [2048,128] × [128,128] product into a zero accumulator, at (r, c): the sum over the row's 128 entries. -/
theorem matmul_at (lhs : FVec Ideal S2048x128 .f32) (rhs : FVec Ideal S128x128 .f32) (r : Fin 2048) (c : Fin 128) :
    matmul dot_S2048x128_S128x128_S2048x128_1_0_0_1_n_n (some .fp32) lhs rhs (constant S2048x128 .f32 0x00000000#32) (ix2 r c)
      = ∑ k : Fin 128, lhs (ix2 r k) * rhs (ix2 k c) := by
  refine (Ideal.matmul_constant_zero_apply dot_S2048x128_S128x128_S2048x128_1_0_0_1_n_n (some .fp32) lhs rhs (ix2 r c)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have hl := DotDims.lhsIdx_val_of_single (d := dot_S2048x128_S128x128_S2048x128_1_0_0_1_n_n) (cl := (1 : Fin 2)) rfl (ix2 r c)
    ((contrEquiv1 dot_S2048x128_S128x128_S2048x128_1_0_0_1_n_n 128 rfl rfl).symm k)
  have hr := DotDims.rhsIdx_val_of_single (d := dot_S2048x128_S128x128_S2048x128_1_0_0_1_n_n) (cr := (0 : Fin 2)) rfl (ix2 r c)
    ((contrEquiv1 dot_S2048x128_S128x128_S2048x128_1_0_0_1_n_n 128 rfl rfl).symm k)
  congr 2
  · funext a
    match a with
    | ⟨0, _⟩ => rfl
    | ⟨1, _⟩ => exact Fin.ext (hl.trans hk)
  · funext a
    match a with
    | ⟨0, _⟩ => exact Fin.ext (hr.trans hk)
    | ⟨1, _⟩ => rfl

/-- One bias row laid over all 2048 rows, at (r, k): the row's k-th entry. -/
theorem rowbcast_at (v : FVec Ideal S1x128 .f32) (r : Fin 2048) (k : Fin 128) :
    broadcastTo S2048x128 v broadcasts_S1x128_S2048x128 (ix2 r k) = v (ix2 (0 : Fin 1) k) :=
  broadcastTo_1b_ab_apply v broadcasts_S1x128_S2048x128 r k

/-- A sum along each row, kept as a one-column matrix, at (r, 0): the sum of row r's 128 entries. -/
theorem rowsum_at (src : FVec Ideal S2048x128 .f32) (hacc : (0x00000000#32 : BitVec 32) = 0x00000000#32)
    (r : Fin 2048) (u : Fin 1) :
    shapeCast S2048x1 (multiReduction .add [1] S2048 src 0x00000000#32 reduces_S2048x128_S2048 (.inl rfl) hacc)
        shapeCasts_S2048_S2048x1 (ix2 r u)
      = ∑ j : Fin 128, src (ix2 r j) := by
  refine (shapeCast_apply _ shapeCasts_S2048_S2048x1 (ix2 r u) (ix1 r) ?_).trans ?_
  · rw [Shape.rowMajor_val_one, Shape.rowMajor_val_two]
    show r.val = r.val * 1 + u.val
    omega
  · refine (Ideal.multiReduction_add_single src 0x00000000#32 reduces_S2048x128_S2048 (.inl rfl) hacc (ix1 r)).trans ?_
    show ∑ j : Fin 128, src (reduces_S2048x128_S2048.lift (ix1 r) j) = _
    refine Finset.sum_congr rfl fun j _ => congrArg src ?_
    funext a
    match a with
    | ⟨0, _⟩ => rfl
    | ⟨1, _⟩ => rfl

/-- THE BLOCK'S RESIDUAL NORM AT ROW r is the one-unit formula of row r of the signature block `v0` and of the
    neighbourhood block `v10`. -/
theorem pay9_at (v0 v10 : FVec Ideal S2048x128 .f32) (v1 v3 v5 : FVec Ideal S128x128 .f32) (v6 v8 : FVec Ideal S1x128 .f32)
    (r : Fin 2048) (u : Fin 1) :
    k0_pay9 (F := Ideal) v0 v1 v3 v5 v6 v8 v10 (ix2 r u)
      = StabSpec.rowStab (fun a => v0 (ix2 r a)) (fun a => v10 (ix2 r a)) (fun a k => v1 (ix2 a k)) (fun a k => v3 (ix2 a k))
          (fun k => v6 (ix2 (0 : Fin 1) k)) (fun k j => v5 (ix2 k j)) (fun j => v8 (ix2 (0 : Fin 1) j)) := by
  unfold k0_pay9 k0_pay5 k0_pay6 k0_pay7 k0_pay8 StabSpec.rowStab
  simp only [shapeCast_self]
  refine congrArg Ideal.sqrt ((rowsum_at _ rfl r u).trans (Finset.sum_congr rfl fun j _ => ?_))
  have hD : ∀ j : Fin 128,
      subf (addf (matmul dot_S2048x128_S128x128_S2048x128_1_0_0_1_n_n (some .fp32)
          (tanh (addf (addf (matmul dot_S2048x128_S128x128_S2048x128_1_0_0_1_n_n (some .fp32) v0 v1 (constant S2048x128 .f32 0x00000000#32))
            (matmul dot_S2048x128_S128x128_S2048x128_1_0_0_1_n_n (some .fp32) v10 v3 (constant S2048x128 .f32 0x00000000#32)))
            (broadcastTo S2048x128 v6 broadcasts_S1x128_S2048x128)))
          v5 (constant S2048x128 .f32 0x00000000#32)) (broadcastTo S2048x128 v8 broadcasts_S1x128_S2048x128)) v0 (ix2 r j)
        = StabSpec.resid (fun a => v0 (ix2 r a)) (fun a => v10 (ix2 r a)) (fun a k => v1 (ix2 a k)) (fun a k => v3 (ix2 a k))
          (fun k => v6 (ix2 (0 : Fin 1) k)) (fun k j => v5 (ix2 k j)) (fun j => v8 (ix2 (0 : Fin 1) j)) j := by
    intro j
    unfold StabSpec.resid
    refine congrArg₂ (· - ·) (congrArg₂ (· + ·) ((matmul_at _ _ r j).trans ?_) (rowbcast_at _ r j)) rfl
    refine Finset.sum_congr rfl fun k _ => congrArg (· * v5 (ix2 k j)) ?_
    unfold StabSpec.hidden
    exact congrArg Ideal.tanh (congrArg₂ (· + ·) (congrArg₂ (· + ·) (matmul_at _ _ r k) (matmul_at _ _ r k)) (rowbcast_at _ r k))
  exact congrArg₂ (· * ·) (hD j) (hD j)

/-- The second evaluation's tail (bias, residual, squared row sum, root) applied to its second-layer product is the
    same block function as the first evaluation, at the other neighbourhood block. -/
theorem pay1_pay10 (v0 v26 : FVec Ideal S2048x128 .f32) (v1 v3 v5 : FVec Ideal S128x128 .f32) (v6 v8 : FVec Ideal S1x128 .f32) :
    k0_pay1 (F := Ideal) v0 (k0_pay10 (F := Ideal) v0 v1 v3 v5 v6 v26) (k0_pay11 (F := Ideal) v8) = k0_pay9 (F := Ideal) v0 v1 v3 v5 v6 v8 v26 := rfl

/-- The one-unit formula of row r of a block: the shorthand the two store payloads are stated with. -/
abbrev rowOf (v0 vl : FVec Ideal S2048x128 .f32) (v1 v3 v5 : FVec Ideal S128x128 .f32) (v6 v8 : FVec Ideal S1x128 .f32)
    (r : Fin 2048) : EReal :=
  StabSpec.rowStab (fun a => v0 (ix2 r a)) (fun a => vl (ix2 r a)) (fun a k => v1 (ix2 a k)) (fun a k => v3 (ix2 a k))
    (fun k => v6 (ix2 (0 : Fin 1) k)) (fun k j => v5 (ix2 k j)) (fun j => v8 (ix2 (0 : Fin 1) j))

/-- THE FIRST STORE at row r: the smaller of the two residual norms, the moved unit's when it is not larger. -/
theorem pay3_at (v0 vo vn : FVec Ideal S2048x128 .f32) (v1 v3 v5 : FVec Ideal S128x128 .f32) (v6 v8 : FVec Ideal S1x128 .f32)
    (r : Fin 2048) (u : Fin 1) :
    k0_pay3 (F := Ideal) v0 (k0_pay9 (F := Ideal) v0 v1 v3 v5 v6 v8 vo) (k0_pay10 (F := Ideal) v0 v1 v3 v5 v6 vn)
        (k0_pay11 (F := Ideal) v8) (ix2 r u)
      = Scalar.select (Ideal.cmp .ole (rowOf v0 vn v1 v3 v5 v6 v8 r) (rowOf v0 vo v1 v3 v5 v6 v8 r))
          (rowOf v0 vn v1 v3 v5 v6 v8 r) (rowOf v0 vo v1 v3 v5 v6 v8 r) := by
  have hN := pay9_at v0 vn v1 v3 v5 v6 v8 r u
  have hO := pay9_at v0 vo v1 v3 v5 v6 v8 r u
  show Scalar.select (FloatOps.cmpf .ole
      (k0_pay1 (F := Ideal) v0 (k0_pay10 (F := Ideal) v0 v1 v3 v5 v6 vn) (k0_pay11 (F := Ideal) v8) (ix2 r u))
      (k0_pay9 (F := Ideal) v0 v1 v3 v5 v6 v8 vo (ix2 r u)))
      (k0_pay1 (F := Ideal) v0 (k0_pay10 (F := Ideal) v0 v1 v3 v5 v6 vn) (k0_pay11 (F := Ideal) v8) (ix2 r u))
      (k0_pay9 (F := Ideal) v0 v1 v3 v5 v6 v8 vo (ix2 r u)) = _
  rw [pay1_pay10, hN, hO]
  rfl

/-- THE SECOND STORE at row r: the acceptance bit — the moved unit's norm is not larger — as the number 0 or 1. -/
theorem pay4_at (v0 vo vn : FVec Ideal S2048x128 .f32) (v1 v3 v5 : FVec Ideal S128x128 .f32) (v6 v8 : FVec Ideal S1x128 .f32)
    (r : Fin 2048) (u : Fin 1) :
    k0_pay4 (F := Ideal) v0 (k0_pay9 (F := Ideal) v0 v1 v3 v5 v6 v8 vo) (k0_pay10 (F := Ideal) v0 v1 v3 v5 v6 vn)
        (k0_pay11 (F := Ideal) v8) (ix2 r u)
      = FloatOps.sitofp (F := Ideal) .f32
          ((Ideal.cmp .ole (rowOf v0 vn v1 v3 v5 v6 v8 r) (rowOf v0 vo v1 v3 v5 v6 v8 r)).setWidth 32) := by
  have hN := pay9_at v0 vn v1 v3 v5 v6 v8 r u
  have hO := pay9_at v0 vo v1 v3 v5 v6 v8 r u
  show FloatOps.sitofp (F := Ideal) .f32 ((FloatOps.cmpf .ole
      (k0_pay1 (F := Ideal) v0 (k0_pay10 (F := Ideal) v0 v1 v3 v5 v6 vn) (k0_pay11 (F := Ideal) v8) (ix2 r u))
      (k0_pay9 (F := Ideal) v0 v1 v3 v5 v6 v8 vo (ix2 r u))).setWidth 32) = _
  rw [pay1_pay10, hN, hO]
  rfl

end Cert.KernelIdeal.KPay

end
-- ==== Proof.KBlocks.lean ====
/-
  From the kernel's blocks to its two result arrays.

  The grid has 128 points. At point `t` the signature array and the two neighbourhood arrays are read through rows
  `2048·t … 2048·t + 2047`, the weights and biases whole, and the two one-column results are written back to the same
  rows. Because the body is row-wise (KPay), row `r` of what point `t` writes is the one-unit formula of unit
  `n = 2048·t + r` read off the WHOLE arrays; the 128 row ranges tile the 262144 units, so each result array ends
  as one function of the unit index:
    result 0 at n : the smaller of the moved unit's and the resting unit's residual norm (the moved one on a tie),
    result 1 at n : 1 if the moved unit's norm is not larger, else 0.
-/
import proofs.«119652_j82712480186467_2_alg».proof.Proof.Gen.KernelIdeal.Frame
import proofs.«119652_j82712480186467_2_alg».proof.Proof.KPay
import Idealize.ShloMosaic.Lib.Pipeline.Value

set_option maxRecDepth 16384

noncomputable section

namespace Cert.KernelIdeal.KBlocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- Where each window sits at point `t`: the row-tiled windows at block row `t`, the weights and biases at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 128 := lt_of_lt_of_eq t.isLt N_0

/-- Unit `2048·t + r` is one of the 262144. -/
theorem unit_lt (t : Fin cfg0.N) (r : Fin 2048) : t.val * 2048 + r.val < 262144 := by
  have := point_lt t; have := r.isLt; omega

/-- The unit a row of point `t`'s block is. -/
abbrev unit (t : Fin cfg0.N) (r : Fin 2048) : Fin 262144 := ⟨t.val * 2048 + r.val, unit_lt t r⟩

/-! ## Each input window's block, read where the whole array says

Stated first for an ARBITRARY array in the window's place (only the window's index map matters), then used at the
array the region finds there. -/

theorem read_blk0 (c : Dev nD) (t : Fin cfg0.N) (r : Fin 2048) (a : Fin 128) (A : Buf (Elt Ideal) ((c : Thread nD τ).loc (Pipeline.arrRef spec0 0))) :
    ((cfg0.win 0).blk t).view.read (Elt Ideal) A (ix2 r a) = A (ix2 (unit t r) a) := by
  show A (((cfg0.win 0).blk t).view.emb (ix2 r a)) = _
  refine congrArg A ?_
  obtain ⟨e0, e1, -⟩ := idx_facts t
  funext ax; apply Fin.ext
  match ax with
  | ⟨0, _⟩ => show win0_0.index t (0 : Fin 2) * 2048 + 1 * r.val = t.val * 2048 + r.val; omega
  | ⟨1, _⟩ => show win0_0.index t (1 : Fin 2) * 128 + 1 * a.val = a.val; omega

theorem blk0 (c : Dev nD) (t : Fin cfg0.N) (r : Fin 2048) (a : Fin 128) :
    iblk m c 0 t (ix2 r a) = V m c main_arg2 (ix2 (unit t r) a) :=
  read_blk0 c t r a (V m c (Pipeline.arrRef spec0 0))

theorem read_blk1 (c : Dev nD) (t : Fin cfg0.N) (r : Fin 2048) (a : Fin 128) (A : Buf (Elt Ideal) ((c : Thread nD τ).loc (Pipeline.arrRef spec0 1))) :
    ((cfg0.win 1).blk t).view.read (Elt Ideal) A (ix2 r a) = A (ix2 (unit t r) a) := by
  show A (((cfg0.win 1).blk t).view.emb (ix2 r a)) = _
  refine congrArg A ?_
  obtain ⟨-, -, e0, e1, -⟩ := idx_facts t
  funext ax; apply Fin.ext
  match ax with
  | ⟨0, _⟩ => show win0_1.index t (0 : Fin 2) * 2048 + 1 * r.val = t.val * 2048 + r.val; omega
  | ⟨1, _⟩ => show win0_1.index t (1 : Fin 2) * 128 + 1 * a.val = a.val; omega

theorem blk1 (c : Dev nD) (t : Fin cfg0.N) (r : Fin 2048) (a : Fin 128) :
    iblk m c 1 t (ix2 r a) = V m c main_v27 (ix2 (unit t r) a) :=
  read_blk1 c t r a (V m c (Pipeline.arrRef spec0 1))

theorem read_blk2 (c : Dev nD) (t : Fin cfg0.N) (r : Fin 2048) (a : Fin 128) (A : Buf (Elt Ideal) ((c : Thread nD τ).loc (Pipeline.arrRef spec0 2))) :
    ((cfg0.win 2).blk t).view.read (Elt Ideal) A (ix2 r a) = A (ix2 (unit t r) a) := by
  show A (((cfg0.win 2).blk t).view.emb (ix2 r a)) = _
  refine congrArg A ?_
  obtain ⟨-, -, -, -, e0, e1, -⟩ := idx_facts t
  funext ax; apply Fin.ext
  match ax with
  | ⟨0, _⟩ => show win0_2.index t (0 : Fin 2) * 2048 + 1 * r.val = t.val * 2048 + r.val; omega
  | ⟨1, _⟩ => show win0_2.index t (1 : Fin 2) * 128 + 1 * a.val = a.val; omega

theorem blk2 (c : Dev nD) (t : Fin cfg0.N) (r : Fin 2048) (a : Fin 128) :
    iblk m c 2 t (ix2 r a) = V m c main_v55 (ix2 (unit t r) a) :=
  read_blk2 c t r a (V m c (Pipeline.arrRef spec0 2))

theorem read_blk3 (c : Dev nD) (t : Fin cfg0.N) (a k : Fin 128) (A : Buf (Elt Ideal) ((c : Thread nD τ).loc (Pipeline.arrRef spec0 3))) :
    ((cfg0.win 3).blk t).view.read (Elt Ideal) A (ix2 a k) = A (ix2 a k) := by
  show A (((cfg0.win 3).blk t).view.emb (ix2 a k)) = _
  refine congrArg A ?_
  obtain ⟨-, -, -, -, -, -, e0, e1, -⟩ := idx_facts t
  funext ax; apply Fin.ext
  match ax with
  | ⟨0, _⟩ => show win0_3.index t (0 : Fin 2) * 128 + 1 * a.val = a.val; omega
  | ⟨1, _⟩ => show win0_3.index t (1 : Fin 2) * 128 + 1 * k.val = k.val; omega

theorem blk3 (c : Dev nD) (t : Fin cfg0.N) (a k : Fin 128) :
    iblk m c 3 t (ix2 a k) = V m c main_v56 (ix2 a k) :=
  read_blk3 c t a k (V m c (Pipeline.arrRef spec0 3))

theorem read_blk4 (c : Dev nD) (t : Fin cfg0.N) (a k : Fin 128) (A : Buf (Elt Ideal) ((c : Thread nD τ).loc (Pipeline.arrRef spec0 4))) :
    ((cfg0.win 4).blk t).view.read (Elt Ideal) A (ix2 a k) = A (ix2 a k) := by
  show A (((cfg0.win 4).blk t).view.emb (ix2 a k)) = _
  refine congrArg A ?_
  obtain ⟨-, -, -, -, -, -, -, -, e0, e1, -⟩ := idx_facts t
  funext ax; apply Fin.ext
  match ax with
  | ⟨0, _⟩ => show win0_4.index t (0 : Fin 2) * 128 + 1 * a.val = a.val; omega
  | ⟨1, _⟩ => show win0_4.index t (1 : Fin 2) * 128 + 1 * k.val = k.val; omega

theorem blk4 (c : Dev nD) (t : Fin cfg0.N) (a k : Fin 128) :
    iblk m c 4 t (ix2 a k) = V m c main_v57 (ix2 a k) :=
  read_blk4 c t a k (V m c (Pipeline.arrRef spec0 4))

theorem read_blk5 (c : Dev nD) (t : Fin cfg0.N) (k : Fin 128) (A : Buf (Elt Ideal) ((c : Thread nD τ).loc (Pipeline.arrRef spec0 5))) :
    ((cfg0.win 5).blk t).view.read (Elt Ideal) A (ix2 (0 : Fin 1) k) = A (ix2 (0 : Fin 1) k) := by
  show A (((cfg0.win 5).blk t).view.emb (ix2 (0 : Fin 1) k)) = _
  refine congrArg A ?_
  obtain ⟨-, -, -, -, -, -, -, -, -, -, e0, e1, -⟩ := idx_facts t
  funext ax; apply Fin.ext
  match ax with
  | ⟨0, _⟩ => show win0_5.index t (0 : Fin 2) * 1 + 1 * 0 = 0; omega
  | ⟨1, _⟩ => show win0_5.index t (1 : Fin 2) * 128 + 1 * k.val = k.val; omega

theorem blk5 (c : Dev nD) (t : Fin cfg0.N) (k : Fin 128) :
    iblk m c 5 t (ix2 (0 : Fin 1) k) = V m c main_v58 (ix2 (0 : Fin 1) k) :=
  read_blk5 c t k (V m c (Pipeline.arrRef spec0 5))

theorem read_blk6 (c : Dev nD) (t : Fin cfg0.N) (a k : Fin 128) (A : Buf (Elt Ideal) ((c : Thread nD τ).loc (Pipeline.arrRef spec0 6))) :
    ((cfg0.win 6).blk t).view.read (Elt Ideal) A (ix2 a k) = A (ix2 a k) := by
  show A (((cfg0.win 6).blk t).view.emb (ix2 a k)) = _
  refine congrArg A ?_
  obtain ⟨-, -, -, -, -, -, -, -, -, -, -, -, e0, e1, -⟩ := idx_facts t
  funext ax; apply Fin.ext
  match ax with
  | ⟨0, _⟩ => show win0_6.index t (0 : Fin 2) * 128 + 1 * a.val = a.val; omega
  | ⟨1, _⟩ => show win0_6.index t (1 : Fin 2) * 128 + 1 * k.val = k.val; omega

theorem blk6 (c : Dev nD) (t : Fin cfg0.N) (a k : Fin 128) :
    iblk m c 6 t (ix2 a k) = V m c main_arg6 (ix2 a k) :=
  read_blk6 c t a k (V m c (Pipeline.arrRef spec0 6))

theorem read_blk7 (c : Dev nD) (t : Fin cfg0.N) (k : Fin 128) (A : Buf (Elt Ideal) ((c : Thread nD τ).loc (Pipeline.arrRef spec0 7))) :
    ((cfg0.win 7).blk t).view.read (Elt Ideal) A (ix2 (0 : Fin 1) k) = A (ix2 (0 : Fin 1) k) := by
  show A (((cfg0.win 7).blk t).view.emb (ix2 (0 : Fin 1) k)) = _
  refine congrArg A ?_
  obtain ⟨-, -, -, -, -, -, -, -, -, -, -, -, -, -, e0, e1, -⟩ := idx_facts t
  funext ax; apply Fin.ext
  match ax with
  | ⟨0, _⟩ => show win0_7.index t (0 : Fin 2) * 1 + 1 * 0 = 0; omega
  | ⟨1, _⟩ => show win0_7.index t (1 : Fin 2) * 128 + 1 * k.val = k.val; omega

theorem blk7 (c : Dev nD) (t : Fin cfg0.N) (k : Fin 128) :
    iblk m c 7 t (ix2 (0 : Fin 1) k) = V m c main_v59 (ix2 (0 : Fin 1) k) :=
  read_blk7 c t k (V m c (Pipeline.arrRef spec0 7))

/-! ## The two result arrays as functions of the unit index -/

/-- Unit `n`'s residual norm from the arrays as the region finds them, for the neighbourhood array `loc`. -/
def stabV (c : Dev nD) (loc : S262144x128.Idx → EReal) (n : Fin 262144) : EReal :=
  StabSpec.rowStab (fun a => V m c main_arg2 (ix2 n a)) (fun a => loc (ix2 n a)) (fun a k => V m c main_v56 (ix2 a k))
    (fun a k => V m c main_v57 (ix2 a k)) (fun k => V m c main_v58 (ix2 (0 : Fin 1) k)) (fun k j => V m c main_arg6 (ix2 k j))
    (fun j => V m c main_v59 (ix2 (0 : Fin 1) j))

/-- The unit an index of a one-column result array names. -/
abbrev unitOf (i : S262144x1.Idx) : Fin 262144 := ⟨(i 0).val, idx2_lt0 i⟩

/-- Result 0: the smaller residual norm, the moved unit's on a tie. -/
def G8 (c : Dev nD) : S262144x1.Idx → EReal := fun i =>
  Scalar.select (Ideal.cmp .ole (stabV m c (V m c main_v55) (unitOf i)) (stabV m c (V m c main_v27) (unitOf i)))
    (stabV m c (V m c main_v55) (unitOf i)) (stabV m c (V m c main_v27) (unitOf i))

/-- Result 1: the acceptance bit as the number 0 or 1. -/
def G9 (c : Dev nD) : S262144x1.Idx → EReal := fun i =>
  FloatOps.sitofp (F := Ideal) .f32
    ((Ideal.cmp .ole (stabV m c (V m c main_v55) (unitOf i)) (stabV m c (V m c main_v27) (unitOf i))).setWidth 32)

/-- Row `r` of point `t`'s blocks gives unit `2048·t + r`'s formula over the whole arrays (resting unit). -/
theorem rowOf_old (c : Dev nD) (t : Fin cfg0.N) (r : Fin 2048) :
    KPay.rowOf (iblk m c 0 t) (iblk m c 1 t) (iblk m c 3 t) (iblk m c 4 t) (iblk m c 6 t) (iblk m c 5 t) (iblk m c 7 t) r
      = stabV m c (V m c main_v27) (unit t r) :=
  StabSpec.rowStab_congr (fun a => blk0 m c t r a) (fun a => blk1 m c t r a) (fun a k => blk3 m c t a k) (fun a k => blk4 m c t a k)
    (fun k => blk5 m c t k) (fun k j => blk6 m c t k j) (fun j => blk7 m c t j)

/-- The same for the moved unit. -/
theorem rowOf_new (c : Dev nD) (t : Fin cfg0.N) (r : Fin 2048) :
    KPay.rowOf (iblk m c 0 t) (iblk m c 2 t) (iblk m c 3 t) (iblk m c 4 t) (iblk m c 6 t) (iblk m c 5 t) (iblk m c 7 t) r
      = stabV m c (V m c main_v55) (unit t r) :=
  StabSpec.rowStab_congr (fun a => blk0 m c t r a) (fun a => blk2 m c t r a) (fun a k => blk3 m c t a k) (fun a k => blk4 m c t a k)
    (fun k => blk5 m c t k) (fun k j => blk6 m c t k j) (fun j => blk7 m c t j)

/-! ## What each point writes back, the cover, and the two arrays after the run -/

set_option maxHeartbeats 1000000 in
/-- WHAT POINT `t` WRITES BACK to result window 8 is block `t` of `G8`. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz]
  simp only [View.ld_unit_zero (S := S2048x128) hz, View.ld_unit_zero (S := S128x128) hz, View.ld_unit_zero (S := S1x128) hz]
  funext j
  obtain ⟨r, u, rfl⟩ : ∃ (r : Fin 2048) (u : Fin 1), j = ix2 r u := ⟨j 0, j 1, eq_ix2 j⟩
  refine (KPay.pay3_at (iblk m c 0 t) (iblk m c 1 t) (iblk m c 2 t) (iblk m c 3 t) (iblk m c 4 t) (iblk m c 6 t) (iblk m c 5 t)
    (iblk m c 7 t) r u).trans ?_
  rw [rowOf_old, rowOf_new]
  show _ = G8 m c (((cfg0.win 8).blk t).view.emb (ix2 r u))
  have hu : unitOf (((cfg0.win 8).blk t).view.emb (ix2 r u)) = unit t r := by
    obtain ⟨-, -, -, -, -, -, -, -, -, -, -, -, -, -, -, -, e0, e1, -⟩ := idx_facts t
    apply Fin.ext
    show win0_8.index t (0 : Fin 2) * 2048 + 1 * r.val = t.val * 2048 + r.val
    omega
  unfold G8
  rw [hu]

/-- An index of the result array is in point `t`'s block iff each coordinate is in the block's range on its axis. -/
theorem mem_blk8 (t : Fin cfg0.N) (i : S262144x1.Idx) :
    i ∈ ((cfg0.win 8).blk t).view.set ↔ ∀ a : Fin 2, win0_8.index t a * S2048x1.size a ≤ (i a).val
      ∧ (i a).val < win0_8.index t a * S2048x1.size a + S2048x1.size a := by
  show i ∈ ((View.whole main_v60_0).slice (win0_8.rect t)).set ↔ _
  rw [View.set_slice_whole, Rect.mem_set_unit]
  exact Iff.rfl

/-- Every unit is in the block of the point `n / 2048`, which writes back. -/
theorem cover8 (i : S262144x1.Idx) :
    ∃ t : Fin cfg0.N, (cfg0.win 8).flush t = true ∧ i ∈ ((cfg0.win 8).blk t).view.set := by
  have hi0 : (i 0).val < 262144 := idx2_lt0 i
  have hi1 : (i 1).val < 1 := idx2_lt1 i
  have hN : grid0.N = 128 := N_0
  refine ⟨⟨(i 0).val / 2048, by show (i 0).val / 2048 < grid0.N; rw [hN]; omega⟩, flush0_8 _, ?_⟩
  rw [mem_blk8]
  obtain ⟨-, -, -, -, -, -, -, -, -, -, -, -, -, -, -, -, e0, e1, -⟩ := idx_facts ⟨(i 0).val / 2048, by show (i 0).val / 2048 < grid0.N; rw [hN]; omega⟩
  intro a
  match a with
  | ⟨0, _⟩ =>
    show win0_8.index _ (0 : Fin 2) * 2048 ≤ (i 0).val ∧ (i 0).val < win0_8.index _ (0 : Fin 2) * 2048 + 2048
    rw [e0]; show (i 0).val / 2048 * 2048 ≤ (i 0).val ∧ (i 0).val < (i 0).val / 2048 * 2048 + 2048; omega
  | ⟨1, _⟩ =>
    show win0_8.index _ (1 : Fin 2) * 1 ≤ (i 1).val ∧ (i 1).val < win0_8.index _ (1 : Fin 2) * 1 + 1
    rw [e1]; omega

/-- THE ARRAY after the run: `G8` at every unit. -/
theorem final8 (c : Dev nD) : (dats m 0 c).arrAt 8 cfg0.N = G8 m c :=
  (dats m 0 c).arrAt_eq_of_cover 8 (G8 m c) (fun t _ => flushed8_eq m c t) cover8

set_option maxHeartbeats 1000000 in
/-- WHAT POINT `t` WRITES BACK to result window 9 is block `t` of `G9`. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S2048x128) hz, View.ld_unit_zero (S := S128x128) hz, View.ld_unit_zero (S := S1x128) hz]
  funext j
  obtain ⟨r, u, rfl⟩ : ∃ (r : Fin 2048) (u : Fin 1), j = ix2 r u := ⟨j 0, j 1, eq_ix2 j⟩
  refine (KPay.pay4_at (iblk m c 0 t) (iblk m c 1 t) (iblk m c 2 t) (iblk m c 3 t) (iblk m c 4 t) (iblk m c 6 t) (iblk m c 5 t)
    (iblk m c 7 t) r u).trans ?_
  rw [rowOf_old, rowOf_new]
  show _ = G9 m c (((cfg0.win 9).blk t).view.emb (ix2 r u))
  have hu : unitOf (((cfg0.win 9).blk t).view.emb (ix2 r u)) = unit t r := by
    obtain ⟨-, -, -, -, -, -, -, -, -, -, -, -, -, -, -, -, -, -, e0, e1⟩ := idx_facts t
    apply Fin.ext
    show win0_9.index t (0 : Fin 2) * 2048 + 1 * r.val = t.val * 2048 + r.val
    omega
  unfold G9
  rw [hu]

/-- An index of the result array is in point `t`'s block iff each coordinate is in the block's range on its axis. -/
theorem mem_blk9 (t : Fin cfg0.N) (i : S262144x1.Idx) :
    i ∈ ((cfg0.win 9).blk t).view.set ↔ ∀ a : Fin 2, win0_9.index t a * S2048x1.size a ≤ (i a).val
      ∧ (i a).val < win0_9.index t a * S2048x1.size a + S2048x1.size a := by
  show i ∈ ((View.whole main_v60_1).slice (win0_9.rect t)).set ↔ _
  rw [View.set_slice_whole, Rect.mem_set_unit]
  exact Iff.rfl

/-- Every unit is in the block of the point `n / 2048`, which writes back. -/
theorem cover9 (i : S262144x1.Idx) :
    ∃ t : Fin cfg0.N, (cfg0.win 9).flush t = true ∧ i ∈ ((cfg0.win 9).blk t).view.set := by
  have hi0 : (i 0).val < 262144 := idx2_lt0 i
  have hi1 : (i 1).val < 1 := idx2_lt1 i
  have hN : grid0.N = 128 := N_0
  refine ⟨⟨(i 0).val / 2048, by show (i 0).val / 2048 < grid0.N; rw [hN]; omega⟩, flush0_9 _, ?_⟩
  rw [mem_blk9]
  obtain ⟨-, -, -, -, -, -, -, -, -, -, -, -, -, -, -, -, -, -, e0, e1⟩ := idx_facts ⟨(i 0).val / 2048, by show (i 0).val / 2048 < grid0.N; rw [hN]; omega⟩
  intro a
  match a with
  | ⟨0, _⟩ =>
    show win0_9.index _ (0 : Fin 2) * 2048 ≤ (i 0).val ∧ (i 0).val < win0_9.index _ (0 : Fin 2) * 2048 + 2048
    rw [e0]; show (i 0).val / 2048 * 2048 ≤ (i 0).val ∧ (i 0).val < (i 0).val / 2048 * 2048 + 2048; omega
  | ⟨1, _⟩ =>
    show win0_9.index _ (1 : Fin 2) * 1 ≤ (i 1).val ∧ (i 1).val < win0_9.index _ (1 : Fin 2) * 1 + 1
    rw [e1]; omega

/-- THE ARRAY after the run: `G9` at every unit. -/
theorem final9 (c : Dev nD) : (dats m 0 c).arrAt 9 cfg0.N = G9 m c :=
  (dats m 0 c).arrAt_eq_of_cover 9 (G9 m c) (fun t _ => flushed9_eq m c t) cover9

end Cert.KernelIdeal.KBlocks

end
-- ==== Proof.KTail.lean ====
/-
  The kernel program's two results.

  After the region the program reshapes the first one-column array to a vector — result 0 — and turns the second back
  into a condition by comparing it with one half, then picks, row by row, the moved position `positions + offsets`
  where the condition holds and the resting position elsewhere — result 1. Both are stated here over the two arrays the
  region leaves (KBlocks), and the program's run is re-posted with the two results named and the arguments unchanged.
-/
import proofs.«119652_j82712480186467_2_alg».proof.Proof.Gen.KernelIdeal.Frame
import proofs.«119652_j82712480186467_2_alg».proof.Proof.KBlocks
import Idealize.ShloMosaic.Lib.StableHlo.Run
import Idealize.ShloMosaic.Lib.Pipeline.Value

set_option maxRecDepth 16384

noncomputable section

namespace Cert.KernelIdeal.KTail

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Result 0: the smaller residual norm of each unit, as a vector. -/
def kres0 (c : Dev nD) : S262144.Idx → EReal :=
  shapeCast S262144 (KBlocks.G8 m c) shapeCasts_S262144x1_S262144

/-- The acceptance condition read back off the 0/1 array: "greater than one half". -/
def kaccept (c : Dev nD) : IVec S262144 1 :=
  cmpf .ogt (shapeCast S262144 (KBlocks.G9 m c) shapeCasts_S262144x1_S262144 : FVec Ideal S262144 .f32)
    (broadcastInDim S262144 ![] bcast_S_S262144 (constant (F := Ideal) S_ .f32 0x3F000000#32))

/-- Result 1: the moved position where accepted, the resting position elsewhere. -/
def kres1 (c : Dev nD) : S262144x3.Idx → EReal :=
  select (broadcastInDim S262144x3 ![0, 1] bcast_S262144x1_S262144x3_0_1
      (broadcastInDim S262144x1 ![0] bcast_S262144_S262144x1_0 (kaccept m c)))
    (V m c main_v28 : S262144x3.Idx → EReal) (V m c main_arg1 : S262144x3.Idx → EReal)

/-- The region leaves result window 8's array at `G8`. -/
theorem left8 (c : Dev nD) :
    Pipeline.withArrays (cfgs 0).spec c (V0 m c) (fun w => (dats m 0 c).arrAt w (cfgs 0).N) (Proc.devRef .tc main_v60_0)
      = KBlocks.G8 m c :=
  (Pipeline.withArrays_arr spec0 launch0.win.arr_inj c _ _ 8).trans (KBlocks.final8 m c)

/-- And result window 9's at `G9`. -/
theorem left9 (c : Dev nD) :
    Pipeline.withArrays (cfgs 0).spec c (V0 m c) (fun w => (dats m 0 c).arrAt w (cfgs 0).N) (Proc.devRef .tc main_v60_1)
      = KBlocks.G9 m c :=
  (Pipeline.withArrays_arr spec0 launch0.win.arr_inj c _ _ 9).trans (KBlocks.final9 m c)

/-- A buffer that is no window's array is left as the region found it. -/
theorem left_v28 (c : Dev nD) :
    Pipeline.withArrays (cfgs 0).spec c (V0 m c) (fun w => (dats m 0 c).arrAt w (cfgs 0).N) (Proc.devRef .tc main_v28)
      = V m c main_v28 :=
  Pipeline.withArrays_of_ne _ c (V0 m c) _ main_v28 (by exact (by decide : ∀ w, Pipeline.arrRef spec0 w ≠ main_v28))

theorem left_arg1 (c : Dev nD) :
    Pipeline.withArrays (cfgs 0).spec c (V0 m c) (fun w => (dats m 0 c).arrAt w (cfgs 0).N) (Proc.devRef .tc main_arg1)
      = V m c main_arg1 :=
  Pipeline.withArrays_of_ne _ c (V0 m c) _ main_arg1 (by exact (by decide : ∀ w, Pipeline.arrRef spec0 w ≠ main_arg1))

/-- The lines after the region leave result 0 at `kres0`. -/
theorem tail61 (c : Dev nD) :
    (Pipeline.afterTail₀ cfgs (dats m) 0 (V0 m) [hostOps1, hostOps1_1] c main_v61 : S262144.Idx → EReal) = kres0 m c := by
  unfold Pipeline.afterTail₀ kres0
  rw [← left8 m c]
  simp only [hostOps1, hostOps1_1, List.flatten_cons, List.flatten_nil, List.append_nil, List.cons_append, List.nil_append]
  after_results
  rfl

/-- And result 1 at `kres1`. -/
theorem tail66 (c : Dev nD) :
    (Pipeline.afterTail₀ cfgs (dats m) 0 (V0 m) [hostOps1, hostOps1_1] c main_v66 : S262144x3.Idx → EReal) = kres1 m c := by
  unfold Pipeline.afterTail₀ kres1 kaccept
  rw [← left9 m c, ← left_v28 m c, ← left_arg1 m c]
  simp only [hostOps1, hostOps1_1, List.flatten_cons, List.flatten_nil, List.append_nil, List.cons_append, List.nil_append]
  after_results
  rfl

/-- THE RUN of the kernel program: it terminates without a fault, its two results at `kres0` and `kres1`, its
    arguments unchanged. -/
theorem run : θ_run defs (onTc (τ := τ) (main (F := Ideal))) ⟨m, fun _ => 0, ρ⟩ (fun r => ∀ c : Dev nD,
      r.2.mem ((c.tc : Thread nD τ).loc main_v61) = kres0 m c
      ∧ r.2.mem ((c.tc : Thread nD τ).loc main_v66) = kres1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v61 (Pipeline.mem_restRefs_of main_v61 (by decide) (by decide))).trans (tail61 m c),
      ((h c).2 main_v66 (Pipeline.mem_restRefs_of main_v66 (by decide) (by decide))).trans (tail66 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.KTail

end
-- ==== Proof.RefDefs.lean ====
/- The reference program's two results as pure functions of its eight arguments: the local field values at the
   128 stencil points of every row (`locR`), the stability of every row (`stabR`), and the two selections between
   the moved and the old positions (`res0`, `res1`), each written with the program's own pure operations. -/
import proofs.«119652_j82712480186467_2_alg».proof.ReferenceIdeal
import proofs.«119652_j82712480186467_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The values, as pure functions of the arguments -/

/-- Contents of a float and of an integer tensor of the shapes the program uses. -/
abbrev CF (s : Shape) : Type := (⟨s, .f32⟩ : BufTy).Contents (Elt F)
abbrev CI (s : Shape) : Type := (⟨s, .i32⟩ : BufTy).Contents (Elt F)
abbrev CB (s : Shape) : Type := (⟨s, .i1⟩ : BufTy).Contents (Elt F)

/-- The three offset tables (128 entries each): the first, second and third coordinate of the 128 stencil points. -/
def tab0 : CI (F := F) S128 := fun i => lit0 (S128.rowMajor i)
def tab1 : CI (F := F) S128 := fun i => lit1 (S128.rowMajor i)
def tab2 : CI (F := F) S128 := fun i => lit2 (S128.rowMajor i)

/-- Clamp to [0, 127], on a [262144, 3] and on a [262144, 128] integer array: max with 0, then min with 127. -/
def clip3 (q : CI (F := F) S262144x3) : CI (F := F) S262144x3 :=
  minsi (broadcastInDim S262144x3 ![] bcast_S_S262144x3 (constantI S_ 32 127#32))
    (maxsi (broadcastInDim S262144x3 ![] bcast_S_S262144x3 (constantI S_ 32 0#32)) q)
def clip128 (q : CI (F := F) S262144x128) : CI (F := F) S262144x128 :=
  minsi (broadcastInDim S262144x128 ![] bcast_S_S262144x128 (constantI S_ 32 127#32))
    (maxsi (broadcastInDim S262144x128 ![] bcast_S_S262144x128 (constantI S_ 32 0#32)) q)

/-- The integer base cell of each row: the positions truncated to integers, clamped to [0, 127]. -/
def baseR (p : CF (F := F) S262144x3) : CI (F := F) S262144x3 := clip3 (fptosi 32 p)

/-- Coordinate `k` of the 128 stencil points of every row, BEFORE the clamp: column `k` of the base cell, spread along the
    128 points, plus the table's offsets, spread along the rows. Over any table `t`. -/
def coord0G (t : CI (F := F) S128) (p : CF (F := F) S262144x3) : CI (F := F) S262144x128 :=
  addi (broadcastInDim S262144x128 ![0, 1] bcast_S262144x1_S262144x128_0_1 (extractStridedSlice S262144x1 ![0, 0] (baseR p) slices_S262144x3_S262144x1_0_0))
    (broadcastInDim S262144x128 ![0, 1] bcast_S1x128_S262144x128_0_1 (broadcastInDim S1x128 ![1] bcast_S128_S1x128_1 t))
def coord1G (t : CI (F := F) S128) (p : CF (F := F) S262144x3) : CI (F := F) S262144x128 :=
  addi (broadcastInDim S262144x128 ![0, 1] bcast_S262144x1_S262144x128_0_1 (extractStridedSlice S262144x1 ![0, 1] (baseR p) slices_S262144x3_S262144x1_0_1))
    (broadcastInDim S262144x128 ![0, 1] bcast_S1x128_S262144x128_0_1 (broadcastInDim S1x128 ![1] bcast_S128_S1x128_1 t))
def coord2G (t : CI (F := F) S128) (p : CF (F := F) S262144x3) : CI (F := F) S262144x128 :=
  addi (broadcastInDim S262144x128 ![0, 1] bcast_S262144x1_S262144x128_0_1 (extractStridedSlice S262144x1 ![0, 2] (baseR p) slices_S262144x3_S262144x1_0_2))
    (broadcastInDim S262144x128 ![0, 1] bcast_S1x128_S262144x128_0_1 (broadcastInDim S1x128 ![1] bcast_S128_S1x128_1 t))

/-- The three pre-clamp coordinate arrays of the program: over its own three tables. -/
def coord0 (p : CF (F := F) S262144x3) : CI (F := F) S262144x128 := coord0G tab0 p
def coord1 (p : CF (F := F) S262144x3) : CI (F := F) S262144x128 := coord1G tab1 p
def coord2 (p : CF (F := F) S262144x3) : CI (F := F) S262144x128 := coord2G tab2 p

/-- A negative index wrapped by the axis length 128 (what indexing with a negative index does), others kept. -/
def wrap128 (x : CI (F := F) S262144x128) : CI (F := F) S262144x128 :=
  select (cmpi .slt x (broadcastInDim S262144x128 ![] bcast_S_S262144x128 (constantI S_ 32 0#32)))
    (addi x (broadcastInDim S262144x128 ![] bcast_S_S262144x128 (constantI S_ 32 128#32))) x

/-- One clamped, wrapped coordinate array as the last-axis slab of the gather's index tensor. -/
def slab (a : CI (F := F) S262144x128) : CI (F := F) S262144x128x1 :=
  broadcastInDim S262144x128x1 ![0, 1] bcast_S262144x128_S262144x128x1_0_1 (wrap128 (clip128 a))

/-- The gather's index tensor from its three slabs, and the gather of the field at it. -/
def gatherAt (field : CF (F := F) S128x128x128) (x y z : CI (F := F) S262144x128x1) : CF (F := F) S262144x128 :=
  Host.gather gather_S128x128x128_S262144x128x3_S262144x128_n_012_n_n_012_2_111 field
    (concatenate S262144x128x3 2 [⟨S262144x128x1, x⟩, ⟨S262144x128x1, y⟩, ⟨S262144x128x1, z⟩]
      concatenates_S262144x128x1_S262144x128x1_S262144x128x1_S262144x128x3_d2)

/-- The field read at the 128 stencil points of every row, from the three pre-clamp coordinate arrays: each clamped
    to [0, 127], wrapped, the three joined into the index tensor, the field gathered there. -/
def gather3R (field : CF (F := F) S128x128x128) (a b c : CI (F := F) S262144x128) : CF (F := F) S262144x128 :=
  gatherAt field (slab a) (slab b) (slab c)

/-- The local field values of positions `p`: operations %0 … %39 of the program. -/
def locR (field : CF (F := F) S128x128x128) (p : CF (F := F) S262144x3) : CF (F := F) S262144x128 :=
  gather3R field (coord0 p) (coord1 p) (coord2 p)

/-- The first layer before its bias: the signal and the local values joined along the feature axis, times `W1`. -/
def layer1 (sg loc : CF (F := F) S262144x128) (W1 : CF (F := F) S256x128) : CF (F := F) S262144x128 :=
  Host.dotGeneral dot_S262144x256_S256x128_S262144x128_1_0_0_1_n_n none
    (concatenate S262144x256 1 [⟨S262144x128, sg⟩, ⟨S262144x128, loc⟩] concatenates_S262144x128_S262144x128_S262144x256_d1) W1

/-- A bias vector spread along the rows. -/
def biasRows (b : CF (F := F) S128) : CF (F := F) S262144x128 :=
  broadcastInDim S262144x128 ![0, 1] bcast_S1x128_S262144x128_0_1 (broadcastInDim S1x128 ![1] bcast_S128_S1x128_1 b)

/-- From the first layer's product `h` and its bias already spread (`bb1`): tanh, the second layer, the difference from
    the signal, the Euclidean norm of each row. -/
def stabTail (h bb1 sg : CF (F := F) S262144x128) (W2 : CF (F := F) S128x128) (b2 : CF (F := F) S128) : CF (F := F) S262144 :=
  Host.sqrt (Host.reduceAdd
    (mulf (subf (addf (Host.dotGeneral dot_S262144x128_S128x128_S262144x128_1_0_0_1_n_n none (Host.tanh (addf h bb1)) W2) (biasRows b2)) sg)
          (subf (addf (Host.dotGeneral dot_S262144x128_S128x128_S262144x128_1_0_0_1_n_n none (Host.tanh (addf h bb1)) W2) (biasRows b2)) sg))
    (constant S_ .f32 0x00000000#32) reducesTo_S262144x128_S262144_d1 h_S_)

/-- The stability of every row: operations %40 … %51 of the program, as a function of the signal, the local values
    and the two layers' weights and biases. -/
def stabR (sg loc : CF (F := F) S262144x128) (W1 : CF (F := F) S256x128) (b1 : CF (F := F) S128)
    (W2 : CF (F := F) S128x128) (b2 : CF (F := F) S128) : CF (F := F) S262144 :=
  stabTail (layer1 sg loc W1) (biasRows b1) sg W2 b2

/-- Which rows accept the move: the stability at the moved positions at most the one at the old positions. -/
def acceptR (field : CF (F := F) S128x128x128) (pos : CF (F := F) S262144x3) (sg : CF (F := F) S262144x128) (off : CF (F := F) S262144x3)
    (W1 : CF (F := F) S256x128) (b1 : CF (F := F) S128) (W2 : CF (F := F) S128x128) (b2 : CF (F := F) S128) : CB (F := F) S262144 :=
  cmpf .ole (stabR sg (locR field (addf pos off)) W1 b1 W2 b2) (stabR sg (locR field pos) W1 b1 W2 b2)

/-- Result 0: per row the new stability where the move is accepted, the old one elsewhere. -/
def res0 (field : CF (F := F) S128x128x128) (pos : CF (F := F) S262144x3) (sg : CF (F := F) S262144x128) (off : CF (F := F) S262144x3)
    (W1 : CF (F := F) S256x128) (b1 : CF (F := F) S128) (W2 : CF (F := F) S128x128) (b2 : CF (F := F) S128) : CF (F := F) S262144 :=
  select (acceptR field pos sg off W1 b1 W2 b2) (stabR sg (locR field (addf pos off)) W1 b1 W2 b2) (stabR sg (locR field pos) W1 b1 W2 b2)

/-- Result 1: per row the moved position where the move is accepted, the old one elsewhere. -/
def res1 (field : CF (F := F) S128x128x128) (pos : CF (F := F) S262144x3) (sg : CF (F := F) S262144x128) (off : CF (F := F) S262144x3)
    (W1 : CF (F := F) S256x128) (b1 : CF (F := F) S128) (W2 : CF (F := F) S128x128) (b2 : CF (F := F) S128) : CF (F := F) S262144x3 :=
  select (broadcastInDim S262144x3 ![0, 1] bcast_S262144x1_S262144x3_0_1
            (broadcastInDim S262144x1 ![0] bcast_S262144_S262144x1_0 (acceptR field pos sg off W1 b1 W2 b2)))
    (addf pos off) pos

end Cert.ReferenceIdeal.RefRun

end
-- ==== Proof.RefRun.lean ====
/- The run of the reference program: @main's host operations listed in order (the outlined functions'
   operations inline at their call sites, over each call's own buffers), the program equal to that straight line, and
   what the two result buffers hold afterwards: `res0` and `res1` of the arguments' launch contents. The line is cut
   into nine pieces along the program's own structure (the tables; the index slabs, then the gather, at the old
   positions; the stability there; the moved positions; the same three at the moved positions; the selections); each
   piece's value lemma reads one buffer after that piece as a pure function of the buffers before it, and the
   results are those lemmas composed. -/
import proofs.«119652_j82712480186467_2_alg».proof.ReferenceIdeal
import proofs.«119652_j82712480186467_2_alg».proof.Proof.Gen.ReferenceIdeal
import proofs.«119652_j82712480186467_2_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a straight line

@main's three windows, each as the list of its operations, a call's operations inline over the call's own buffers. -/

/-- The operations of @main's window 0, in order. -/
abbrev opsW0 : List (HloOp τ sig (Elt F)) :=
  [ nullary main_c (fun i => lit0 (S128.rowMajor i)),
    nullary main_c_0 (fun i => lit1 (S128.rowMajor i)),
    nullary main_c_1 (fun i => lit2 (S128.rowMajor i)),
    unary main_arg1 main_v0 (fptosi 32 : (⟨S262144x3, .f32⟩ : BufTy).Contents (Elt F) → (⟨S262144x3, .i32⟩ : BufTy).Contents (Elt F)),
    nullary main_c_2 (constantI S_ 32 0#32),
    nullary main_c_3 (constantI S_ 32 127#32),
    unary main_c_2 main_call0_v0 (id : (⟨S_, .i32⟩ : BufTy).Contents (Elt F) → (⟨S_, .i32⟩ : BufTy).Contents (Elt F)),
    unary main_call0_v0 main_call0_v1 (broadcastInDim S262144x3 ![] bcast_S_S262144x3 : (⟨S_, .i32⟩ : BufTy).Contents (Elt F) → (⟨S262144x3, .i32⟩ : BufTy).Contents (Elt F)),
    binary main_call0_v1 main_v0 main_call0_v2 (maxsi : (⟨S262144x3, .i32⟩ : BufTy).Contents (Elt F) → (⟨S262144x3, .i32⟩ : BufTy).Contents (Elt F) → (⟨S262144x3, .i32⟩ : BufTy).Contents (Elt F)),
    unary main_c_3 main_call0_v3 (id : (⟨S_, .i32⟩ : BufTy).Contents (Elt F) → (⟨S_, .i32⟩ : BufTy).Contents (Elt F)),
    unary main_call0_v3 main_call0_v4 (broadcastInDim S262144x3 ![] bcast_S_S262144x3 : (⟨S_, .i32⟩ : BufTy).Contents (Elt F) → (⟨S262144x3, .i32⟩ : BufTy).Contents (Elt F)),
    binary main_call0_v4 main_call0_v2 main_v1 (minsi : (⟨S262144x3, .i32⟩ : BufTy).Contents (Elt F) → (⟨S262144x3, .i32⟩ : BufTy).Contents (Elt F) → (⟨S262144x3, .i32⟩ : BufTy).Contents (Elt F)),
    unary main_v1 main_v2 ((extractStridedSlice S262144x1 ![0, 0] · slices_S262144x3_S262144x1_0_0) : (⟨S262144x3, .i32⟩ : BufTy).Contents (Elt F) → (⟨S262144x1, .i32⟩ : BufTy).Contents (Elt F)),
    unary main_c main_v3 (broadcastInDim S1x128 ![1] bcast_S128_S1x128_1 : (⟨S128, .i32⟩ : BufTy).Contents (Elt F) → (⟨S1x128, .i32⟩ : BufTy).Contents (Elt F)),
    unary main_v2 main_v4 (broadcastInDim S262144x128 ![0, 1] bcast_S262144x1_S262144x128_0_1 : (⟨S262144x1, .i32⟩ : BufTy).Contents (Elt F) → (⟨S262144x128, .i32⟩ : BufTy).Contents (Elt F)),
    unary main_v3 main_v5 (broadcastInDim S262144x128 ![0, 1] bcast_S1x128_S262144x128_0_1 : (⟨S1x128, .i32⟩ : BufTy).Contents (Elt F) → (⟨S262144x128, .i32⟩ : BufTy).Contents (Elt F)),
    binary main_v4 main_v5 main_v6 (addi : (⟨S262144x128, .i32⟩ : BufTy).Contents (Elt F) → (⟨S262144x128, .i32⟩ : BufTy).Contents (Elt F) → (⟨S262144x128, .i32⟩ : BufTy).Contents (Elt F)),
    nullary main_c_4 (constantI S_ 32 0#32),
    nullary main_c_5 (constantI S_ 32 127#32),
    unary main_c_4 main_call1_v0 (id : (⟨S_, .i32⟩ : BufTy).Contents (Elt F) → (⟨S_, .i32⟩ : BufTy).Contents (Elt F)),
    unary main_call1_v0 main_call1_v1 (broadcastInDim S262144x128 ![] bcast_S_S262144x128 : (⟨S_, .i32⟩ : BufTy).Contents (Elt F) → (⟨S262144x128, .i32⟩ : BufTy).Contents (Elt F)),
    binary main_call1_v1 main_v6 main_call1_v2 (maxsi : (⟨S262144x128, .i32⟩ : BufTy).Contents (Elt F) → (⟨S262144x128, .i32⟩ : BufTy).Contents (Elt F) → (⟨S262144x128, .i32⟩ : BufTy).Contents (Elt F)),
    unary main_c_5 main_call1_v3 (id : (⟨S_, .i32⟩ : BufTy).Contents (Elt F) → (⟨S_, .i32⟩ : BufTy).Contents (Elt F)),
    unary main_call1_v3 main_call1_v4 (broadcastInDim S262144x128 ![] bcast_S_S262144x128 : (⟨S_, .i32⟩ : BufTy).Contents (Elt F) → (⟨S262144x128, .i32⟩ : BufTy).Contents (Elt F)),
    binary main_call1_v4 main_call1_v2 main_v7 (minsi : (⟨S262144x128, .i32⟩ : BufTy).Contents (Elt F) → (⟨S262144x128, .i32⟩ : BufTy).Contents (Elt F) → (⟨S262144x128, .i32⟩ : BufTy).Contents (Elt F)),
    unary main_v1 main_v8 ((extractStridedSlice S262144x1 ![0, 1] · slices_S262144x3_S262144x1_0_1) : (⟨S262144x3, .i32⟩ : BufTy).Contents (Elt F) → (⟨S262144x1, .i32⟩ : BufTy).Contents (Elt F)),
    unary main_c_0 main_v9 (broadcastInDim S1x128 ![1] bcast_S128_S1x128_1 : (⟨S128, .i32⟩ : BufTy).Contents (Elt F) → (⟨S1x128, .i32⟩ : BufTy).Contents (Elt F)),
    unary main_v8 main_v10 (broadcastInDim S262144x128 ![0, 1] bcast_S262144x1_S262144x128_0_1 : (⟨S262144x1, .i32⟩ : BufTy).Contents (Elt F) → (⟨S262144x128, .i32⟩ : BufTy).Contents (Elt F)),
    unary main_v9 main_v11 (broadcastInDim S262144x128 ![0, 1] bcast_S1x128_S262144x128_0_1 : (⟨S1x128, .i32⟩ : BufTy).Contents (Elt F) → (⟨S262144x128, .i32⟩ : BufTy).Contents (Elt F)),
    binary main_v10 main_v11 main_v12 (addi : (⟨S262144x128, .i32⟩ : BufTy).Contents (Elt F) → (⟨S262144x128, .i32⟩ : BufTy).Contents (Elt F) → (⟨S262144x128, .i32⟩ : BufTy).Contents (Elt F)),
    nullary main_c_6 (constantI S_ 32 0#32),
    nullary main_c_7 (constantI S_ 32 127#32),
    unary main_c_6 main_call2_v0 (id : (⟨S_, .i32⟩ : BufTy).Contents (Elt F) → (⟨S_, .i32⟩ : BufTy).Contents (Elt F)),
    unary main_call2_v0 main_call2_v1 (broadcastInDim S262144x128 ![] bcast_S_S262144x128 : (⟨S_, .i32⟩ : BufTy).Contents (Elt F) → (⟨S262144x128, .i32⟩ : BufTy).Contents (Elt F)),
    binary main_call2_v1 main_v12 main_call2_v2 (maxsi : (⟨S262144x128, .i32⟩ : BufTy).Contents (Elt F) → (⟨S262144x128, .i32⟩ : BufTy).Contents (Elt F) → (⟨S262144x128, .i32⟩ : BufTy).Contents (Elt F)),
    unary main_c_7 main_call2_v3 (id : (⟨S_, .i32⟩ : BufTy).Contents (Elt F) → (⟨S_, .i32⟩ : BufTy).Contents (Elt F)),
    unary main_call2_v3 main_call2_v4 (broadcastInDim S262144x128 ![] bcast_S_S262144x128 : (⟨S_, .i32⟩ : BufTy).Contents (Elt F) → (⟨S262144x128, .i32⟩ : BufTy).Contents (Elt F)),
    binary main_call2_v4 main_call2_v2 main_v13 (minsi : (⟨S262144x128, .i32⟩ : BufTy).Contents (Elt F) → (⟨S262144x128, .i32⟩ : BufTy).Contents (Elt F) → (⟨S262144x128, .i32⟩ : BufTy).Contents (Elt F)),
    unary main_v1 main_v14 ((extractStridedSlice S262144x1 ![0, 2] · slices_S262144x3_S262144x1_0_2) : (⟨S262144x3, .i32⟩ : BufTy).Contents (Elt F) → (⟨S262144x1, .i32⟩ : BufTy).Contents (Elt F)),
    unary main_c_1 main_v15 (broadcastInDim S1x128 ![1] bcast_S128_S1x128_1 : (⟨S128, .i32⟩ : BufTy).Contents (Elt F) → (⟨S1x128, .i32⟩ : BufTy).Contents (Elt F)),
    unary main_v14 main_v16 (broadcastInDim S262144x128 ![0, 1] bcast_S262144x1_S262144x128_0_1 : (⟨S262144x1, .i32⟩ : BufTy).Contents (Elt F) → (⟨S262144x128, .i32⟩ : BufTy).Contents (Elt F)),
    unary main_v15 main_v17 (broadcastInDim S262144x128 ![0, 1] bcast_S1x128_S262144x128_0_1 : (⟨S1x128, .i32⟩ : BufTy).Contents (Elt F) → (⟨S262144x128, .i32⟩ : BufTy).Contents (Elt F)),
    binary main_v16 main_v17 main_v18 (addi : (⟨S262144x128, .i32⟩ : BufTy).Contents (Elt F) → (⟨S262144x128, .i32⟩ : BufTy).Contents (Elt F) → (⟨S262144x128, .i32⟩ : BufTy).Contents (Elt F)),
    nullary main_c_8 (constantI S_ 32 0#32),
    nullary main_c_9 (constantI S_ 32 127#32),
    unary main_c_8 main_call3_v0 (id : (⟨S_, .i32⟩ : BufTy).Contents (Elt F) → (⟨S_, .i32⟩ : BufTy).Contents (Elt F)),
    unary main_call3_v0 main_call3_v1 (broadcastInDim S262144x128 ![] bcast_S_S262144x128 : (⟨S_, .i32⟩ : BufTy).Contents (Elt F) → (⟨S262144x128, .i32⟩ : BufTy).Contents (Elt F)),
    binary main_call3_v1 main_v18 main_call3_v2 (maxsi : (⟨S262144x128, .i32⟩ : BufTy).Contents (Elt F) → (⟨S262144x128, .i32⟩ : BufTy).Contents (Elt F) → (⟨S262144x128, .i32⟩ : BufTy).Contents (Elt F)),
    unary main_c_9 main_call3_v3 (id : (⟨S_, .i32⟩ : BufTy).Contents (Elt F) → (⟨S_, .i32⟩ : BufTy).Contents (Elt F)),
    unary main_call3_v3 main_call3_v4 (broadcastInDim S262144x128 ![] bcast_S_S262144x128 : (⟨S_, .i32⟩ : BufTy).Contents (Elt F) → (⟨S262144x128, .i32⟩ : BufTy).Contents (Elt F)),
    binary main_call3_v4 main_call3_v2 main_v19 (minsi : (⟨S262144x128, .i32⟩ : BufTy).Contents (Elt F) → (⟨S262144x128, .i32⟩ : BufTy).Contents (Elt F) → (⟨S262144x128, .i32⟩ : BufTy).Contents (Elt F)),
    nullary main_c_10 (constantI S_ 32 0#32),
    unary main_c_10 main_v20 (broadcastInDim S262144x128 ![] bcast_S_S262144x128 : (⟨S_, .i32⟩ : BufTy).Contents (Elt F) → (⟨S262144x128, .i32⟩ : BufTy).Contents (Elt F)),
    binary main_v7 main_v20 main_v21 (cmpi .slt : (⟨S262144x128, .i32⟩ : BufTy).Contents (Elt F) → (⟨S262144x128, .i32⟩ : BufTy).Contents (Elt F) → (⟨S262144x128, .i1⟩ : BufTy).Contents (Elt F)),
    nullary main_c_11 (constantI S_ 32 128#32),
    unary main_c_11 main_v22 (broadcastInDim S262144x128 ![] bcast_S_S262144x128 : (⟨S_, .i32⟩ : BufTy).Contents (Elt F) → (⟨S262144x128, .i32⟩ : BufTy).Contents (Elt F)),
    binary main_v7 main_v22 main_v23 (addi : (⟨S262144x128, .i32⟩ : BufTy).Contents (Elt F) → (⟨S262144x128, .i32⟩ : BufTy).Contents (Elt F) → (⟨S262144x128, .i32⟩ : BufTy).Contents (Elt F)),
    ternary main_v21 main_v23 main_v7 main_v24 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_12 (constantI S_ 32 0#32),
    unary main_c_12 main_v25 (broadcastInDim S262144x128 ![] bcast_S_S262144x128 : (⟨S_, .i32⟩ : BufTy).Contents (Elt F) → (⟨S262144x128, .i32⟩ : BufTy).Contents (Elt F)),
    binary main_v13 main_v25 main_v26 (cmpi .slt : (⟨S262144x128, .i32⟩ : BufTy).Contents (Elt F) → (⟨S262144x128, .i32⟩ : BufTy).Contents (Elt F) → (⟨S262144x128, .i1⟩ : BufTy).Contents (Elt F)),
    nullary main_c_13 (constantI S_ 32 128#32),
    unary main_c_13 main_v27 (broadcastInDim S262144x128 ![] bcast_S_S262144x128 : (⟨S_, .i32⟩ : BufTy).Contents (Elt F) → (⟨S262144x128, .i32⟩ : BufTy).Contents (Elt F)),
    binary main_v13 main_v27 main_v28 (addi : (⟨S262144x128, .i32⟩ : BufTy).Contents (Elt F) → (⟨S262144x128, .i32⟩ : BufTy).Contents (Elt F) → (⟨S262144x128, .i32⟩ : BufTy).Contents (Elt F)),
    ternary main_v26 main_v28 main_v13 main_v29 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_14 (constantI S_ 32 0#32),
    unary main_c_14 main_v30 (broadcastInDim S262144x128 ![] bcast_S_S262144x128 : (⟨S_, .i32⟩ : BufTy).Contents (Elt F) → (⟨S262144x128, .i32⟩ : BufTy).Contents (Elt F)),
    binary main_v19 main_v30 main_v31 (cmpi .slt : (⟨S262144x128, .i32⟩ : BufTy).Contents (Elt F) → (⟨S262144x128, .i32⟩ : BufTy).Contents (Elt F) → (⟨S262144x128, .i1⟩ : BufTy).Contents (Elt F)),
    nullary main_c_15 (constantI S_ 32 128#32),
    unary main_c_15 main_v32 (broadcastInDim S262144x128 ![] bcast_S_S262144x128 : (⟨S_, .i32⟩ : BufTy).Contents (Elt F) → (⟨S262144x128, .i32⟩ : BufTy).Contents (Elt F)),
    binary main_v19 main_v32 main_v33 (addi : (⟨S262144x128, .i32⟩ : BufTy).Contents (Elt F) → (⟨S262144x128, .i32⟩ : BufTy).Contents (Elt F) → (⟨S262144x128, .i32⟩ : BufTy).Contents (Elt F)),
    ternary main_v31 main_v33 main_v19 main_v34 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    unary main_v24 main_v35 (broadcastInDim S262144x128x1 ![0, 1] bcast_S262144x128_S262144x128x1_0_1 : (⟨S262144x128, .i32⟩ : BufTy).Contents (Elt F) → (⟨S262144x128x1, .i32⟩ : BufTy).Contents (Elt F)),
    unary main_v29 main_v36 (broadcastInDim S262144x128x1 ![0, 1] bcast_S262144x128_S262144x128x1_0_1 : (⟨S262144x128, .i32⟩ : BufTy).Contents (Elt F) → (⟨S262144x128x1, .i32⟩ : BufTy).Contents (Elt F)),
    unary main_v34 main_v37 (broadcastInDim S262144x128x1 ![0, 1] bcast_S262144x128_S262144x128x1_0_1 : (⟨S262144x128, .i32⟩ : BufTy).Contents (Elt F) → (⟨S262144x128x1, .i32⟩ : BufTy).Contents (Elt F)),
    nary ![main_v35, main_v36, main_v37] main_v38 (fun u => concatenate S262144x128x3 2 [⟨S262144x128x1, u 0⟩, ⟨S262144x128x1, u 1⟩, ⟨S262144x128x1, u 2⟩] concatenates_S262144x128x1_S262144x128x1_S262144x128x1_S262144x128x3_d2),
    binary main_arg0 main_v38 main_v39 ((fun x i => Host.gather gather_S128x128x128_S262144x128x3_S262144x128_n_012_n_n_012_2_111 x i) : (⟨S128x128x128, .f32⟩ : BufTy).Contents (Elt F) → (⟨S262144x128x3, .i32⟩ : BufTy).Contents (Elt F) → (⟨S262144x128, .f32⟩ : BufTy).Contents (Elt F)),
    binary main_arg2 main_v39 main_v40 ((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)),
    binary main_v40 main_arg4 main_v41 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)) ]

/-- The operations of @main's window 1, in order. -/
abbrev opsW1 : List (HloOp τ sig (Elt F)) :=
  [ unary main_v42 main_v43 (broadcastInDim S262144x128 ![0, 1] bcast_S1x128_S262144x128_0_1 : (⟨S1x128, .f32⟩ : BufTy).Contents (Elt F) → (⟨S262144x128, .f32⟩ : BufTy).Contents (Elt F)),
    binary main_v41 main_v43 main_v44 (addf : (⟨S262144x128, .f32⟩ : BufTy).Contents (Elt F) → (⟨S262144x128, .f32⟩ : BufTy).Contents (Elt F) → (⟨S262144x128, .f32⟩ : BufTy).Contents (Elt F)),
    unary main_v44 main_v45 (Host.tanh : (⟨S262144x128, .f32⟩ : BufTy).Contents (Elt F) → (⟨S262144x128, .f32⟩ : BufTy).Contents (Elt F)),
    binary main_v45 main_arg6 main_v46 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg7 main_v47 (broadcastInDim S1x128 ![1] bcast_S128_S1x128_1 : (⟨S128, .f32⟩ : BufTy).Contents (Elt F) → (⟨S1x128, .f32⟩ : BufTy).Contents (Elt F)),
    unary main_v47 main_v48 (broadcastInDim S262144x128 ![0, 1] bcast_S1x128_S262144x128_0_1 : (⟨S1x128, .f32⟩ : BufTy).Contents (Elt F) → (⟨S262144x128, .f32⟩ : BufTy).Contents (Elt F)),
    binary main_v46 main_v48 main_v49 (addf : (⟨S262144x128, .f32⟩ : BufTy).Contents (Elt F) → (⟨S262144x128, .f32⟩ : BufTy).Contents (Elt F) → (⟨S262144x128, .f32⟩ : BufTy).Contents (Elt F)),
    binary main_v49 main_arg2 main_v50 (subf : (⟨S262144x128, .f32⟩ : BufTy).Contents (Elt F) → (⟨S262144x128, .f32⟩ : BufTy).Contents (Elt F) → (⟨S262144x128, .f32⟩ : BufTy).Contents (Elt F)),
    binary main_v50 main_v50 main_call4_v0 (mulf : (⟨S262144x128, .f32⟩ : BufTy).Contents (Elt F) → (⟨S262144x128, .f32⟩ : BufTy).Contents (Elt F) → (⟨S262144x128, .f32⟩ : BufTy).Contents (Elt F)),
    nullary main_call4_cst (constant S_ .f32 0x00000000#32 : (⟨S_, .f32⟩ : BufTy).Contents (Elt F)),
    binary main_call4_v0 main_call4_cst main_call4_v1 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_call4_v1 main_v51 (Host.sqrt : (⟨S262144, .f32⟩ : BufTy).Contents (Elt F) → (⟨S262144, .f32⟩ : BufTy).Contents (Elt F)),
    binary main_arg1 main_arg3 main_v52 (addf : (⟨S262144x3, .f32⟩ : BufTy).Contents (Elt F) → (⟨S262144x3, .f32⟩ : BufTy).Contents (Elt F) → (⟨S262144x3, .f32⟩ : BufTy).Contents (Elt F)),
    unary main_v52 main_v53 (fptosi 32 : (⟨S262144x3, .f32⟩ : BufTy).Contents (Elt F) → (⟨S262144x3, .i32⟩ : BufTy).Contents (Elt F)),
    nullary main_c_16 (constantI S_ 32 0#32),
    nullary main_c_17 (constantI S_ 32 127#32),
    unary main_c_16 main_call5_v0 (id : (⟨S_, .i32⟩ : BufTy).Contents (Elt F) → (⟨S_, .i32⟩ : BufTy).Contents (Elt F)),
    unary main_call5_v0 main_call5_v1 (broadcastInDim S262144x3 ![] bcast_S_S262144x3 : (⟨S_, .i32⟩ : BufTy).Contents (Elt F) → (⟨S262144x3, .i32⟩ : BufTy).Contents (Elt F)),
    binary main_call5_v1 main_v53 main_call5_v2 (maxsi : (⟨S262144x3, .i32⟩ : BufTy).Contents (Elt F) → (⟨S262144x3, .i32⟩ : BufTy).Contents (Elt F) → (⟨S262144x3, .i32⟩ : BufTy).Contents (Elt F)),
    unary main_c_17 main_call5_v3 (id : (⟨S_, .i32⟩ : BufTy).Contents (Elt F) → (⟨S_, .i32⟩ : BufTy).Contents (Elt F)),
    unary main_call5_v3 main_call5_v4 (broadcastInDim S262144x3 ![] bcast_S_S262144x3 : (⟨S_, .i32⟩ : BufTy).Contents (Elt F) → (⟨S262144x3, .i32⟩ : BufTy).Contents (Elt F)),
    binary main_call5_v4 main_call5_v2 main_v54 (minsi : (⟨S262144x3, .i32⟩ : BufTy).Contents (Elt F) → (⟨S262144x3, .i32⟩ : BufTy).Contents (Elt F) → (⟨S262144x3, .i32⟩ : BufTy).Contents (Elt F)),
    unary main_v54 main_v55 ((extractStridedSlice S262144x1 ![0, 0] · slices_S262144x3_S262144x1_0_0) : (⟨S262144x3, .i32⟩ : BufTy).Contents (Elt F) → (⟨S262144x1, .i32⟩ : BufTy).Contents (Elt F)),
    unary main_c main_v56 (broadcastInDim S1x128 ![1] bcast_S128_S1x128_1 : (⟨S128, .i32⟩ : BufTy).Contents (Elt F) → (⟨S1x128, .i32⟩ : BufTy).Contents (Elt F)),
    unary main_v55 main_v57 (broadcastInDim S262144x128 ![0, 1] bcast_S262144x1_S262144x128_0_1 : (⟨S262144x1, .i32⟩ : BufTy).Contents (Elt F) → (⟨S262144x128, .i32⟩ : BufTy).Contents (Elt F)),
    unary main_v56 main_v58 (broadcastInDim S262144x128 ![0, 1] bcast_S1x128_S262144x128_0_1 : (⟨S1x128, .i32⟩ : BufTy).Contents (Elt F) → (⟨S262144x128, .i32⟩ : BufTy).Contents (Elt F)),
    binary main_v57 main_v58 main_v59 (addi : (⟨S262144x128, .i32⟩ : BufTy).Contents (Elt F) → (⟨S262144x128, .i32⟩ : BufTy).Contents (Elt F) → (⟨S262144x128, .i32⟩ : BufTy).Contents (Elt F)),
    nullary main_c_18 (constantI S_ 32 0#32),
    nullary main_c_19 (constantI S_ 32 127#32),
    unary main_c_18 main_call6_v0 (id : (⟨S_, .i32⟩ : BufTy).Contents (Elt F) → (⟨S_, .i32⟩ : BufTy).Contents (Elt F)),
    unary main_call6_v0 main_call6_v1 (broadcastInDim S262144x128 ![] bcast_S_S262144x128 : (⟨S_, .i32⟩ : BufTy).Contents (Elt F) → (⟨S262144x128, .i32⟩ : BufTy).Contents (Elt F)),
    binary main_call6_v1 main_v59 main_call6_v2 (maxsi : (⟨S262144x128, .i32⟩ : BufTy).Contents (Elt F) → (⟨S262144x128, .i32⟩ : BufTy).Contents (Elt F) → (⟨S262144x128, .i32⟩ : BufTy).Contents (Elt F)),
    unary main_c_19 main_call6_v3 (id : (⟨S_, .i32⟩ : BufTy).Contents (Elt F) → (⟨S_, .i32⟩ : BufTy).Contents (Elt F)),
    unary main_call6_v3 main_call6_v4 (broadcastInDim S262144x128 ![] bcast_S_S262144x128 : (⟨S_, .i32⟩ : BufTy).Contents (Elt F) → (⟨S262144x128, .i32⟩ : BufTy).Contents (Elt F)),
    binary main_call6_v4 main_call6_v2 main_v60 (minsi : (⟨S262144x128, .i32⟩ : BufTy).Contents (Elt F) → (⟨S262144x128, .i32⟩ : BufTy).Contents (Elt F) → (⟨S262144x128, .i32⟩ : BufTy).Contents (Elt F)),
    unary main_v54 main_v61 ((extractStridedSlice S262144x1 ![0, 1] · slices_S262144x3_S262144x1_0_1) : (⟨S262144x3, .i32⟩ : BufTy).Contents (Elt F) → (⟨S262144x1, .i32⟩ : BufTy).Contents (Elt F)),
    unary main_c_0 main_v62 (broadcastInDim S1x128 ![1] bcast_S128_S1x128_1 : (⟨S128, .i32⟩ : BufTy).Contents (Elt F) → (⟨S1x128, .i32⟩ : BufTy).Contents (Elt F)),
    unary main_v61 main_v63 (broadcastInDim S262144x128 ![0, 1] bcast_S262144x1_S262144x128_0_1 : (⟨S262144x1, .i32⟩ : BufTy).Contents (Elt F) → (⟨S262144x128, .i32⟩ : BufTy).Contents (Elt F)),
    unary main_v62 main_v64 (broadcastInDim S262144x128 ![0, 1] bcast_S1x128_S262144x128_0_1 : (⟨S1x128, .i32⟩ : BufTy).Contents (Elt F) → (⟨S262144x128, .i32⟩ : BufTy).Contents (Elt F)),
    binary main_v63 main_v64 main_v65 (addi : (⟨S262144x128, .i32⟩ : BufTy).Contents (Elt F) → (⟨S262144x128, .i32⟩ : BufTy).Contents (Elt F) → (⟨S262144x128, .i32⟩ : BufTy).Contents (Elt F)),
    nullary main_c_20 (constantI S_ 32 0#32),
    nullary main_c_21 (constantI S_ 32 127#32),
    unary main_c_20 main_call7_v0 (id : (⟨S_, .i32⟩ : BufTy).Contents (Elt F) → (⟨S_, .i32⟩ : BufTy).Contents (Elt F)),
    unary main_call7_v0 main_call7_v1 (broadcastInDim S262144x128 ![] bcast_S_S262144x128 : (⟨S_, .i32⟩ : BufTy).Contents (Elt F) → (⟨S262144x128, .i32⟩ : BufTy).Contents (Elt F)),
    binary main_call7_v1 main_v65 main_call7_v2 (maxsi : (⟨S262144x128, .i32⟩ : BufTy).Contents (Elt F) → (⟨S262144x128, .i32⟩ : BufTy).Contents (Elt F) → (⟨S262144x128, .i32⟩ : BufTy).Contents (Elt F)),
    unary main_c_21 main_call7_v3 (id : (⟨S_, .i32⟩ : BufTy).Contents (Elt F) → (⟨S_, .i32⟩ : BufTy).Contents (Elt F)),
    unary main_call7_v3 main_call7_v4 (broadcastInDim S262144x128 ![] bcast_S_S262144x128 : (⟨S_, .i32⟩ : BufTy).Contents (Elt F) → (⟨S262144x128, .i32⟩ : BufTy).Contents (Elt F)),
    binary main_call7_v4 main_call7_v2 main_v66 (minsi : (⟨S262144x128, .i32⟩ : BufTy).Contents (Elt F) → (⟨S262144x128, .i32⟩ : BufTy).Contents (Elt F) → (⟨S262144x128, .i32⟩ : BufTy).Contents (Elt F)),
    unary main_v54 main_v67 ((extractStridedSlice S262144x1 ![0, 2] · slices_S262144x3_S262144x1_0_2) : (⟨S262144x3, .i32⟩ : BufTy).Contents (Elt F) → (⟨S262144x1, .i32⟩ : BufTy).Contents (Elt F)),
    unary main_c_1 main_v68 (broadcastInDim S1x128 ![1] bcast_S128_S1x128_1 : (⟨S128, .i32⟩ : BufTy).Contents (Elt F) → (⟨S1x128, .i32⟩ : BufTy).Contents (Elt F)),
    unary main_v67 main_v69 (broadcastInDim S262144x128 ![0, 1] bcast_S262144x1_S262144x128_0_1 : (⟨S262144x1, .i32⟩ : BufTy).Contents (Elt F) → (⟨S262144x128, .i32⟩ : BufTy).Contents (Elt F)),
    unary main_v68 main_v70 (broadcastInDim S262144x128 ![0, 1] bcast_S1x128_S262144x128_0_1 : (⟨S1x128, .i32⟩ : BufTy).Contents (Elt F) → (⟨S262144x128, .i32⟩ : BufTy).Contents (Elt F)),
    binary main_v69 main_v70 main_v71 (addi : (⟨S262144x128, .i32⟩ : BufTy).Contents (Elt F) → (⟨S262144x128, .i32⟩ : BufTy).Contents (Elt F) → (⟨S262144x128, .i32⟩ : BufTy).Contents (Elt F)),
    nullary main_c_22 (constantI S_ 32 0#32),
    nullary main_c_23 (constantI S_ 32 127#32),
    unary main_c_22 main_call8_v0 (id : (⟨S_, .i32⟩ : BufTy).Contents (Elt F) → (⟨S_, .i32⟩ : BufTy).Contents (Elt F)),
    unary main_call8_v0 main_call8_v1 (broadcastInDim S262144x128 ![] bcast_S_S262144x128 : (⟨S_, .i32⟩ : BufTy).Contents (Elt F) → (⟨S262144x128, .i32⟩ : BufTy).Contents (Elt F)),
    binary main_call8_v1 main_v71 main_call8_v2 (maxsi : (⟨S262144x128, .i32⟩ : BufTy).Contents (Elt F) → (⟨S262144x128, .i32⟩ : BufTy).Contents (Elt F) → (⟨S262144x128, .i32⟩ : BufTy).Contents (Elt F)),
    unary main_c_23 main_call8_v3 (id : (⟨S_, .i32⟩ : BufTy).Contents (Elt F) → (⟨S_, .i32⟩ : BufTy).Contents (Elt F)),
    unary main_call8_v3 main_call8_v4 (broadcastInDim S262144x128 ![] bcast_S_S262144x128 : (⟨S_, .i32⟩ : BufTy).Contents (Elt F) → (⟨S262144x128, .i32⟩ : BufTy).Contents (Elt F)),
    binary main_call8_v4 main_call8_v2 main_v72 (minsi : (⟨S262144x128, .i32⟩ : BufTy).Contents (Elt F) → (⟨S262144x128, .i32⟩ : BufTy).Contents (Elt F) → (⟨S262144x128, .i32⟩ : BufTy).Contents (Elt F)),
    nullary main_c_24 (constantI S_ 32 0#32),
    unary main_c_24 main_v73 (broadcastInDim S262144x128 ![] bcast_S_S262144x128 : (⟨S_, .i32⟩ : BufTy).Contents (Elt F) → (⟨S262144x128, .i32⟩ : BufTy).Contents (Elt F)),
    binary main_v60 main_v73 main_v74 (cmpi .slt : (⟨S262144x128, .i32⟩ : BufTy).Contents (Elt F) → (⟨S262144x128, .i32⟩ : BufTy).Contents (Elt F) → (⟨S262144x128, .i1⟩ : BufTy).Contents (Elt F)),
    nullary main_c_25 (constantI S_ 32 128#32),
    unary main_c_25 main_v75 (broadcastInDim S262144x128 ![] bcast_S_S262144x128 : (⟨S_, .i32⟩ : BufTy).Contents (Elt F) → (⟨S262144x128, .i32⟩ : BufTy).Contents (Elt F)),
    binary main_v60 main_v75 main_v76 (addi : (⟨S262144x128, .i32⟩ : BufTy).Contents (Elt F) → (⟨S262144x128, .i32⟩ : BufTy).Contents (Elt F) → (⟨S262144x128, .i32⟩ : BufTy).Contents (Elt F)),
    ternary main_v74 main_v76 main_v60 main_v77 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_26 (constantI S_ 32 0#32),
    unary main_c_26 main_v78 (broadcastInDim S262144x128 ![] bcast_S_S262144x128 : (⟨S_, .i32⟩ : BufTy).Contents (Elt F) → (⟨S262144x128, .i32⟩ : BufTy).Contents (Elt F)),
    binary main_v66 main_v78 main_v79 (cmpi .slt : (⟨S262144x128, .i32⟩ : BufTy).Contents (Elt F) → (⟨S262144x128, .i32⟩ : BufTy).Contents (Elt F) → (⟨S262144x128, .i1⟩ : BufTy).Contents (Elt F)),
    nullary main_c_27 (constantI S_ 32 128#32),
    unary main_c_27 main_v80 (broadcastInDim S262144x128 ![] bcast_S_S262144x128 : (⟨S_, .i32⟩ : BufTy).Contents (Elt F) → (⟨S262144x128, .i32⟩ : BufTy).Contents (Elt F)),
    binary main_v66 main_v80 main_v81 (addi : (⟨S262144x128, .i32⟩ : BufTy).Contents (Elt F) → (⟨S262144x128, .i32⟩ : BufTy).Contents (Elt F) → (⟨S262144x128, .i32⟩ : BufTy).Contents (Elt F)),
    ternary main_v79 main_v81 main_v66 main_v82 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_28 (constantI S_ 32 0#32),
    unary main_c_28 main_v83 (broadcastInDim S262144x128 ![] bcast_S_S262144x128 : (⟨S_, .i32⟩ : BufTy).Contents (Elt F) → (⟨S262144x128, .i32⟩ : BufTy).Contents (Elt F)),
    binary main_v72 main_v83 main_v84 (cmpi .slt : (⟨S262144x128, .i32⟩ : BufTy).Contents (Elt F) → (⟨S262144x128, .i32⟩ : BufTy).Contents (Elt F) → (⟨S262144x128, .i1⟩ : BufTy).Contents (Elt F)),
    nullary main_c_29 (constantI S_ 32 128#32),
    unary main_c_29 main_v85 (broadcastInDim S262144x128 ![] bcast_S_S262144x128 : (⟨S_, .i32⟩ : BufTy).Contents (Elt F) → (⟨S262144x128, .i32⟩ : BufTy).Contents (Elt F)),
    binary main_v72 main_v85 main_v86 (addi : (⟨S262144x128, .i32⟩ : BufTy).Contents (Elt F) → (⟨S262144x128, .i32⟩ : BufTy).Contents (Elt F) → (⟨S262144x128, .i32⟩ : BufTy).Contents (Elt F)),
    ternary main_v84 main_v86 main_v72 main_v87 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    unary main_v77 main_v88 (broadcastInDim S262144x128x1 ![0, 1] bcast_S262144x128_S262144x128x1_0_1 : (⟨S262144x128, .i32⟩ : BufTy).Contents (Elt F) → (⟨S262144x128x1, .i32⟩ : BufTy).Contents (Elt F)) ]

/-- The operations of @main's window 2, in order. -/
abbrev opsW2 : List (HloOp τ sig (Elt F)) :=
  [ unary main_v82 main_v89 (broadcastInDim S262144x128x1 ![0, 1] bcast_S262144x128_S262144x128x1_0_1 : (⟨S262144x128, .i32⟩ : BufTy).Contents (Elt F) → (⟨S262144x128x1, .i32⟩ : BufTy).Contents (Elt F)),
    unary main_v87 main_v90 (broadcastInDim S262144x128x1 ![0, 1] bcast_S262144x128_S262144x128x1_0_1 : (⟨S262144x128, .i32⟩ : BufTy).Contents (Elt F) → (⟨S262144x128x1, .i32⟩ : BufTy).Contents (Elt F)),
    nary ![main_v88, main_v89, main_v90] main_v91 (fun u => concatenate S262144x128x3 2 [⟨S262144x128x1, u 0⟩, ⟨S262144x128x1, u 1⟩, ⟨S262144x128x1, u 2⟩] concatenates_S262144x128x1_S262144x128x1_S262144x128x1_S262144x128x3_d2),
    binary main_arg0 main_v91 main_v92 ((fun x i => Host.gather gather_S128x128x128_S262144x128x3_S262144x128_n_012_n_n_012_2_111 x i) : (⟨S128x128x128, .f32⟩ : BufTy).Contents (Elt F) → (⟨S262144x128x3, .i32⟩ : BufTy).Contents (Elt F) → (⟨S262144x128, .f32⟩ : BufTy).Contents (Elt F)),
    binary main_arg2 main_v92 main_v93 ((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)),
    binary main_v93 main_arg4 main_v94 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg5 main_v95 (broadcastInDim S1x128 ![1] bcast_S128_S1x128_1 : (⟨S128, .f32⟩ : BufTy).Contents (Elt F) → (⟨S1x128, .f32⟩ : BufTy).Contents (Elt F)),
    unary main_v95 main_v96 (broadcastInDim S262144x128 ![0, 1] bcast_S1x128_S262144x128_0_1 : (⟨S1x128, .f32⟩ : BufTy).Contents (Elt F) → (⟨S262144x128, .f32⟩ : BufTy).Contents (Elt F)),
    binary main_v94 main_v96 main_v97 (addf : (⟨S262144x128, .f32⟩ : BufTy).Contents (Elt F) → (⟨S262144x128, .f32⟩ : BufTy).Contents (Elt F) → (⟨S262144x128, .f32⟩ : BufTy).Contents (Elt F)),
    unary main_v97 main_v98 (Host.tanh : (⟨S262144x128, .f32⟩ : BufTy).Contents (Elt F) → (⟨S262144x128, .f32⟩ : BufTy).Contents (Elt F)),
    binary main_v98 main_arg6 main_v99 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg7 main_v100 (broadcastInDim S1x128 ![1] bcast_S128_S1x128_1 : (⟨S128, .f32⟩ : BufTy).Contents (Elt F) → (⟨S1x128, .f32⟩ : BufTy).Contents (Elt F)),
    unary main_v100 main_v101 (broadcastInDim S262144x128 ![0, 1] bcast_S1x128_S262144x128_0_1 : (⟨S1x128, .f32⟩ : BufTy).Contents (Elt F) → (⟨S262144x128, .f32⟩ : BufTy).Contents (Elt F)),
    binary main_v99 main_v101 main_v102 (addf : (⟨S262144x128, .f32⟩ : BufTy).Contents (Elt F) → (⟨S262144x128, .f32⟩ : BufTy).Contents (Elt F) → (⟨S262144x128, .f32⟩ : BufTy).Contents (Elt F)),
    binary main_v102 main_arg2 main_v103 (subf : (⟨S262144x128, .f32⟩ : BufTy).Contents (Elt F) → (⟨S262144x128, .f32⟩ : BufTy).Contents (Elt F) → (⟨S262144x128, .f32⟩ : BufTy).Contents (Elt F)),
    binary main_v103 main_v103 main_call9_v0 (mulf : (⟨S262144x128, .f32⟩ : BufTy).Contents (Elt F) → (⟨S262144x128, .f32⟩ : BufTy).Contents (Elt F) → (⟨S262144x128, .f32⟩ : BufTy).Contents (Elt F)),
    nullary main_call9_cst (constant S_ .f32 0x00000000#32 : (⟨S_, .f32⟩ : BufTy).Contents (Elt F)),
    binary main_call9_v0 main_call9_cst main_call9_v1 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_call9_v1 main_v104 (Host.sqrt : (⟨S262144, .f32⟩ : BufTy).Contents (Elt F) → (⟨S262144, .f32⟩ : BufTy).Contents (Elt F)),
    binary main_v104 main_v51 main_v105 (cmpf .ole : (⟨S262144, .f32⟩ : BufTy).Contents (Elt F) → (⟨S262144, .f32⟩ : BufTy).Contents (Elt F) → (⟨S262144, .i1⟩ : BufTy).Contents (Elt F)),
    unary main_v105 main_v106 (broadcastInDim S262144x1 ![0] bcast_S262144_S262144x1_0 : (⟨S262144, .i1⟩ : BufTy).Contents (Elt F) → (⟨S262144x1, .i1⟩ : BufTy).Contents (Elt F)),
    unary main_v106 main_call10_v0 (broadcastInDim S262144x3 ![0, 1] bcast_S262144x1_S262144x3_0_1 : (⟨S262144x1, .i1⟩ : BufTy).Contents (Elt F) → (⟨S262144x3, .i1⟩ : BufTy).Contents (Elt F)),
    ternary main_call10_v0 main_v52 main_arg1 main_v107 (select : (⟨S262144x3, .i1⟩ : BufTy).Contents (Elt F) → (⟨S262144x3, .f32⟩ : BufTy).Contents (Elt F) → (⟨S262144x3, .f32⟩ : BufTy).Contents (Elt F) → (⟨S262144x3, .f32⟩ : BufTy).Contents (Elt F)),
    ternary main_v105 main_v104 main_v51 main_v108 (select : (⟨S262144, .i1⟩ : BufTy).Contents (Elt F) → (⟨S262144, .f32⟩ : BufTy).Contents (Elt F) → (⟨S262144, .f32⟩ : BufTy).Contents (Elt F) → (⟨S262144, .f32⟩ : BufTy).Contents (Elt F)) ]

set_option maxRecDepth 4096 in
theorem part0_eq (c : Dev nD) : main_part0 (F := F) c = seq opsW0 := by
  simp only [main_part0, fn_clip.body, fn_clip_0.body, seq, bind_assoc, pure_bind]
  rfl

set_option maxRecDepth 4096 in
theorem part1_eq (c : Dev nD) : main_part1 (F := F) c = seq opsW1 := by
  simp only [main_part1, fn_clip.body, fn_clip_0.body, fn_norm.body, seq, bind_assoc, pure_bind]
  rfl

set_option maxRecDepth 4096 in
theorem part2_eq (c : Dev nD) : main_part2 (F := F) c = seq opsW2 := by
  simp only [main_part2, fn_norm.body, fn_where.body, fn_where_1.body, seq, bind_assoc, pure_bind]
  rfl

/-- @main is the three windows' operations run as one line. -/
theorem main_eq (c : Dev nD) : main (F := F) c = seq (opsW0 ++ (opsW1 ++ opsW2)) := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem sub0 : (opsW0 : List (HloOp τ sig (Elt F))).Forall fun op => op.bufs ⊆ tcRefs τ sig :=
  ⟨nullary_bufs_sub .., nullary_bufs_sub .., nullary_bufs_sub .., unary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., nary_bufs_sub .., binary_bufs_sub .., binary_bufs_sub ..,
    binary_bufs_sub .., unary_bufs_sub ..⟩

theorem sub1 : (opsW1 : List (HloOp τ sig (Elt F))).Forall fun op => op.bufs ⊆ tcRefs τ sig :=
  ⟨unary_bufs_sub .., binary_bufs_sub .., unary_bufs_sub .., binary_bufs_sub .., unary_bufs_sub .., unary_bufs_sub ..,
    binary_bufs_sub .., binary_bufs_sub .., binary_bufs_sub .., nullary_bufs_sub .., binary_bufs_sub .., unary_bufs_sub ..,
    binary_bufs_sub .., unary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub ..⟩

theorem sub2 : (opsW2 : List (HloOp τ sig (Elt F))).Forall fun op => op.bufs ⊆ tcRefs τ sig :=
  ⟨unary_bufs_sub .., unary_bufs_sub .., nary_bufs_sub .., binary_bufs_sub .., binary_bufs_sub .., binary_bufs_sub ..,
    unary_bufs_sub .., unary_bufs_sub .., binary_bufs_sub .., unary_bufs_sub .., binary_bufs_sub .., unary_bufs_sub ..,
    unary_bufs_sub .., binary_bufs_sub .., binary_bufs_sub .., binary_bufs_sub .., nullary_bufs_sub .., binary_bufs_sub ..,
    unary_bufs_sub .., binary_bufs_sub .., unary_bufs_sub .., unary_bufs_sub .., ternary_bufs_sub .., ternary_bufs_sub ..⟩

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (opsW0 ++ (opsW1 ++ opsW2) : List (HloOp τ sig (Elt F))).Forall fun op => op.bufs ⊆ tcRefs τ sig :=
  forall_append sub0 (forall_append sub1 sub2)

theorem fresh0 : ∀ op ∈ (opsW0 : List (HloOp τ sig (Elt F))), op.fresh = ∅ := by
  intro _ h; (repeat (cases h with | head => rfl | tail _ h => ?_)); exact nomatch h
theorem fresh1 : ∀ op ∈ (opsW1 : List (HloOp τ sig (Elt F))), op.fresh = ∅ := by
  intro _ h; (repeat (cases h with | head => rfl | tail _ h => ?_)); exact nomatch h
theorem fresh2 : ∀ op ∈ (opsW2 : List (HloOp τ sig (Elt F))), op.fresh = ∅ := by
  intro _ h; (repeat (cases h with | head => rfl | tail _ h => ?_)); exact nomatch h

theorem ops_fresh : ∀ op ∈ (opsW0 ++ (opsW1 ++ opsW2) : List (HloOp τ sig (Elt F))), op.fresh = ∅ := fun op h =>
  (List.mem_append.mp h).elim (fresh0 op) fun h => (List.mem_append.mp h).elim (fresh1 op) (fresh2 op)

/-- The run, at every TensorCore buffer: the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opsW0 ++ (opsW1 ++ opsW2)) (launchContents m c) (Proc.devRef .tc b) :=
  run_seq scopedRefs_eq scopedSems_eq defs main (fun _ => opsW0 ++ (opsW1 ++ opsW2)) main_eq (fun _ => ops_sub) m ρ (fun _ => ops_fresh)

/-! ## The same line in nine pieces, and what each piece leaves at the buffers the later ones read

Each piece is a named list; a lemma about a piece speaks of it by name. -/

/-- The three table constants. -/
def opsT : List (HloOp τ sig (Elt F)) :=
  [ nullary main_c (fun i => lit0 (S128.rowMajor i)),
    nullary main_c_0 (fun i => lit1 (S128.rowMajor i)),
    nullary main_c_1 (fun i => lit2 (S128.rowMajor i)) ]

/-- Operations %0 … %37: the three index slabs at the old positions. -/
def opsL0a : List (HloOp τ sig (Elt F)) :=
  [ unary main_arg1 main_v0 (fptosi 32 : (⟨S262144x3, .f32⟩ : BufTy).Contents (Elt F) → (⟨S262144x3, .i32⟩ : BufTy).Contents (Elt F)),
    nullary main_c_2 (constantI S_ 32 0#32),
    nullary main_c_3 (constantI S_ 32 127#32),
    unary main_c_2 main_call0_v0 (id : (⟨S_, .i32⟩ : BufTy).Contents (Elt F) → (⟨S_, .i32⟩ : BufTy).Contents (Elt F)),
    unary main_call0_v0 main_call0_v1 (broadcastInDim S262144x3 ![] bcast_S_S262144x3 : (⟨S_, .i32⟩ : BufTy).Contents (Elt F) → (⟨S262144x3, .i32⟩ : BufTy).Contents (Elt F)),
    binary main_call0_v1 main_v0 main_call0_v2 (maxsi : (⟨S262144x3, .i32⟩ : BufTy).Contents (Elt F) → (⟨S262144x3, .i32⟩ : BufTy).Contents (Elt F) → (⟨S262144x3, .i32⟩ : BufTy).Contents (Elt F)),
    unary main_c_3 main_call0_v3 (id : (⟨S_, .i32⟩ : BufTy).Contents (Elt F) → (⟨S_, .i32⟩ : BufTy).Contents (Elt F)),
    unary main_call0_v3 main_call0_v4 (broadcastInDim S262144x3 ![] bcast_S_S262144x3 : (⟨S_, .i32⟩ : BufTy).Contents (Elt F) → (⟨S262144x3, .i32⟩ : BufTy).Contents (Elt F)),
    binary main_call0_v4 main_call0_v2 main_v1 (minsi : (⟨S262144x3, .i32⟩ : BufTy).Contents (Elt F) → (⟨S262144x3, .i32⟩ : BufTy).Contents (Elt F) → (⟨S262144x3, .i32⟩ : BufTy).Contents (Elt F)),
    unary main_v1 main_v2 ((extractStridedSlice S262144x1 ![0, 0] · slices_S262144x3_S262144x1_0_0) : (⟨S262144x3, .i32⟩ : BufTy).Contents (Elt F) → (⟨S262144x1, .i32⟩ : BufTy).Contents (Elt F)),
    unary main_c main_v3 (broadcastInDim S1x128 ![1] bcast_S128_S1x128_1 : (⟨S128, .i32⟩ : BufTy).Contents (Elt F) → (⟨S1x128, .i32⟩ : BufTy).Contents (Elt F)),
    unary main_v2 main_v4 (broadcastInDim S262144x128 ![0, 1] bcast_S262144x1_S262144x128_0_1 : (⟨S262144x1, .i32⟩ : BufTy).Contents (Elt F) → (⟨S262144x128, .i32⟩ : BufTy).Contents (Elt F)),
    unary main_v3 main_v5 (broadcastInDim S262144x128 ![0, 1] bcast_S1x128_S262144x128_0_1 : (⟨S1x128, .i32⟩ : BufTy).Contents (Elt F) → (⟨S262144x128, .i32⟩ : BufTy).Contents (Elt F)),
    binary main_v4 main_v5 main_v6 (addi : (⟨S262144x128, .i32⟩ : BufTy).Contents (Elt F) → (⟨S262144x128, .i32⟩ : BufTy).Contents (Elt F) → (⟨S262144x128, .i32⟩ : BufTy).Contents (Elt F)),
    nullary main_c_4 (constantI S_ 32 0#32),
    nullary main_c_5 (constantI S_ 32 127#32),
    unary main_c_4 main_call1_v0 (id : (⟨S_, .i32⟩ : BufTy).Contents (Elt F) → (⟨S_, .i32⟩ : BufTy).Contents (Elt F)),
    unary main_call1_v0 main_call1_v1 (broadcastInDim S262144x128 ![] bcast_S_S262144x128 : (⟨S_, .i32⟩ : BufTy).Contents (Elt F) → (⟨S262144x128, .i32⟩ : BufTy).Contents (Elt F)),
    binary main_call1_v1 main_v6 main_call1_v2 (maxsi : (⟨S262144x128, .i32⟩ : BufTy).Contents (Elt F) → (⟨S262144x128, .i32⟩ : BufTy).Contents (Elt F) → (⟨S262144x128, .i32⟩ : BufTy).Contents (Elt F)),
    unary main_c_5 main_call1_v3 (id : (⟨S_, .i32⟩ : BufTy).Contents (Elt F) → (⟨S_, .i32⟩ : BufTy).Contents (Elt F)),
    unary main_call1_v3 main_call1_v4 (broadcastInDim S262144x128 ![] bcast_S_S262144x128 : (⟨S_, .i32⟩ : BufTy).Contents (Elt F) → (⟨S262144x128, .i32⟩ : BufTy).Contents (Elt F)),
    binary main_call1_v4 main_call1_v2 main_v7 (minsi : (⟨S262144x128, .i32⟩ : BufTy).Contents (Elt F) → (⟨S262144x128, .i32⟩ : BufTy).Contents (Elt F) → (⟨S262144x128, .i32⟩ : BufTy).Contents (Elt F)),
    unary main_v1 main_v8 ((extractStridedSlice S262144x1 ![0, 1] · slices_S262144x3_S262144x1_0_1) : (⟨S262144x3, .i32⟩ : BufTy).Contents (Elt F) → (⟨S262144x1, .i32⟩ : BufTy).Contents (Elt F)),
    unary main_c_0 main_v9 (broadcastInDim S1x128 ![1] bcast_S128_S1x128_1 : (⟨S128, .i32⟩ : BufTy).Contents (Elt F) → (⟨S1x128, .i32⟩ : BufTy).Contents (Elt F)),
    unary main_v8 main_v10 (broadcastInDim S262144x128 ![0, 1] bcast_S262144x1_S262144x128_0_1 : (⟨S262144x1, .i32⟩ : BufTy).Contents (Elt F) → (⟨S262144x128, .i32⟩ : BufTy).Contents (Elt F)),
    unary main_v9 main_v11 (broadcastInDim S262144x128 ![0, 1] bcast_S1x128_S262144x128_0_1 : (⟨S1x128, .i32⟩ : BufTy).Contents (Elt F) → (⟨S262144x128, .i32⟩ : BufTy).Contents (Elt F)),
    binary main_v10 main_v11 main_v12 (addi : (⟨S262144x128, .i32⟩ : BufTy).Contents (Elt F) → (⟨S262144x128, .i32⟩ : BufTy).Contents (Elt F) → (⟨S262144x128, .i32⟩ : BufTy).Contents (Elt F)),
    nullary main_c_6 (constantI S_ 32 0#32),
    nullary main_c_7 (constantI S_ 32 127#32),
    unary main_c_6 main_call2_v0 (id : (⟨S_, .i32⟩ : BufTy).Contents (Elt F) → (⟨S_, .i32⟩ : BufTy).Contents (Elt F)),
    unary main_call2_v0 main_call2_v1 (broadcastInDim S262144x128 ![] bcast_S_S262144x128 : (⟨S_, .i32⟩ : BufTy).Contents (Elt F) → (⟨S262144x128, .i32⟩ : BufTy).Contents (Elt F)),
    binary main_call2_v1 main_v12 main_call2_v2 (maxsi : (⟨S262144x128, .i32⟩ : BufTy).Contents (Elt F) → (⟨S262144x128, .i32⟩ : BufTy).Contents (Elt F) → (⟨S262144x128, .i32⟩ : BufTy).Contents (Elt F)),
    unary main_c_7 main_call2_v3 (id : (⟨S_, .i32⟩ : BufTy).Contents (Elt F) → (⟨S_, .i32⟩ : BufTy).Contents (Elt F)),
    unary main_call2_v3 main_call2_v4 (broadcastInDim S262144x128 ![] bcast_S_S262144x128 : (⟨S_, .i32⟩ : BufTy).Contents (Elt F) → (⟨S262144x128, .i32⟩ : BufTy).Contents (Elt F)),
    binary main_call2_v4 main_call2_v2 main_v13 (minsi : (⟨S262144x128, .i32⟩ : BufTy).Contents (Elt F) → (⟨S262144x128, .i32⟩ : BufTy).Contents (Elt F) → (⟨S262144x128, .i32⟩ : BufTy).Contents (Elt F)),
    unary main_v1 main_v14 ((extractStridedSlice S262144x1 ![0, 2] · slices_S262144x3_S262144x1_0_2) : (⟨S262144x3, .i32⟩ : BufTy).Contents (Elt F) → (⟨S262144x1, .i32⟩ : BufTy).Contents (Elt F)),
    unary main_c_1 main_v15 (broadcastInDim S1x128 ![1] bcast_S128_S1x128_1 : (⟨S128, .i32⟩ : BufTy).Contents (Elt F) → (⟨S1x128, .i32⟩ : BufTy).Contents (Elt F)),
    unary main_v14 main_v16 (broadcastInDim S262144x128 ![0, 1] bcast_S262144x1_S262144x128_0_1 : (⟨S262144x1, .i32⟩ : BufTy).Contents (Elt F) → (⟨S262144x128, .i32⟩ : BufTy).Contents (Elt F)),
    unary main_v15 main_v17 (broadcastInDim S262144x128 ![0, 1] bcast_S1x128_S262144x128_0_1 : (⟨S1x128, .i32⟩ : BufTy).Contents (Elt F) → (⟨S262144x128, .i32⟩ : BufTy).Contents (Elt F)),
    binary main_v16 main_v17 main_v18 (addi : (⟨S262144x128, .i32⟩ : BufTy).Contents (Elt F) → (⟨S262144x128, .i32⟩ : BufTy).Contents (Elt F) → (⟨S262144x128, .i32⟩ : BufTy).Contents (Elt F)),
    nullary main_c_8 (constantI S_ 32 0#32),
    nullary main_c_9 (constantI S_ 32 127#32),
    unary main_c_8 main_call3_v0 (id : (⟨S_, .i32⟩ : BufTy).Contents (Elt F) → (⟨S_, .i32⟩ : BufTy).Contents (Elt F)),
    unary main_call3_v0 main_call3_v1 (broadcastInDim S262144x128 ![] bcast_S_S262144x128 : (⟨S_, .i32⟩ : BufTy).Contents (Elt F) → (⟨S262144x128, .i32⟩ : BufTy).Contents (Elt F)),
    binary main_call3_v1 main_v18 main_call3_v2 (maxsi : (⟨S262144x128, .i32⟩ : BufTy).Contents (Elt F) → (⟨S262144x128, .i32⟩ : BufTy).Contents (Elt F) → (⟨S262144x128, .i32⟩ : BufTy).Contents (Elt F)),
    unary main_c_9 main_call3_v3 (id : (⟨S_, .i32⟩ : BufTy).Contents (Elt F) → (⟨S_, .i32⟩ : BufTy).Contents (Elt F)),
    unary main_call3_v3 main_call3_v4 (broadcastInDim S262144x128 ![] bcast_S_S262144x128 : (⟨S_, .i32⟩ : BufTy).Contents (Elt F) → (⟨S262144x128, .i32⟩ : BufTy).Contents (Elt F)),
    binary main_call3_v4 main_call3_v2 main_v19 (minsi : (⟨S262144x128, .i32⟩ : BufTy).Contents (Elt F) → (⟨S262144x128, .i32⟩ : BufTy).Contents (Elt F) → (⟨S262144x128, .i32⟩ : BufTy).Contents (Elt F)),
    nullary main_c_10 (constantI S_ 32 0#32),
    unary main_c_10 main_v20 (broadcastInDim S262144x128 ![] bcast_S_S262144x128 : (⟨S_, .i32⟩ : BufTy).Contents (Elt F) → (⟨S262144x128, .i32⟩ : BufTy).Contents (Elt F)),
    binary main_v7 main_v20 main_v21 (cmpi .slt : (⟨S262144x128, .i32⟩ : BufTy).Contents (Elt F) → (⟨S262144x128, .i32⟩ : BufTy).Contents (Elt F) → (⟨S262144x128, .i1⟩ : BufTy).Contents (Elt F)),
    nullary main_c_11 (constantI S_ 32 128#32),
    unary main_c_11 main_v22 (broadcastInDim S262144x128 ![] bcast_S_S262144x128 : (⟨S_, .i32⟩ : BufTy).Contents (Elt F) → (⟨S262144x128, .i32⟩ : BufTy).Contents (Elt F)),
    binary main_v7 main_v22 main_v23 (addi : (⟨S262144x128, .i32⟩ : BufTy).Contents (Elt F) → (⟨S262144x128, .i32⟩ : BufTy).Contents (Elt F) → (⟨S262144x128, .i32⟩ : BufTy).Contents (Elt F)),
    ternary main_v21 main_v23 main_v7 main_v24 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_12 (constantI S_ 32 0#32),
    unary main_c_12 main_v25 (broadcastInDim S262144x128 ![] bcast_S_S262144x128 : (⟨S_, .i32⟩ : BufTy).Contents (Elt F) → (⟨S262144x128, .i32⟩ : BufTy).Contents (Elt F)),
    binary main_v13 main_v25 main_v26 (cmpi .slt : (⟨S262144x128, .i32⟩ : BufTy).Contents (Elt F) → (⟨S262144x128, .i32⟩ : BufTy).Contents (Elt F) → (⟨S262144x128, .i1⟩ : BufTy).Contents (Elt F)),
    nullary main_c_13 (constantI S_ 32 128#32),
    unary main_c_13 main_v27 (broadcastInDim S262144x128 ![] bcast_S_S262144x128 : (⟨S_, .i32⟩ : BufTy).Contents (Elt F) → (⟨S262144x128, .i32⟩ : BufTy).Contents (Elt F)),
    binary main_v13 main_v27 main_v28 (addi : (⟨S262144x128, .i32⟩ : BufTy).Contents (Elt F) → (⟨S262144x128, .i32⟩ : BufTy).Contents (Elt F) → (⟨S262144x128, .i32⟩ : BufTy).Contents (Elt F)),
    ternary main_v26 main_v28 main_v13 main_v29 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_14 (constantI S_ 32 0#32),
    unary main_c_14 main_v30 (broadcastInDim S262144x128 ![] bcast_S_S262144x128 : (⟨S_, .i32⟩ : BufTy).Contents (Elt F) → (⟨S262144x128, .i32⟩ : BufTy).Contents (Elt F)),
    binary main_v19 main_v30 main_v31 (cmpi .slt : (⟨S262144x128, .i32⟩ : BufTy).Contents (Elt F) → (⟨S262144x128, .i32⟩ : BufTy).Contents (Elt F) → (⟨S262144x128, .i1⟩ : BufTy).Contents (Elt F)),
    nullary main_c_15 (constantI S_ 32 128#32),
    unary main_c_15 main_v32 (broadcastInDim S262144x128 ![] bcast_S_S262144x128 : (⟨S_, .i32⟩ : BufTy).Contents (Elt F) → (⟨S262144x128, .i32⟩ : BufTy).Contents (Elt F)),
    binary main_v19 main_v32 main_v33 (addi : (⟨S262144x128, .i32⟩ : BufTy).Contents (Elt F) → (⟨S262144x128, .i32⟩ : BufTy).Contents (Elt F) → (⟨S262144x128, .i32⟩ : BufTy).Contents (Elt F)),
    ternary main_v31 main_v33 main_v19 main_v34 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    unary main_v24 main_v35 (broadcastInDim S262144x128x1 ![0, 1] bcast_S262144x128_S262144x128x1_0_1 : (⟨S262144x128, .i32⟩ : BufTy).Contents (Elt F) → (⟨S262144x128x1, .i32⟩ : BufTy).Contents (Elt F)),
    unary main_v29 main_v36 (broadcastInDim S262144x128x1 ![0, 1] bcast_S262144x128_S262144x128x1_0_1 : (⟨S262144x128, .i32⟩ : BufTy).Contents (Elt F) → (⟨S262144x128x1, .i32⟩ : BufTy).Contents (Elt F)),
    unary main_v34 main_v37 (broadcastInDim S262144x128x1 ![0, 1] bcast_S262144x128_S262144x128x1_0_1 : (⟨S262144x128, .i32⟩ : BufTy).Contents (Elt F) → (⟨S262144x128x1, .i32⟩ : BufTy).Contents (Elt F)) ]

/-- Operations %38, %39: the index tensor and the gather, at the old positions. -/
def opsL0b : List (HloOp τ sig (Elt F)) :=
  [ nary ![main_v35, main_v36, main_v37] main_v38 (fun u => concatenate S262144x128x3 2 [⟨S262144x128x1, u 0⟩, ⟨S262144x128x1, u 1⟩, ⟨S262144x128x1, u 2⟩] concatenates_S262144x128x1_S262144x128x1_S262144x128x1_S262144x128x3_d2),
    binary main_arg0 main_v38 main_v39 ((fun x i => Host.gather gather_S128x128x128_S262144x128x3_S262144x128_n_012_n_n_012_2_111 x i) : (⟨S128x128x128, .f32⟩ : BufTy).Contents (Elt F) → (⟨S262144x128x3, .i32⟩ : BufTy).Contents (Elt F) → (⟨S262144x128, .f32⟩ : BufTy).Contents (Elt F)) ]

/-- Operations %40 … %51: the stability at the old positions. -/
def opsS0 : List (HloOp τ sig (Elt F)) :=
  [ binary main_arg2 main_v39 main_v40 ((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)),
    binary main_v40 main_arg4 main_v41 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S262144x128 ![0, 1] bcast_S1x128_S262144x128_0_1 : (⟨S1x128, .f32⟩ : BufTy).Contents (Elt F) → (⟨S262144x128, .f32⟩ : BufTy).Contents (Elt F)),
    binary main_v41 main_v43 main_v44 (addf : (⟨S262144x128, .f32⟩ : BufTy).Contents (Elt F) → (⟨S262144x128, .f32⟩ : BufTy).Contents (Elt F) → (⟨S262144x128, .f32⟩ : BufTy).Contents (Elt F)),
    unary main_v44 main_v45 (Host.tanh : (⟨S262144x128, .f32⟩ : BufTy).Contents (Elt F) → (⟨S262144x128, .f32⟩ : BufTy).Contents (Elt F)),
    binary main_v45 main_arg6 main_v46 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg7 main_v47 (broadcastInDim S1x128 ![1] bcast_S128_S1x128_1 : (⟨S128, .f32⟩ : BufTy).Contents (Elt F) → (⟨S1x128, .f32⟩ : BufTy).Contents (Elt F)),
    unary main_v47 main_v48 (broadcastInDim S262144x128 ![0, 1] bcast_S1x128_S262144x128_0_1 : (⟨S1x128, .f32⟩ : BufTy).Contents (Elt F) → (⟨S262144x128, .f32⟩ : BufTy).Contents (Elt F)),
    binary main_v46 main_v48 main_v49 (addf : (⟨S262144x128, .f32⟩ : BufTy).Contents (Elt F) → (⟨S262144x128, .f32⟩ : BufTy).Contents (Elt F) → (⟨S262144x128, .f32⟩ : BufTy).Contents (Elt F)),
    binary main_v49 main_arg2 main_v50 (subf : (⟨S262144x128, .f32⟩ : BufTy).Contents (Elt F) → (⟨S262144x128, .f32⟩ : BufTy).Contents (Elt F) → (⟨S262144x128, .f32⟩ : BufTy).Contents (Elt F)),
    binary main_v50 main_v50 main_call4_v0 (mulf : (⟨S262144x128, .f32⟩ : BufTy).Contents (Elt F) → (⟨S262144x128, .f32⟩ : BufTy).Contents (Elt F) → (⟨S262144x128, .f32⟩ : BufTy).Contents (Elt F)),
    nullary main_call4_cst (constant S_ .f32 0x00000000#32 : (⟨S_, .f32⟩ : BufTy).Contents (Elt F)),
    binary main_call4_v0 main_call4_cst main_call4_v1 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_call4_v1 main_v51 (Host.sqrt : (⟨S262144, .f32⟩ : BufTy).Contents (Elt F) → (⟨S262144, .f32⟩ : BufTy).Contents (Elt F)) ]

/-- Operation %52: the moved positions. -/
def opsP : List (HloOp τ sig (Elt F)) :=
  [ binary main_arg1 main_arg3 main_v52 (addf : (⟨S262144x3, .f32⟩ : BufTy).Contents (Elt F) → (⟨S262144x3, .f32⟩ : BufTy).Contents (Elt F) → (⟨S262144x3, .f32⟩ : BufTy).Contents (Elt F)) ]

/-- Operations %53 … %90: the three index slabs at the moved positions. -/
def opsL1a : List (HloOp τ sig (Elt F)) :=
  [ unary main_v52 main_v53 (fptosi 32 : (⟨S262144x3, .f32⟩ : BufTy).Contents (Elt F) → (⟨S262144x3, .i32⟩ : BufTy).Contents (Elt F)),
    nullary main_c_16 (constantI S_ 32 0#32),
    nullary main_c_17 (constantI S_ 32 127#32),
    unary main_c_16 main_call5_v0 (id : (⟨S_, .i32⟩ : BufTy).Contents (Elt F) → (⟨S_, .i32⟩ : BufTy).Contents (Elt F)),
    unary main_call5_v0 main_call5_v1 (broadcastInDim S262144x3 ![] bcast_S_S262144x3 : (⟨S_, .i32⟩ : BufTy).Contents (Elt F) → (⟨S262144x3, .i32⟩ : BufTy).Contents (Elt F)),
    binary main_call5_v1 main_v53 main_call5_v2 (maxsi : (⟨S262144x3, .i32⟩ : BufTy).Contents (Elt F) → (⟨S262144x3, .i32⟩ : BufTy).Contents (Elt F) → (⟨S262144x3, .i32⟩ : BufTy).Contents (Elt F)),
    unary main_c_17 main_call5_v3 (id : (⟨S_, .i32⟩ : BufTy).Contents (Elt F) → (⟨S_, .i32⟩ : BufTy).Contents (Elt F)),
    unary main_call5_v3 main_call5_v4 (broadcastInDim S262144x3 ![] bcast_S_S262144x3 : (⟨S_, .i32⟩ : BufTy).Contents (Elt F) → (⟨S262144x3, .i32⟩ : BufTy).Contents (Elt F)),
    binary main_call5_v4 main_call5_v2 main_v54 (minsi : (⟨S262144x3, .i32⟩ : BufTy).Contents (Elt F) → (⟨S262144x3, .i32⟩ : BufTy).Contents (Elt F) → (⟨S262144x3, .i32⟩ : BufTy).Contents (Elt F)),
    unary main_v54 main_v55 ((extractStridedSlice S262144x1 ![0, 0] · slices_S262144x3_S262144x1_0_0) : (⟨S262144x3, .i32⟩ : BufTy).Contents (Elt F) → (⟨S262144x1, .i32⟩ : BufTy).Contents (Elt F)),
    unary main_c main_v56 (broadcastInDim S1x128 ![1] bcast_S128_S1x128_1 : (⟨S128, .i32⟩ : BufTy).Contents (Elt F) → (⟨S1x128, .i32⟩ : BufTy).Contents (Elt F)),
    unary main_v55 main_v57 (broadcastInDim S262144x128 ![0, 1] bcast_S262144x1_S262144x128_0_1 : (⟨S262144x1, .i32⟩ : BufTy).Contents (Elt F) → (⟨S262144x128, .i32⟩ : BufTy).Contents (Elt F)),
    unary main_v56 main_v58 (broadcastInDim S262144x128 ![0, 1] bcast_S1x128_S262144x128_0_1 : (⟨S1x128, .i32⟩ : BufTy).Contents (Elt F) → (⟨S262144x128, .i32⟩ : BufTy).Contents (Elt F)),
    binary main_v57 main_v58 main_v59 (addi : (⟨S262144x128, .i32⟩ : BufTy).Contents (Elt F) → (⟨S262144x128, .i32⟩ : BufTy).Contents (Elt F) → (⟨S262144x128, .i32⟩ : BufTy).Contents (Elt F)),
    nullary main_c_18 (constantI S_ 32 0#32),
    nullary main_c_19 (constantI S_ 32 127#32),
    unary main_c_18 main_call6_v0 (id : (⟨S_, .i32⟩ : BufTy).Contents (Elt F) → (⟨S_, .i32⟩ : BufTy).Contents (Elt F)),
    unary main_call6_v0 main_call6_v1 (broadcastInDim S262144x128 ![] bcast_S_S262144x128 : (⟨S_, .i32⟩ : BufTy).Contents (Elt F) → (⟨S262144x128, .i32⟩ : BufTy).Contents (Elt F)),
    binary main_call6_v1 main_v59 main_call6_v2 (maxsi : (⟨S262144x128, .i32⟩ : BufTy).Contents (Elt F) → (⟨S262144x128, .i32⟩ : BufTy).Contents (Elt F) → (⟨S262144x128, .i32⟩ : BufTy).Contents (Elt F)),
    unary main_c_19 main_call6_v3 (id : (⟨S_, .i32⟩ : BufTy).Contents (Elt F) → (⟨S_, .i32⟩ : BufTy).Contents (Elt F)),
    unary main_call6_v3 main_call6_v4 (broadcastInDim S262144x128 ![] bcast_S_S262144x128 : (⟨S_, .i32⟩ : BufTy).Contents (Elt F) → (⟨S262144x128, .i32⟩ : BufTy).Contents (Elt F)),
    binary main_call6_v4 main_call6_v2 main_v60 (minsi : (⟨S262144x128, .i32⟩ : BufTy).Contents (Elt F) → (⟨S262144x128, .i32⟩ : BufTy).Contents (Elt F) → (⟨S262144x128, .i32⟩ : BufTy).Contents (Elt F)),
    unary main_v54 main_v61 ((extractStridedSlice S262144x1 ![0, 1] · slices_S262144x3_S262144x1_0_1) : (⟨S262144x3, .i32⟩ : BufTy).Contents (Elt F) → (⟨S262144x1, .i32⟩ : BufTy).Contents (Elt F)),
    unary main_c_0 main_v62 (broadcastInDim S1x128 ![1] bcast_S128_S1x128_1 : (⟨S128, .i32⟩ : BufTy).Contents (Elt F) → (⟨S1x128, .i32⟩ : BufTy).Contents (Elt F)),
    unary main_v61 main_v63 (broadcastInDim S262144x128 ![0, 1] bcast_S262144x1_S262144x128_0_1 : (⟨S262144x1, .i32⟩ : BufTy).Contents (Elt F) → (⟨S262144x128, .i32⟩ : BufTy).Contents (Elt F)),
    unary main_v62 main_v64 (broadcastInDim S262144x128 ![0, 1] bcast_S1x128_S262144x128_0_1 : (⟨S1x128, .i32⟩ : BufTy).Contents (Elt F) → (⟨S262144x128, .i32⟩ : BufTy).Contents (Elt F)),
    binary main_v63 main_v64 main_v65 (addi : (⟨S262144x128, .i32⟩ : BufTy).Contents (Elt F) → (⟨S262144x128, .i32⟩ : BufTy).Contents (Elt F) → (⟨S262144x128, .i32⟩ : BufTy).Contents (Elt F)),
    nullary main_c_20 (constantI S_ 32 0#32),
    nullary main_c_21 (constantI S_ 32 127#32),
    unary main_c_20 main_call7_v0 (id : (⟨S_, .i32⟩ : BufTy).Contents (Elt F) → (⟨S_, .i32⟩ : BufTy).Contents (Elt F)),
    unary main_call7_v0 main_call7_v1 (broadcastInDim S262144x128 ![] bcast_S_S262144x128 : (⟨S_, .i32⟩ : BufTy).Contents (Elt F) → (⟨S262144x128, .i32⟩ : BufTy).Contents (Elt F)),
    binary main_call7_v1 main_v65 main_call7_v2 (maxsi : (⟨S262144x128, .i32⟩ : BufTy).Contents (Elt F) → (⟨S262144x128, .i32⟩ : BufTy).Contents (Elt F) → (⟨S262144x128, .i32⟩ : BufTy).Contents (Elt F)),
    unary main_c_21 main_call7_v3 (id : (⟨S_, .i32⟩ : BufTy).Contents (Elt F) → (⟨S_, .i32⟩ : BufTy).Contents (Elt F)),
    unary main_call7_v3 main_call7_v4 (broadcastInDim S262144x128 ![] bcast_S_S262144x128 : (⟨S_, .i32⟩ : BufTy).Contents (Elt F) → (⟨S262144x128, .i32⟩ : BufTy).Contents (Elt F)),
    binary main_call7_v4 main_call7_v2 main_v66 (minsi : (⟨S262144x128, .i32⟩ : BufTy).Contents (Elt F) → (⟨S262144x128, .i32⟩ : BufTy).Contents (Elt F) → (⟨S262144x128, .i32⟩ : BufTy).Contents (Elt F)),
    unary main_v54 main_v67 ((extractStridedSlice S262144x1 ![0, 2] · slices_S262144x3_S262144x1_0_2) : (⟨S262144x3, .i32⟩ : BufTy).Contents (Elt F) → (⟨S262144x1, .i32⟩ : BufTy).Contents (Elt F)),
    unary main_c_1 main_v68 (broadcastInDim S1x128 ![1] bcast_S128_S1x128_1 : (⟨S128, .i32⟩ : BufTy).Contents (Elt F) → (⟨S1x128, .i32⟩ : BufTy).Contents (Elt F)),
    unary main_v67 main_v69 (broadcastInDim S262144x128 ![0, 1] bcast_S262144x1_S262144x128_0_1 : (⟨S262144x1, .i32⟩ : BufTy).Contents (Elt F) → (⟨S262144x128, .i32⟩ : BufTy).Contents (Elt F)),
    unary main_v68 main_v70 (broadcastInDim S262144x128 ![0, 1] bcast_S1x128_S262144x128_0_1 : (⟨S1x128, .i32⟩ : BufTy).Contents (Elt F) → (⟨S262144x128, .i32⟩ : BufTy).Contents (Elt F)),
    binary main_v69 main_v70 main_v71 (addi : (⟨S262144x128, .i32⟩ : BufTy).Contents (Elt F) → (⟨S262144x128, .i32⟩ : BufTy).Contents (Elt F) → (⟨S262144x128, .i32⟩ : BufTy).Contents (Elt F)),
    nullary main_c_22 (constantI S_ 32 0#32),
    nullary main_c_23 (constantI S_ 32 127#32),
    unary main_c_22 main_call8_v0 (id : (⟨S_, .i32⟩ : BufTy).Contents (Elt F) → (⟨S_, .i32⟩ : BufTy).Contents (Elt F)),
    unary main_call8_v0 main_call8_v1 (broadcastInDim S262144x128 ![] bcast_S_S262144x128 : (⟨S_, .i32⟩ : BufTy).Contents (Elt F) → (⟨S262144x128, .i32⟩ : BufTy).Contents (Elt F)),
    binary main_call8_v1 main_v71 main_call8_v2 (maxsi : (⟨S262144x128, .i32⟩ : BufTy).Contents (Elt F) → (⟨S262144x128, .i32⟩ : BufTy).Contents (Elt F) → (⟨S262144x128, .i32⟩ : BufTy).Contents (Elt F)),
    unary main_c_23 main_call8_v3 (id : (⟨S_, .i32⟩ : BufTy).Contents (Elt F) → (⟨S_, .i32⟩ : BufTy).Contents (Elt F)),
    unary main_call8_v3 main_call8_v4 (broadcastInDim S262144x128 ![] bcast_S_S262144x128 : (⟨S_, .i32⟩ : BufTy).Contents (Elt F) → (⟨S262144x128, .i32⟩ : BufTy).Contents (Elt F)),
    binary main_call8_v4 main_call8_v2 main_v72 (minsi : (⟨S262144x128, .i32⟩ : BufTy).Contents (Elt F) → (⟨S262144x128, .i32⟩ : BufTy).Contents (Elt F) → (⟨S262144x128, .i32⟩ : BufTy).Contents (Elt F)),
    nullary main_c_24 (constantI S_ 32 0#32),
    unary main_c_24 main_v73 (broadcastInDim S262144x128 ![] bcast_S_S262144x128 : (⟨S_, .i32⟩ : BufTy).Contents (Elt F) → (⟨S262144x128, .i32⟩ : BufTy).Contents (Elt F)),
    binary main_v60 main_v73 main_v74 (cmpi .slt : (⟨S262144x128, .i32⟩ : BufTy).Contents (Elt F) → (⟨S262144x128, .i32⟩ : BufTy).Contents (Elt F) → (⟨S262144x128, .i1⟩ : BufTy).Contents (Elt F)),
    nullary main_c_25 (constantI S_ 32 128#32),
    unary main_c_25 main_v75 (broadcastInDim S262144x128 ![] bcast_S_S262144x128 : (⟨S_, .i32⟩ : BufTy).Contents (Elt F) → (⟨S262144x128, .i32⟩ : BufTy).Contents (Elt F)),
    binary main_v60 main_v75 main_v76 (addi : (⟨S262144x128, .i32⟩ : BufTy).Contents (Elt F) → (⟨S262144x128, .i32⟩ : BufTy).Contents (Elt F) → (⟨S262144x128, .i32⟩ : BufTy).Contents (Elt F)),
    ternary main_v74 main_v76 main_v60 main_v77 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_26 (constantI S_ 32 0#32),
    unary main_c_26 main_v78 (broadcastInDim S262144x128 ![] bcast_S_S262144x128 : (⟨S_, .i32⟩ : BufTy).Contents (Elt F) → (⟨S262144x128, .i32⟩ : BufTy).Contents (Elt F)),
    binary main_v66 main_v78 main_v79 (cmpi .slt : (⟨S262144x128, .i32⟩ : BufTy).Contents (Elt F) → (⟨S262144x128, .i32⟩ : BufTy).Contents (Elt F) → (⟨S262144x128, .i1⟩ : BufTy).Contents (Elt F)),
    nullary main_c_27 (constantI S_ 32 128#32),
    unary main_c_27 main_v80 (broadcastInDim S262144x128 ![] bcast_S_S262144x128 : (⟨S_, .i32⟩ : BufTy).Contents (Elt F) → (⟨S262144x128, .i32⟩ : BufTy).Contents (Elt F)),
    binary main_v66 main_v80 main_v81 (addi : (⟨S262144x128, .i32⟩ : BufTy).Contents (Elt F) → (⟨S262144x128, .i32⟩ : BufTy).Contents (Elt F) → (⟨S262144x128, .i32⟩ : BufTy).Contents (Elt F)),
    ternary main_v79 main_v81 main_v66 main_v82 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    nullary main_c_28 (constantI S_ 32 0#32),
    unary main_c_28 main_v83 (broadcastInDim S262144x128 ![] bcast_S_S262144x128 : (⟨S_, .i32⟩ : BufTy).Contents (Elt F) → (⟨S262144x128, .i32⟩ : BufTy).Contents (Elt F)),
    binary main_v72 main_v83 main_v84 (cmpi .slt : (⟨S262144x128, .i32⟩ : BufTy).Contents (Elt F) → (⟨S262144x128, .i32⟩ : BufTy).Contents (Elt F) → (⟨S262144x128, .i1⟩ : BufTy).Contents (Elt F)),
    nullary main_c_29 (constantI S_ 32 128#32),
    unary main_c_29 main_v85 (broadcastInDim S262144x128 ![] bcast_S_S262144x128 : (⟨S_, .i32⟩ : BufTy).Contents (Elt F) → (⟨S262144x128, .i32⟩ : BufTy).Contents (Elt F)),
    binary main_v72 main_v85 main_v86 (addi : (⟨S262144x128, .i32⟩ : BufTy).Contents (Elt F) → (⟨S262144x128, .i32⟩ : BufTy).Contents (Elt F) → (⟨S262144x128, .i32⟩ : BufTy).Contents (Elt F)),
    ternary main_v84 main_v86 main_v72 main_v87 (select : (⟨S262144x128, .i1⟩ : BufTy).Contents (Elt F) → (⟨S262144x128, .i32⟩ : BufTy).Contents (Elt F) → (⟨S262144x128, .i32⟩ : BufTy).Contents (Elt F) → (⟨S262144x128, .i32⟩ : BufTy).Contents (Elt F)),
    unary main_v77 main_v88 (broadcastInDim S262144x128x1 ![0, 1] bcast_S262144x128_S262144x128x1_0_1 : (⟨S262144x128, .i32⟩ : BufTy).Contents (Elt F) → (⟨S262144x128x1, .i32⟩ : BufTy).Contents (Elt F)),
    unary main_v82 main_v89 (broadcastInDim S262144x128x1 ![0, 1] bcast_S262144x128_S262144x128x1_0_1 : (⟨S262144x128, .i32⟩ : BufTy).Contents (Elt F) → (⟨S262144x128x1, .i32⟩ : BufTy).Contents (Elt F)),
    unary main_v87 main_v90 (broadcastInDim S262144x128x1 ![0, 1] bcast_S262144x128_S262144x128x1_0_1 : (⟨S262144x128, .i32⟩ : BufTy).Contents (Elt F) → (⟨S262144x128x1, .i32⟩ : BufTy).Contents (Elt F)) ]

/-- Operations %91, %92: the index tensor and the gather, at the moved positions. -/
def opsL1b : List (HloOp τ sig (Elt F)) :=
  [ nary ![main_v88, main_v89, main_v90] main_v91 (fun u => concatenate S262144x128x3 2 [⟨S262144x128x1, u 0⟩, ⟨S262144x128x1, u 1⟩, ⟨S262144x128x1, u 2⟩] concatenates_S262144x128x1_S262144x128x1_S262144x128x1_S262144x128x3_d2),
    binary main_arg0 main_v91 main_v92 ((fun x i => Host.gather gather_S128x128x128_S262144x128x3_S262144x128_n_012_n_n_012_2_111 x i) : (⟨S128x128x128, .f32⟩ : BufTy).Contents (Elt F) → (⟨S262144x128x3, .i32⟩ : BufTy).Contents (Elt F) → (⟨S262144x128, .f32⟩ : BufTy).Contents (Elt F)) ]

/-- Operations %93 … %104: the stability at the moved positions. -/
def opsS1 : List (HloOp τ sig (Elt F)) :=
  [ binary main_arg2 main_v92 main_v93 ((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)),
    binary main_v93 main_arg4 main_v94 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg5 main_v95 (broadcastInDim S1x128 ![1] bcast_S128_S1x128_1 : (⟨S128, .f32⟩ : BufTy).Contents (Elt F) → (⟨S1x128, .f32⟩ : BufTy).Contents (Elt F)),
    unary main_v95 main_v96 (broadcastInDim S262144x128 ![0, 1] bcast_S1x128_S262144x128_0_1 : (⟨S1x128, .f32⟩ : BufTy).Contents (Elt F) → (⟨S262144x128, .f32⟩ : BufTy).Contents (Elt F)),
    binary main_v94 main_v96 main_v97 (addf : (⟨S262144x128, .f32⟩ : BufTy).Contents (Elt F) → (⟨S262144x128, .f32⟩ : BufTy).Contents (Elt F) → (⟨S262144x128, .f32⟩ : BufTy).Contents (Elt F)),
    unary main_v97 main_v98 (Host.tanh : (⟨S262144x128, .f32⟩ : BufTy).Contents (Elt F) → (⟨S262144x128, .f32⟩ : BufTy).Contents (Elt F)),
    binary main_v98 main_arg6 main_v99 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg7 main_v100 (broadcastInDim S1x128 ![1] bcast_S128_S1x128_1 : (⟨S128, .f32⟩ : BufTy).Contents (Elt F) → (⟨S1x128, .f32⟩ : BufTy).Contents (Elt F)),
    unary main_v100 main_v101 (broadcastInDim S262144x128 ![0, 1] bcast_S1x128_S262144x128_0_1 : (⟨S1x128, .f32⟩ : BufTy).Contents (Elt F) → (⟨S262144x128, .f32⟩ : BufTy).Contents (Elt F)),
    binary main_v99 main_v101 main_v102 (addf : (⟨S262144x128, .f32⟩ : BufTy).Contents (Elt F) → (⟨S262144x128, .f32⟩ : BufTy).Contents (Elt F) → (⟨S262144x128, .f32⟩ : BufTy).Contents (Elt F)),
    binary main_v102 main_arg2 main_v103 (subf : (⟨S262144x128, .f32⟩ : BufTy).Contents (Elt F) → (⟨S262144x128, .f32⟩ : BufTy).Contents (Elt F) → (⟨S262144x128, .f32⟩ : BufTy).Contents (Elt F)),
    binary main_v103 main_v103 main_call9_v0 (mulf : (⟨S262144x128, .f32⟩ : BufTy).Contents (Elt F) → (⟨S262144x128, .f32⟩ : BufTy).Contents (Elt F) → (⟨S262144x128, .f32⟩ : BufTy).Contents (Elt F)),
    nullary main_call9_cst (constant S_ .f32 0x00000000#32 : (⟨S_, .f32⟩ : BufTy).Contents (Elt F)),
    binary main_call9_v0 main_call9_cst main_call9_v1 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_call9_v1 main_v104 (Host.sqrt : (⟨S262144, .f32⟩ : BufTy).Contents (Elt F) → (⟨S262144, .f32⟩ : BufTy).Contents (Elt F)) ]

/-- Operations %105 … %108: the comparison and the two selections. -/
def opsF : List (HloOp τ sig (Elt F)) :=
  [ binary main_v104 main_v51 main_v105 (cmpf .ole : (⟨S262144, .f32⟩ : BufTy).Contents (Elt F) → (⟨S262144, .f32⟩ : BufTy).Contents (Elt F) → (⟨S262144, .i1⟩ : BufTy).Contents (Elt F)),
    unary main_v105 main_v106 (broadcastInDim S262144x1 ![0] bcast_S262144_S262144x1_0 : (⟨S262144, .i1⟩ : BufTy).Contents (Elt F) → (⟨S262144x1, .i1⟩ : BufTy).Contents (Elt F)),
    unary main_v106 main_call10_v0 (broadcastInDim S262144x3 ![0, 1] bcast_S262144x1_S262144x3_0_1 : (⟨S262144x1, .i1⟩ : BufTy).Contents (Elt F) → (⟨S262144x3, .i1⟩ : BufTy).Contents (Elt F)),
    ternary main_call10_v0 main_v52 main_arg1 main_v107 (select : (⟨S262144x3, .i1⟩ : BufTy).Contents (Elt F) → (⟨S262144x3, .f32⟩ : BufTy).Contents (Elt F) → (⟨S262144x3, .f32⟩ : BufTy).Contents (Elt F) → (⟨S262144x3, .f32⟩ : BufTy).Contents (Elt F)),
    ternary main_v105 main_v104 main_v51 main_v108 (select : (⟨S262144, .i1⟩ : BufTy).Contents (Elt F) → (⟨S262144, .f32⟩ : BufTy).Contents (Elt F) → (⟨S262144, .f32⟩ : BufTy).Contents (Elt F) → (⟨S262144, .f32⟩ : BufTy).Contents (Elt F)) ]

/-- The three windows' operations are the nine pieces' operations, in order. -/
theorem regroup : (opsW0 ++ (opsW1 ++ opsW2) : List (HloOp τ sig (Elt F)))
    = opsT ++ (opsL0a ++ (opsL0b ++ (opsS0 ++ (opsP ++ (opsL1a ++ (opsL1b ++ (opsS1 ++ (opsF)))))))) := rfl

/-- The contents after two lines run in turn. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `nary` over a literal family of three references: the result with each operand's contents at its own reference
    (under `nary_result`'s binder the reference `![x, a, b] k` is no literal, and no result lemma applies to it). -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- That family read at its three literal indices. -/
theorem cons3_zero {Val : EltTy → Type} {x a b : Ref sig .tc} (A : x.ty.Contents Val) (B : a.ty.Contents Val) (C : b.ty.Contents Val) :
    (Fin.cons A (Fin.cons B (Fin.cons C (fun i => i.elim0))) : (k : Fin 3) → ((![x, a, b] : Fin 3 → Ref sig .tc) k).ty.Contents Val) 0 = A := rfl
theorem cons3_one {Val : EltTy → Type} {x a b : Ref sig .tc} (A : x.ty.Contents Val) (B : a.ty.Contents Val) (C : b.ty.Contents Val) :
    (Fin.cons A (Fin.cons B (Fin.cons C (fun i => i.elim0))) : (k : Fin 3) → ((![x, a, b] : Fin 3 → Ref sig .tc) k).ty.Contents Val) 1 = B := rfl
theorem cons3_two {Val : EltTy → Type} {x a b : Ref sig .tc} (A : x.ty.Contents Val) (B : a.ty.Contents Val) (C : b.ty.Contents Val) :
    (Fin.cons A (Fin.cons B (Fin.cons C (fun i => i.elim0))) : (k : Fin 3) → ((![x, a, b] : Fin 3 → Ref sig .tc) k).ty.Contents Val) 2 = C := rfl

/-- Each operation's result at its own buffer is its function's value, at any other buffer what was there: one pass. -/
macro "after_simp" : tactic =>
  `(tactic| (simp (disch := decide) only [after_cons, after_nil,
      nullary_result', unary_result', binary_result', ternary_result', nary3_result',
      nullary_result_ne', unary_result_ne', binary_result_ne', ternary_result_ne', nary_result_ne',
      id_eq, cons3_zero, cons3_one, cons3_two]))

variable (V : Valuation τ sig (Elt F))

/-! ### The values -/

theorem T_c : after opsT V (Proc.devRef .tc main_c : DevRef τ sig) = tab0 := by
  unfold opsT
  after_simp <;> rfl
theorem T_c_0 : after opsT V (Proc.devRef .tc main_c_0 : DevRef τ sig) = tab1 := by
  unfold opsT
  after_simp <;> rfl
theorem T_c_1 : after opsT V (Proc.devRef .tc main_c_1 : DevRef τ sig) = tab2 := by
  unfold opsT
  after_simp <;> rfl

theorem L0a_v35 : after opsL0a V (Proc.devRef .tc main_v35 : DevRef τ sig) = slab (coord0G (V (Proc.devRef .tc main_c : DevRef τ sig)) (V (Proc.devRef .tc main_arg1 : DevRef τ sig))) := by
  unfold opsL0a
  simp only [slab, wrap128, clip128, coord0G, coord1G, coord2G, baseR, clip3]
  after_simp

theorem L0a_v36 : after opsL0a V (Proc.devRef .tc main_v36 : DevRef τ sig) = slab (coord1G (V (Proc.devRef .tc main_c_0 : DevRef τ sig)) (V (Proc.devRef .tc main_arg1 : DevRef τ sig))) := by
  unfold opsL0a
  simp only [slab, wrap128, clip128, coord0G, coord1G, coord2G, baseR, clip3]
  after_simp

theorem L0a_v37 : after opsL0a V (Proc.devRef .tc main_v37 : DevRef τ sig) = slab (coord2G (V (Proc.devRef .tc main_c_1 : DevRef τ sig)) (V (Proc.devRef .tc main_arg1 : DevRef τ sig))) := by
  unfold opsL0a
  simp only [slab, wrap128, clip128, coord0G, coord1G, coord2G, baseR, clip3]
  after_simp

theorem L0b_v39 : after opsL0b V (Proc.devRef .tc main_v39 : DevRef τ sig)
    = gatherAt (V (Proc.devRef .tc main_arg0 : DevRef τ sig)) (V (Proc.devRef .tc main_v35 : DevRef τ sig)) (V (Proc.devRef .tc main_v36 : DevRef τ sig)) (V (Proc.devRef .tc main_v37 : DevRef τ sig)) := by
  unfold opsL0b
  after_results <;> rfl

theorem S0_v51 : after opsS0 V (Proc.devRef .tc main_v51 : DevRef τ sig)
    = stabR (V (Proc.devRef .tc main_arg2 : DevRef τ sig)) (V (Proc.devRef .tc main_v39 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) := by
  unfold opsS0
  simp only [stabR, stabTail, layer1, biasRows]
  after_simp <;> rfl

theorem P_v52 : after opsP V (Proc.devRef .tc main_v52 : DevRef τ sig) = addf (V (Proc.devRef .tc main_arg1 : DevRef τ sig)) (V (Proc.devRef .tc main_arg3 : DevRef τ sig)) := by
  unfold opsP
  after_simp <;> rfl

theorem L1a_v88 : after opsL1a V (Proc.devRef .tc main_v88 : DevRef τ sig) = slab (coord0G (V (Proc.devRef .tc main_c : DevRef τ sig)) (V (Proc.devRef .tc main_v52 : DevRef τ sig))) := by
  unfold opsL1a
  simp only [slab, wrap128, clip128, coord0G, coord1G, coord2G, baseR, clip3]
  after_simp

theorem L1a_v89 : after opsL1a V (Proc.devRef .tc main_v89 : DevRef τ sig) = slab (coord1G (V (Proc.devRef .tc main_c_0 : DevRef τ sig)) (V (Proc.devRef .tc main_v52 : DevRef τ sig))) := by
  unfold opsL1a
  simp only [slab, wrap128, clip128, coord0G, coord1G, coord2G, baseR, clip3]
  after_simp

theorem L1a_v90 : after opsL1a V (Proc.devRef .tc main_v90 : DevRef τ sig) = slab (coord2G (V (Proc.devRef .tc main_c_1 : DevRef τ sig)) (V (Proc.devRef .tc main_v52 : DevRef τ sig))) := by
  unfold opsL1a
  simp only [slab, wrap128, clip128, coord0G, coord1G, coord2G, baseR, clip3]
  after_simp

theorem L1b_v92 : after opsL1b V (Proc.devRef .tc main_v92 : DevRef τ sig)
    = gatherAt (V (Proc.devRef .tc main_arg0 : DevRef τ sig)) (V (Proc.devRef .tc main_v88 : DevRef τ sig)) (V (Proc.devRef .tc main_v89 : DevRef τ sig)) (V (Proc.devRef .tc main_v90 : DevRef τ sig)) := by
  unfold opsL1b
  after_results <;> rfl

theorem S1_v104 : after opsS1 V (Proc.devRef .tc main_v104 : DevRef τ sig)
    = stabR (V (Proc.devRef .tc main_arg2 : DevRef τ sig)) (V (Proc.devRef .tc main_v92 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) := by
  unfold opsS1
  simp only [stabR, stabTail, layer1, biasRows]
  after_simp <;> rfl

theorem F_v108 : after opsF V (Proc.devRef .tc main_v108 : DevRef τ sig)
    = select (cmpf .ole (V (Proc.devRef .tc main_v104 : DevRef τ sig)) (V (Proc.devRef .tc main_v51 : DevRef τ sig))) (V (Proc.devRef .tc main_v104 : DevRef τ sig)) (V (Proc.devRef .tc main_v51 : DevRef τ sig)) := by
  unfold opsF
  after_simp <;> rfl

theorem F_v107 : after opsF V (Proc.devRef .tc main_v107 : DevRef τ sig)
    = select (broadcastInDim S262144x3 ![0, 1] bcast_S262144x1_S262144x3_0_1
        (broadcastInDim S262144x1 ![0] bcast_S262144_S262144x1_0 (cmpf .ole (V (Proc.devRef .tc main_v104 : DevRef τ sig)) (V (Proc.devRef .tc main_v51 : DevRef τ sig)))))
      (V (Proc.devRef .tc main_v52 : DevRef τ sig)) (V (Proc.devRef .tc main_arg1 : DevRef τ sig)) := by
  unfold opsF
  after_simp <;> rfl

/-! ### The buffers each piece leaves as they were -/
theorem T_fr_arg0 : after opsT V (Proc.devRef .tc main_arg0 : DevRef τ sig) = V (Proc.devRef .tc main_arg0 : DevRef τ sig) := by unfold opsT; after_simp
theorem T_fr_arg1 : after opsT V (Proc.devRef .tc main_arg1 : DevRef τ sig) = V (Proc.devRef .tc main_arg1 : DevRef τ sig) := by unfold opsT; after_simp
theorem T_fr_arg2 : after opsT V (Proc.devRef .tc main_arg2 : DevRef τ sig) = V (Proc.devRef .tc main_arg2 : DevRef τ sig) := by unfold opsT; after_simp
theorem T_fr_arg3 : after opsT V (Proc.devRef .tc main_arg3 : DevRef τ sig) = V (Proc.devRef .tc main_arg3 : DevRef τ sig) := by unfold opsT; after_simp
theorem T_fr_arg4 : after opsT V (Proc.devRef .tc main_arg4 : DevRef τ sig) = V (Proc.devRef .tc main_arg4 : DevRef τ sig) := by unfold opsT; after_simp
theorem T_fr_arg5 : after opsT V (Proc.devRef .tc main_arg5 : DevRef τ sig) = V (Proc.devRef .tc main_arg5 : DevRef τ sig) := by unfold opsT; after_simp
theorem T_fr_arg6 : after opsT V (Proc.devRef .tc main_arg6 : DevRef τ sig) = V (Proc.devRef .tc main_arg6 : DevRef τ sig) := by unfold opsT; after_simp
theorem T_fr_arg7 : after opsT V (Proc.devRef .tc main_arg7 : DevRef τ sig) = V (Proc.devRef .tc main_arg7 : DevRef τ sig) := by unfold opsT; after_simp
theorem L0a_fr_c : after opsL0a V (Proc.devRef .tc main_c : DevRef τ sig) = V (Proc.devRef .tc main_c : DevRef τ sig) := by unfold opsL0a; after_simp
theorem L0a_fr_c_0 : after opsL0a V (Proc.devRef .tc main_c_0 : DevRef τ sig) = V (Proc.devRef .tc main_c_0 : DevRef τ sig) := by unfold opsL0a; after_simp
theorem L0a_fr_c_1 : after opsL0a V (Proc.devRef .tc main_c_1 : DevRef τ sig) = V (Proc.devRef .tc main_c_1 : DevRef τ sig) := by unfold opsL0a; after_simp
theorem L0a_fr_arg0 : after opsL0a V (Proc.devRef .tc main_arg0 : DevRef τ sig) = V (Proc.devRef .tc main_arg0 : DevRef τ sig) := by unfold opsL0a; after_simp
theorem L0a_fr_arg1 : after opsL0a V (Proc.devRef .tc main_arg1 : DevRef τ sig) = V (Proc.devRef .tc main_arg1 : DevRef τ sig) := by unfold opsL0a; after_simp
theorem L0a_fr_arg2 : after opsL0a V (Proc.devRef .tc main_arg2 : DevRef τ sig) = V (Proc.devRef .tc main_arg2 : DevRef τ sig) := by unfold opsL0a; after_simp
theorem L0a_fr_arg3 : after opsL0a V (Proc.devRef .tc main_arg3 : DevRef τ sig) = V (Proc.devRef .tc main_arg3 : DevRef τ sig) := by unfold opsL0a; after_simp
theorem L0a_fr_arg4 : after opsL0a V (Proc.devRef .tc main_arg4 : DevRef τ sig) = V (Proc.devRef .tc main_arg4 : DevRef τ sig) := by unfold opsL0a; after_simp
theorem L0a_fr_arg5 : after opsL0a V (Proc.devRef .tc main_arg5 : DevRef τ sig) = V (Proc.devRef .tc main_arg5 : DevRef τ sig) := by unfold opsL0a; after_simp
theorem L0a_fr_arg6 : after opsL0a V (Proc.devRef .tc main_arg6 : DevRef τ sig) = V (Proc.devRef .tc main_arg6 : DevRef τ sig) := by unfold opsL0a; after_simp
theorem L0a_fr_arg7 : after opsL0a V (Proc.devRef .tc main_arg7 : DevRef τ sig) = V (Proc.devRef .tc main_arg7 : DevRef τ sig) := by unfold opsL0a; after_simp
theorem L0b_fr_c : after opsL0b V (Proc.devRef .tc main_c : DevRef τ sig) = V (Proc.devRef .tc main_c : DevRef τ sig) := by unfold opsL0b; after_simp
theorem L0b_fr_c_0 : after opsL0b V (Proc.devRef .tc main_c_0 : DevRef τ sig) = V (Proc.devRef .tc main_c_0 : DevRef τ sig) := by unfold opsL0b; after_simp
theorem L0b_fr_c_1 : after opsL0b V (Proc.devRef .tc main_c_1 : DevRef τ sig) = V (Proc.devRef .tc main_c_1 : DevRef τ sig) := by unfold opsL0b; after_simp
theorem L0b_fr_arg0 : after opsL0b V (Proc.devRef .tc main_arg0 : DevRef τ sig) = V (Proc.devRef .tc main_arg0 : DevRef τ sig) := by unfold opsL0b; after_simp
theorem L0b_fr_arg1 : after opsL0b V (Proc.devRef .tc main_arg1 : DevRef τ sig) = V (Proc.devRef .tc main_arg1 : DevRef τ sig) := by unfold opsL0b; after_simp
theorem L0b_fr_arg2 : after opsL0b V (Proc.devRef .tc main_arg2 : DevRef τ sig) = V (Proc.devRef .tc main_arg2 : DevRef τ sig) := by unfold opsL0b; after_simp
theorem L0b_fr_arg3 : after opsL0b V (Proc.devRef .tc main_arg3 : DevRef τ sig) = V (Proc.devRef .tc main_arg3 : DevRef τ sig) := by unfold opsL0b; after_simp
theorem L0b_fr_arg4 : after opsL0b V (Proc.devRef .tc main_arg4 : DevRef τ sig) = V (Proc.devRef .tc main_arg4 : DevRef τ sig) := by unfold opsL0b; after_simp
theorem L0b_fr_arg5 : after opsL0b V (Proc.devRef .tc main_arg5 : DevRef τ sig) = V (Proc.devRef .tc main_arg5 : DevRef τ sig) := by unfold opsL0b; after_simp
theorem L0b_fr_arg6 : after opsL0b V (Proc.devRef .tc main_arg6 : DevRef τ sig) = V (Proc.devRef .tc main_arg6 : DevRef τ sig) := by unfold opsL0b; after_simp
theorem L0b_fr_arg7 : after opsL0b V (Proc.devRef .tc main_arg7 : DevRef τ sig) = V (Proc.devRef .tc main_arg7 : DevRef τ sig) := by unfold opsL0b; after_simp
theorem S0_fr_c : after opsS0 V (Proc.devRef .tc main_c : DevRef τ sig) = V (Proc.devRef .tc main_c : DevRef τ sig) := by unfold opsS0; after_simp
theorem S0_fr_c_0 : after opsS0 V (Proc.devRef .tc main_c_0 : DevRef τ sig) = V (Proc.devRef .tc main_c_0 : DevRef τ sig) := by unfold opsS0; after_simp
theorem S0_fr_c_1 : after opsS0 V (Proc.devRef .tc main_c_1 : DevRef τ sig) = V (Proc.devRef .tc main_c_1 : DevRef τ sig) := by unfold opsS0; after_simp
theorem S0_fr_arg0 : after opsS0 V (Proc.devRef .tc main_arg0 : DevRef τ sig) = V (Proc.devRef .tc main_arg0 : DevRef τ sig) := by unfold opsS0; after_simp
theorem S0_fr_arg1 : after opsS0 V (Proc.devRef .tc main_arg1 : DevRef τ sig) = V (Proc.devRef .tc main_arg1 : DevRef τ sig) := by unfold opsS0; after_simp
theorem S0_fr_arg2 : after opsS0 V (Proc.devRef .tc main_arg2 : DevRef τ sig) = V (Proc.devRef .tc main_arg2 : DevRef τ sig) := by unfold opsS0; after_simp
theorem S0_fr_arg3 : after opsS0 V (Proc.devRef .tc main_arg3 : DevRef τ sig) = V (Proc.devRef .tc main_arg3 : DevRef τ sig) := by unfold opsS0; after_simp
theorem S0_fr_arg4 : after opsS0 V (Proc.devRef .tc main_arg4 : DevRef τ sig) = V (Proc.devRef .tc main_arg4 : DevRef τ sig) := by unfold opsS0; after_simp
theorem S0_fr_arg5 : after opsS0 V (Proc.devRef .tc main_arg5 : DevRef τ sig) = V (Proc.devRef .tc main_arg5 : DevRef τ sig) := by unfold opsS0; after_simp
theorem S0_fr_arg6 : after opsS0 V (Proc.devRef .tc main_arg6 : DevRef τ sig) = V (Proc.devRef .tc main_arg6 : DevRef τ sig) := by unfold opsS0; after_simp
theorem S0_fr_arg7 : after opsS0 V (Proc.devRef .tc main_arg7 : DevRef τ sig) = V (Proc.devRef .tc main_arg7 : DevRef τ sig) := by unfold opsS0; after_simp
theorem P_fr_v51 : after opsP V (Proc.devRef .tc main_v51 : DevRef τ sig) = V (Proc.devRef .tc main_v51 : DevRef τ sig) := by unfold opsP; after_simp
theorem P_fr_c : after opsP V (Proc.devRef .tc main_c : DevRef τ sig) = V (Proc.devRef .tc main_c : DevRef τ sig) := by unfold opsP; after_simp
theorem P_fr_c_0 : after opsP V (Proc.devRef .tc main_c_0 : DevRef τ sig) = V (Proc.devRef .tc main_c_0 : DevRef τ sig) := by unfold opsP; after_simp
theorem P_fr_c_1 : after opsP V (Proc.devRef .tc main_c_1 : DevRef τ sig) = V (Proc.devRef .tc main_c_1 : DevRef τ sig) := by unfold opsP; after_simp
theorem P_fr_arg0 : after opsP V (Proc.devRef .tc main_arg0 : DevRef τ sig) = V (Proc.devRef .tc main_arg0 : DevRef τ sig) := by unfold opsP; after_simp
theorem P_fr_arg1 : after opsP V (Proc.devRef .tc main_arg1 : DevRef τ sig) = V (Proc.devRef .tc main_arg1 : DevRef τ sig) := by unfold opsP; after_simp
theorem P_fr_arg2 : after opsP V (Proc.devRef .tc main_arg2 : DevRef τ sig) = V (Proc.devRef .tc main_arg2 : DevRef τ sig) := by unfold opsP; after_simp
theorem P_fr_arg3 : after opsP V (Proc.devRef .tc main_arg3 : DevRef τ sig) = V (Proc.devRef .tc main_arg3 : DevRef τ sig) := by unfold opsP; after_simp
theorem P_fr_arg4 : after opsP V (Proc.devRef .tc main_arg4 : DevRef τ sig) = V (Proc.devRef .tc main_arg4 : DevRef τ sig) := by unfold opsP; after_simp
theorem P_fr_arg5 : after opsP V (Proc.devRef .tc main_arg5 : DevRef τ sig) = V (Proc.devRef .tc main_arg5 : DevRef τ sig) := by unfold opsP; after_simp
theorem P_fr_arg6 : after opsP V (Proc.devRef .tc main_arg6 : DevRef τ sig) = V (Proc.devRef .tc main_arg6 : DevRef τ sig) := by unfold opsP; after_simp
theorem P_fr_arg7 : after opsP V (Proc.devRef .tc main_arg7 : DevRef τ sig) = V (Proc.devRef .tc main_arg7 : DevRef τ sig) := by unfold opsP; after_simp
theorem L1a_fr_v51 : after opsL1a V (Proc.devRef .tc main_v51 : DevRef τ sig) = V (Proc.devRef .tc main_v51 : DevRef τ sig) := by unfold opsL1a; after_simp
theorem L1a_fr_v52 : after opsL1a V (Proc.devRef .tc main_v52 : DevRef τ sig) = V (Proc.devRef .tc main_v52 : DevRef τ sig) := by unfold opsL1a; after_simp
theorem L1a_fr_arg0 : after opsL1a V (Proc.devRef .tc main_arg0 : DevRef τ sig) = V (Proc.devRef .tc main_arg0 : DevRef τ sig) := by unfold opsL1a; after_simp
theorem L1a_fr_arg1 : after opsL1a V (Proc.devRef .tc main_arg1 : DevRef τ sig) = V (Proc.devRef .tc main_arg1 : DevRef τ sig) := by unfold opsL1a; after_simp
theorem L1a_fr_arg2 : after opsL1a V (Proc.devRef .tc main_arg2 : DevRef τ sig) = V (Proc.devRef .tc main_arg2 : DevRef τ sig) := by unfold opsL1a; after_simp
theorem L1a_fr_arg3 : after opsL1a V (Proc.devRef .tc main_arg3 : DevRef τ sig) = V (Proc.devRef .tc main_arg3 : DevRef τ sig) := by unfold opsL1a; after_simp
theorem L1a_fr_arg4 : after opsL1a V (Proc.devRef .tc main_arg4 : DevRef τ sig) = V (Proc.devRef .tc main_arg4 : DevRef τ sig) := by unfold opsL1a; after_simp
theorem L1a_fr_arg5 : after opsL1a V (Proc.devRef .tc main_arg5 : DevRef τ sig) = V (Proc.devRef .tc main_arg5 : DevRef τ sig) := by unfold opsL1a; after_simp
theorem L1a_fr_arg6 : after opsL1a V (Proc.devRef .tc main_arg6 : DevRef τ sig) = V (Proc.devRef .tc main_arg6 : DevRef τ sig) := by unfold opsL1a; after_simp
theorem L1a_fr_arg7 : after opsL1a V (Proc.devRef .tc main_arg7 : DevRef τ sig) = V (Proc.devRef .tc main_arg7 : DevRef τ sig) := by unfold opsL1a; after_simp
theorem L1b_fr_v51 : after opsL1b V (Proc.devRef .tc main_v51 : DevRef τ sig) = V (Proc.devRef .tc main_v51 : DevRef τ sig) := by unfold opsL1b; after_simp
theorem L1b_fr_v52 : after opsL1b V (Proc.devRef .tc main_v52 : DevRef τ sig) = V (Proc.devRef .tc main_v52 : DevRef τ sig) := by unfold opsL1b; after_simp
theorem L1b_fr_arg0 : after opsL1b V (Proc.devRef .tc main_arg0 : DevRef τ sig) = V (Proc.devRef .tc main_arg0 : DevRef τ sig) := by unfold opsL1b; after_simp
theorem L1b_fr_arg1 : after opsL1b V (Proc.devRef .tc main_arg1 : DevRef τ sig) = V (Proc.devRef .tc main_arg1 : DevRef τ sig) := by unfold opsL1b; after_simp
theorem L1b_fr_arg2 : after opsL1b V (Proc.devRef .tc main_arg2 : DevRef τ sig) = V (Proc.devRef .tc main_arg2 : DevRef τ sig) := by unfold opsL1b; after_simp
theorem L1b_fr_arg3 : after opsL1b V (Proc.devRef .tc main_arg3 : DevRef τ sig) = V (Proc.devRef .tc main_arg3 : DevRef τ sig) := by unfold opsL1b; after_simp
theorem L1b_fr_arg4 : after opsL1b V (Proc.devRef .tc main_arg4 : DevRef τ sig) = V (Proc.devRef .tc main_arg4 : DevRef τ sig) := by unfold opsL1b; after_simp
theorem L1b_fr_arg5 : after opsL1b V (Proc.devRef .tc main_arg5 : DevRef τ sig) = V (Proc.devRef .tc main_arg5 : DevRef τ sig) := by unfold opsL1b; after_simp
theorem L1b_fr_arg6 : after opsL1b V (Proc.devRef .tc main_arg6 : DevRef τ sig) = V (Proc.devRef .tc main_arg6 : DevRef τ sig) := by unfold opsL1b; after_simp
theorem L1b_fr_arg7 : after opsL1b V (Proc.devRef .tc main_arg7 : DevRef τ sig) = V (Proc.devRef .tc main_arg7 : DevRef τ sig) := by unfold opsL1b; after_simp
theorem S1_fr_v51 : after opsS1 V (Proc.devRef .tc main_v51 : DevRef τ sig) = V (Proc.devRef .tc main_v51 : DevRef τ sig) := by unfold opsS1; after_simp
theorem S1_fr_v52 : after opsS1 V (Proc.devRef .tc main_v52 : DevRef τ sig) = V (Proc.devRef .tc main_v52 : DevRef τ sig) := by unfold opsS1; after_simp
theorem S1_fr_arg0 : after opsS1 V (Proc.devRef .tc main_arg0 : DevRef τ sig) = V (Proc.devRef .tc main_arg0 : DevRef τ sig) := by unfold opsS1; after_simp
theorem S1_fr_arg1 : after opsS1 V (Proc.devRef .tc main_arg1 : DevRef τ sig) = V (Proc.devRef .tc main_arg1 : DevRef τ sig) := by unfold opsS1; after_simp
theorem S1_fr_arg2 : after opsS1 V (Proc.devRef .tc main_arg2 : DevRef τ sig) = V (Proc.devRef .tc main_arg2 : DevRef τ sig) := by unfold opsS1; after_simp
theorem S1_fr_arg3 : after opsS1 V (Proc.devRef .tc main_arg3 : DevRef τ sig) = V (Proc.devRef .tc main_arg3 : DevRef τ sig) := by unfold opsS1; after_simp
theorem S1_fr_arg4 : after opsS1 V (Proc.devRef .tc main_arg4 : DevRef τ sig) = V (Proc.devRef .tc main_arg4 : DevRef τ sig) := by unfold opsS1; after_simp
theorem S1_fr_arg5 : after opsS1 V (Proc.devRef .tc main_arg5 : DevRef τ sig) = V (Proc.devRef .tc main_arg5 : DevRef τ sig) := by unfold opsS1; after_simp
theorem S1_fr_arg6 : after opsS1 V (Proc.devRef .tc main_arg6 : DevRef τ sig) = V (Proc.devRef .tc main_arg6 : DevRef τ sig) := by unfold opsS1; after_simp
theorem S1_fr_arg7 : after opsS1 V (Proc.devRef .tc main_arg7 : DevRef τ sig) = V (Proc.devRef .tc main_arg7 : DevRef τ sig) := by unfold opsS1; after_simp
theorem Fz_fr_arg0 : after opsF V (Proc.devRef .tc main_arg0 : DevRef τ sig) = V (Proc.devRef .tc main_arg0 : DevRef τ sig) := by unfold opsF; after_simp
theorem Fz_fr_arg1 : after opsF V (Proc.devRef .tc main_arg1 : DevRef τ sig) = V (Proc.devRef .tc main_arg1 : DevRef τ sig) := by unfold opsF; after_simp
theorem Fz_fr_arg2 : after opsF V (Proc.devRef .tc main_arg2 : DevRef τ sig) = V (Proc.devRef .tc main_arg2 : DevRef τ sig) := by unfold opsF; after_simp
theorem Fz_fr_arg3 : after opsF V (Proc.devRef .tc main_arg3 : DevRef τ sig) = V (Proc.devRef .tc main_arg3 : DevRef τ sig) := by unfold opsF; after_simp
theorem Fz_fr_arg4 : after opsF V (Proc.devRef .tc main_arg4 : DevRef τ sig) = V (Proc.devRef .tc main_arg4 : DevRef τ sig) := by unfold opsF; after_simp
theorem Fz_fr_arg5 : after opsF V (Proc.devRef .tc main_arg5 : DevRef τ sig) = V (Proc.devRef .tc main_arg5 : DevRef τ sig) := by unfold opsF; after_simp
theorem Fz_fr_arg6 : after opsF V (Proc.devRef .tc main_arg6 : DevRef τ sig) = V (Proc.devRef .tc main_arg6 : DevRef τ sig) := by unfold opsF; after_simp
theorem Fz_fr_arg7 : after opsF V (Proc.devRef .tc main_arg7 : DevRef τ sig) = V (Proc.devRef .tc main_arg7 : DevRef τ sig) := by unfold opsF; after_simp

/-! ## The whole line at the results and at the arguments -/

set_option maxHeartbeats 1000000 in
theorem res0_eq : after (opsW0 ++ (opsW1 ++ opsW2)) V (Proc.devRef .tc main_v108 : DevRef τ sig)
    = res0 (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) := by
  rw [regroup, after_append, after_append, after_append, after_append, after_append, after_append, after_append, after_append]
  simp only [res0, acceptR, locR, gather3R, coord0, coord1, coord2]
  rw [F_v108, S1_v104, S1_fr_v51, L1b_fr_arg2, L1b_v92, L1b_fr_arg4, L1b_fr_arg5, L1b_fr_arg6,
    L1b_fr_arg7, L1b_fr_v51, L1a_fr_arg2, L1a_fr_arg0, L1a_v88, L1a_v89, L1a_v90, L1a_fr_arg4,
    L1a_fr_arg5, L1a_fr_arg6, L1a_fr_arg7, L1a_fr_v51, P_fr_arg2, P_fr_arg0, P_fr_c, P_v52,
    P_fr_c_0, P_fr_c_1, P_fr_arg4, P_fr_arg5, P_fr_arg6, P_fr_arg7, P_fr_v51, S0_fr_arg2,
    S0_fr_arg0, S0_fr_c, S0_fr_arg1, S0_fr_arg3, S0_fr_c_0, S0_fr_c_1, S0_fr_arg4, S0_fr_arg5,
    S0_fr_arg6, S0_fr_arg7, S0_v51, L0b_fr_arg2, L0b_fr_arg0, L0b_fr_c, L0b_fr_arg1, L0b_fr_arg3,
    L0b_fr_c_0, L0b_fr_c_1, L0b_fr_arg4, L0b_fr_arg5, L0b_fr_arg6, L0b_fr_arg7, L0b_v39, L0a_fr_arg2,
    L0a_fr_arg0, L0a_fr_c, L0a_fr_arg1, L0a_fr_arg3, L0a_fr_c_0, L0a_fr_c_1, L0a_fr_arg4, L0a_fr_arg5,
    L0a_fr_arg6, L0a_fr_arg7, L0a_v35, L0a_v36, L0a_v37, T_fr_arg2, T_fr_arg0, T_c,
    T_fr_arg1, T_fr_arg3, T_c_0, T_c_1, T_fr_arg4, T_fr_arg5, T_fr_arg6, T_fr_arg7]

set_option maxHeartbeats 1000000 in
theorem res1_eq : after (opsW0 ++ (opsW1 ++ opsW2)) V (Proc.devRef .tc main_v107 : DevRef τ sig)
    = res1 (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) := by
  rw [regroup, after_append, after_append, after_append, after_append, after_append, after_append, after_append, after_append]
  simp only [res1, acceptR, locR, gather3R, coord0, coord1, coord2]
  rw [F_v107, S1_v104, S1_fr_v51, S1_fr_v52, S1_fr_arg1, L1b_fr_arg2, L1b_v92, L1b_fr_arg4,
    L1b_fr_arg5, L1b_fr_arg6, L1b_fr_arg7, L1b_fr_v51, L1b_fr_v52, L1b_fr_arg1, L1a_fr_arg2, L1a_fr_arg0,
    L1a_v88, L1a_v89, L1a_v90, L1a_fr_arg4, L1a_fr_arg5, L1a_fr_arg6, L1a_fr_arg7, L1a_fr_v51,
    L1a_fr_v52, L1a_fr_arg1, P_fr_arg2, P_fr_arg0, P_fr_c, P_v52, P_fr_c_0, P_fr_c_1,
    P_fr_arg4, P_fr_arg5, P_fr_arg6, P_fr_arg7, P_fr_v51, P_fr_arg1, S0_fr_arg2, S0_fr_arg0,
    S0_fr_c, S0_fr_arg1, S0_fr_arg3, S0_fr_c_0, S0_fr_c_1, S0_fr_arg4, S0_fr_arg5, S0_fr_arg6,
    S0_fr_arg7, S0_v51, L0b_fr_arg2, L0b_fr_arg0, L0b_fr_c, L0b_fr_arg1, L0b_fr_arg3, L0b_fr_c_0,
    L0b_fr_c_1, L0b_fr_arg4, L0b_fr_arg5, L0b_fr_arg6, L0b_fr_arg7, L0b_v39, L0a_fr_arg2, L0a_fr_arg0,
    L0a_fr_c, L0a_fr_arg1, L0a_fr_arg3, L0a_fr_c_0, L0a_fr_c_1, L0a_fr_arg4, L0a_fr_arg5, L0a_fr_arg6,
    L0a_fr_arg7, L0a_v35, L0a_v36, L0a_v37, T_fr_arg2, T_fr_arg0, T_c, T_fr_arg1,
    T_fr_arg3, T_c_0, T_c_1, T_fr_arg4, T_fr_arg5, T_fr_arg6, T_fr_arg7]

theorem arg0_eq : after (opsW0 ++ (opsW1 ++ opsW2)) V (Proc.devRef .tc main_arg0 : DevRef τ sig) = V (Proc.devRef .tc main_arg0 : DevRef τ sig) := by
  rw [regroup, after_append, after_append, after_append, after_append, after_append, after_append, after_append, after_append]
  rw [Fz_fr_arg0, S1_fr_arg0, L1b_fr_arg0, L1a_fr_arg0, P_fr_arg0, S0_fr_arg0, L0b_fr_arg0, L0a_fr_arg0, T_fr_arg0]

theorem arg1_eq : after (opsW0 ++ (opsW1 ++ opsW2)) V (Proc.devRef .tc main_arg1 : DevRef τ sig) = V (Proc.devRef .tc main_arg1 : DevRef τ sig) := by
  rw [regroup, after_append, after_append, after_append, after_append, after_append, after_append, after_append, after_append]
  rw [Fz_fr_arg1, S1_fr_arg1, L1b_fr_arg1, L1a_fr_arg1, P_fr_arg1, S0_fr_arg1, L0b_fr_arg1, L0a_fr_arg1, T_fr_arg1]

theorem arg2_eq : after (opsW0 ++ (opsW1 ++ opsW2)) V (Proc.devRef .tc main_arg2 : DevRef τ sig) = V (Proc.devRef .tc main_arg2 : DevRef τ sig) := by
  rw [regroup, after_append, after_append, after_append, after_append, after_append, after_append, after_append, after_append]
  rw [Fz_fr_arg2, S1_fr_arg2, L1b_fr_arg2, L1a_fr_arg2, P_fr_arg2, S0_fr_arg2, L0b_fr_arg2, L0a_fr_arg2, T_fr_arg2]

theorem arg3_eq : after (opsW0 ++ (opsW1 ++ opsW2)) V (Proc.devRef .tc main_arg3 : DevRef τ sig) = V (Proc.devRef .tc main_arg3 : DevRef τ sig) := by
  rw [regroup, after_append, after_append, after_append, after_append, after_append, after_append, after_append, after_append]
  rw [Fz_fr_arg3, S1_fr_arg3, L1b_fr_arg3, L1a_fr_arg3, P_fr_arg3, S0_fr_arg3, L0b_fr_arg3, L0a_fr_arg3, T_fr_arg3]

theorem arg4_eq : after (opsW0 ++ (opsW1 ++ opsW2)) V (Proc.devRef .tc main_arg4 : DevRef τ sig) = V (Proc.devRef .tc main_arg4 : DevRef τ sig) := by
  rw [regroup, after_append, after_append, after_append, after_append, after_append, after_append, after_append, after_append]
  rw [Fz_fr_arg4, S1_fr_arg4, L1b_fr_arg4, L1a_fr_arg4, P_fr_arg4, S0_fr_arg4, L0b_fr_arg4, L0a_fr_arg4, T_fr_arg4]

theorem arg5_eq : after (opsW0 ++ (opsW1 ++ opsW2)) V (Proc.devRef .tc main_arg5 : DevRef τ sig) = V (Proc.devRef .tc main_arg5 : DevRef τ sig) := by
  rw [regroup, after_append, after_append, after_append, after_append, after_append, after_append, after_append, after_append]
  rw [Fz_fr_arg5, S1_fr_arg5, L1b_fr_arg5, L1a_fr_arg5, P_fr_arg5, S0_fr_arg5, L0b_fr_arg5, L0a_fr_arg5, T_fr_arg5]

theorem arg6_eq : after (opsW0 ++ (opsW1 ++ opsW2)) V (Proc.devRef .tc main_arg6 : DevRef τ sig) = V (Proc.devRef .tc main_arg6 : DevRef τ sig) := by
  rw [regroup, after_append, after_append, after_append, after_append, after_append, after_append, after_append, after_append]
  rw [Fz_fr_arg6, S1_fr_arg6, L1b_fr_arg6, L1a_fr_arg6, P_fr_arg6, S0_fr_arg6, L0b_fr_arg6, L0a_fr_arg6, T_fr_arg6]

theorem arg7_eq : after (opsW0 ++ (opsW1 ++ opsW2)) V (Proc.devRef .tc main_arg7 : DevRef τ sig) = V (Proc.devRef .tc main_arg7 : DevRef τ sig) := by
  rw [regroup, after_append, after_append, after_append, after_append, after_append, after_append, after_append, after_append]
  rw [Fz_fr_arg7, S1_fr_arg7, L1b_fr_arg7, L1a_fr_arg7, P_fr_arg7, S0_fr_arg7, L0b_fr_arg7, L0a_fr_arg7, T_fr_arg7]

/-- On every device, for any float values, from any memory with zero counters: every weakly fair execution of @main
    terminates with the two results at `res0` and `res1` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108)
          = res0 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v107)
          = res1 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v108).trans (res0_eq _), (h c main_v107).trans (res1_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_all m ρ)

end Cert.ReferenceIdeal.RefRun

end
-- ==== Proof.KHead.lean ====
/-
  WHAT THE KERNEL'S COMPUTED ARRAYS HOLD WHEN THE REGION IS ENTERED.

  Before its one pipelined region the kernel's host program computes eight arrays from the launch arguments: two
  reshapes of the bias vectors, two halves of the first weight matrix, the moved positions (the positions plus the
  displacement), and two reads of the 3-D field through its row-major flattening, at the clipped integer coordinates of
  the old and of the moved positions. Each lemma below states one of them as the composition of the host operations that
  produce it, over the launch contents of the arguments.
-/
import proofs.«119652_j82712480186467_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section
namespace Cert.KernelIdeal.KHead
open Idealize.ShloMosaic Idealize.ShloMosaic.TcCoe Idealize.SL.Sem Cert.KernelIdeal Cert.KernelIdeal.Gen

variable (m : (ℓ : Loc nD τ sig) → Buf (Elt Ideal) ℓ)

/-! ## The small arrays: reshapes, slices, one sum -/

/-- The first bias vector, reshaped to one row. -/
theorem V_v58 (c : Dev nD) : (V m c main_v58 : S1x128.Idx → EReal)
    = shapeCast S1x128 (m ((c : Thread nD τ).loc main_arg5) : S128.Idx → EReal) shapeCasts_S128_S1x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results
  rfl

/-- The second bias vector, reshaped to one row. -/
theorem V_v59 (c : Dev nD) : (V m c main_v59 : S1x128.Idx → EReal)
    = shapeCast S1x128 (m ((c : Thread nD τ).loc main_arg7) : S128.Idx → EReal) shapeCasts_S128_S1x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results
  rfl

/-- The upper half (rows 0 … 127) of the first weight matrix. -/
theorem V_v56 (c : Dev nD) : (V m c main_v56 : S128x128.Idx → EReal)
    = extractStridedSlice S128x128 ![0, 0] (m ((c : Thread nD τ).loc main_arg4) : S256x128.Idx → EReal)
        slices_S256x128_S128x128_0_0 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results

/-- The lower half (rows 128 … 255) of the first weight matrix. -/
theorem V_v57 (c : Dev nD) : (V m c main_v57 : S128x128.Idx → EReal)
    = extractStridedSlice S128x128 ![128, 0] (m ((c : Thread nD τ).loc main_arg4) : S256x128.Idx → EReal)
        slices_S256x128_S128x128_128_0 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results

set_option maxHeartbeats 2000000 in
/-- The moved positions: the positions plus the displacement. -/
theorem V_v28 (c : Dev nD) : (V m c main_v28 : S262144x3.Idx → EReal)
    = addf (F := Ideal) (s := S262144x3) (φ := .f32) (m ((c : Thread nD τ).loc main_arg1))
        (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results

end Cert.KernelIdeal.KHead
end
-- ==== Proof.LibGatherFlat.lean ====
/-
  READING A 3-D FIELD THROUGH ITS ROW-MAJOR FLATTENING.

  A field `x : [128, 128, 128] → α` read at three integer coordinate arrays is the same whether one flattens `x`
  row-major to `[2097152]`, forms the linear index `a·16384 + b·128 + c` in wrapping 32-bit arithmetic and takes
  along the one axis, or gathers in three dimensions at `(a, b, c)` — provided each coordinate has been clipped
  into `[0, 127]` first. The reasons: a clipped coordinate is a nonnegative word, so the "negative index wraps
  around" select leaves it alone; three such coordinates combine to at most `127·16384 + 127·128 + 127 = 2097151`,
  so the 32-bit sum does not wrap, the flat index is in range (the bounds mask of the take is true and the
  gather's clamp is the identity), and the row-major position `(i·128 + j)·128 + k` is that sum.
-/
import Idealize.ShloMosaic.PureOps.Ideal
import Idealize.ShloMosaic.Lib.ValueIdx
import Idealize.ShloMosaic.Lib.Pipeline.Value
import Idealize.ShloMosaic.Lib.ReduceAll

namespace GatherFlat

open Idealize.ShloMosaic Idealize.ShloMosaic.ValueIdx

/-! ## A gather of single elements of a rank-3 operand, read at an index -/

section Gather3
variable {α : Type}

private theorem mem0 : (0 : Fin 3) ∈ ([0, 1, 2] : List (Fin 3)) := by decide
private theorem mem1 : (1 : Fin 3) ∈ ([0, 1, 2] : List (Fin 3)) := by decide
private theorem mem2 : (2 : Fin 3) ∈ ([0, 1, 2] : List (Fin 3)) := by decide

/-- The dimension numbers of a gather of single elements out of an operand `[N0, N1, N2]` at start indices
    `[R, C, 3]` (the index vector on the last axis, its three components the three operand axes in order, every
    operand axis collapsed) into a result `[R, C]`. -/
abbrev gather3Dims (N0 N1 N2 R C : Nat)
    (wf : GatherDims.WF ⟨3, ![N0, N1, N2]⟩ ⟨3, ![R, C, 3]⟩ ⟨2, ![R, C]⟩ [] [0, 1, 2] [] [0, 1, 2] [] 2 ![1, 1, 1]) :
    GatherDims ⟨3, ![N0, N1, N2]⟩ ⟨3, ![R, C, 3]⟩ ⟨2, ![R, C]⟩ where
  offsetDims := []
  collapsedSliceDims := [0, 1, 2]
  operandBatchingDims := []
  startIndicesBatchingDims := []
  startIndexMap := [0, 1, 2]
  indexVectorDim := 2
  sliceSizes := ![1, 1, 1]
  wf := wf

/-- The start-indices index `[t, j, k]` holding component `k` of the start index of result index `(t, j)`. -/
abbrev gather3Idx {R C : Nat} (y : (⟨2, ![R, C]⟩ : Shape).Idx) (k : Fin 3) : (⟨3, ![R, C, 3]⟩ : Shape).Idx :=
  fun a => match a with | ⟨0, _⟩ => ⟨(y 0).val, idx2_lt0 y⟩ | ⟨1, _⟩ => ⟨(y 1).val, idx2_lt1 y⟩ | ⟨2, _⟩ => k

/-- THE RANK-3 GATHER READ AT `(t, j)`: the operand at the three start coordinates `idx[t, j, 0]`, `idx[t, j, 1]`,
    `idx[t, j, 2]`, each read signed and clamped into its axis. -/
theorem gather3_apply {N0 N1 N2 R C w : Nat} (h0 : 0 < N0) (h1 : 0 < N1) (h2 : 0 < N2)
    (wf : GatherDims.WF ⟨3, ![N0, N1, N2]⟩ ⟨3, ![R, C, 3]⟩ ⟨2, ![R, C]⟩ [] [0, 1, 2] [] [0, 1, 2] [] 2 ![1, 1, 1])
    (x : (⟨3, ![N0, N1, N2]⟩ : Shape).Idx → α) (idx : IVec ⟨3, ![R, C, 3]⟩ w) (y : (⟨2, ![R, C]⟩ : Shape).Idx) :
    Host.gather (gather3Dims N0 N1 N2 R C wf) x idx y
      = x (ix3 ⟨min (idx (gather3Idx y 0)).toInt.toNat (N0 - 1), by omega⟩
               ⟨min (idx (gather3Idx y 1)).toInt.toNat (N1 - 1), by omega⟩
               ⟨min (idx (gather3Idx y 2)).toInt.toNat (N2 - 1), by omega⟩) := by
  unfold Host.gather
  congr 1
  funext a
  refine Fin.ext ?_
  match a with
  | ⟨0, _⟩ =>
    show (gather3Dims N0 N1 N2 R C wf).start y idx 0 + (gather3Dims N0 N1 N2 R C wf).batchCoord y 0
      + (gather3Dims N0 N1 N2 R C wf).offCoord y 0 = _
    rw [GatherDims.batchCoord_eq_zero _ _ _ List.not_mem_nil,
      GatherDims.offCoord_eq_zero _ _ _ (fun h => ((GatherDims.mem_sKept _ _).mp h).1 mem0)]
    simp only [Nat.add_zero]
    unfold GatherDims.start
    rw [dif_pos (show (0 : Fin 3) ∈ (gather3Dims N0 N1 N2 R C wf).startIndexMap from mem0)]
    have hsi : (gather3Dims N0 N1 N2 R C wf).siIdx y ⟨List.idxOf (0 : Fin 3) (gather3Dims N0 N1 N2 R C wf).startIndexMap,
        List.idxOf_lt_length_iff.2 mem0⟩ = gather3Idx y 0 := by
      funext b; refine Fin.ext ?_
      match b with
      | ⟨0, _⟩ => rfl
      | ⟨1, _⟩ => rfl
      | ⟨2, _⟩ => rfl
    rw [hsi]
    rfl
  | ⟨1, _⟩ =>
    show (gather3Dims N0 N1 N2 R C wf).start y idx 1 + (gather3Dims N0 N1 N2 R C wf).batchCoord y 1
      + (gather3Dims N0 N1 N2 R C wf).offCoord y 1 = _
    rw [GatherDims.batchCoord_eq_zero _ _ _ List.not_mem_nil,
      GatherDims.offCoord_eq_zero _ _ _ (fun h => ((GatherDims.mem_sKept _ _).mp h).1 mem1)]
    simp only [Nat.add_zero]
    unfold GatherDims.start
    rw [dif_pos (show (1 : Fin 3) ∈ (gather3Dims N0 N1 N2 R C wf).startIndexMap from mem1)]
    have hsi : (gather3Dims N0 N1 N2 R C wf).siIdx y ⟨List.idxOf (1 : Fin 3) (gather3Dims N0 N1 N2 R C wf).startIndexMap,
        List.idxOf_lt_length_iff.2 mem1⟩ = gather3Idx y 1 := by
      funext b; refine Fin.ext ?_
      match b with
      | ⟨0, _⟩ => rfl
      | ⟨1, _⟩ => rfl
      | ⟨2, _⟩ => rfl
    rw [hsi]
    rfl
  | ⟨2, _⟩ =>
    show (gather3Dims N0 N1 N2 R C wf).start y idx 2 + (gather3Dims N0 N1 N2 R C wf).batchCoord y 2
      + (gather3Dims N0 N1 N2 R C wf).offCoord y 2 = _
    rw [GatherDims.batchCoord_eq_zero _ _ _ List.not_mem_nil,
      GatherDims.offCoord_eq_zero _ _ _ (fun h => ((GatherDims.mem_sKept _ _).mp h).1 mem2)]
    simp only [Nat.add_zero]
    unfold GatherDims.start
    rw [dif_pos (show (2 : Fin 3) ∈ (gather3Dims N0 N1 N2 R C wf).startIndexMap from mem2)]
    have hsi : (gather3Dims N0 N1 N2 R C wf).siIdx y ⟨List.idxOf (2 : Fin 3) (gather3Dims N0 N1 N2 R C wf).startIndexMap,
        List.idxOf_lt_length_iff.2 mem2⟩ = gather3Idx y 2 := by
      funext b; refine Fin.ext ?_
      match b with
      | ⟨0, _⟩ => rfl
      | ⟨1, _⟩ => rfl
      | ⟨2, _⟩ => rfl
    rw [hsi]
    rfl

end Gather3

/-! ## One 32-bit word clipped into [0, 127], and the flat index of three such words -/

section Words

/-- One element of the clip: the signed maximum with 0, then the signed minimum with 127. -/
abbrev clipW (z : BitVec 32) : BitVec 32 := IntOp.minsi 127#32 (IntOp.maxsi 0#32 z)

/-- A clipped word, read signed, lies in `[0, 127]`. -/
theorem clipW_bounds (z : BitVec 32) : 0 ≤ (clipW z).toInt ∧ (clipW z).toInt ≤ 127 := by
  have e0 : (0#32 : BitVec 32).toInt = 0 := by decide
  have e127 : (127#32 : BitVec 32).toInt = 127 := by decide
  unfold clipW IntOp.minsi IntOp.maxsi
  split_ifs with h1 h2 h2 <;> (try rw [BitVec.slt_iff_toInt_lt] at h1) <;> (try rw [BitVec.slt_iff_toInt_lt] at h2) <;> omega

/-- A word that reads signed in `[0, 127]` reads unsigned as the same number. -/
theorem toNat_of_small (Z : BitVec 32) (h0 : 0 ≤ Z.toInt) (h1 : Z.toInt ≤ 127) : Z.toNat ≤ 127 ∧ Z.toInt = Z.toNat := by
  have hc := BitVec.toInt_eq_toNat_cond Z
  have hl := Z.isLt
  split at hc <;> omega

/-- A clipped word reads unsigned in `[0, 127]`, and its signed reading is that number. -/
theorem clipW_toNat (z : BitVec 32) : (clipW z).toNat ≤ 127 ∧ (clipW z).toInt = (clipW z).toNat :=
  toNat_of_small _ (clipW_bounds z).1 (clipW_bounds z).2

/-- "A negative index counts from the end": the select that adds the extent `n` to a negative word leaves a
    nonnegative one alone. -/
theorem wrap_nonneg (Z n : BitVec 32) (h : 0 ≤ Z.toInt) :
    Scalar.select (IntOp.cmpi .slt Z 0#32) (IntOp.addi Z n) Z = Z := by
  have hc : IntOp.cmpi .slt Z 0#32 = 0#1 := by
    refine eq_zero_of_ne_one fun h1 => ?_
    have h2 := IntOp.cmpi_slt.mp h1
    have e0 : (0#32 : BitVec 32).toInt = 0 := by decide
    omega
  rw [hc, select_zero]

/-- The flat index `A·16384 + B·128 + C` in wrapping 32-bit arithmetic. -/
abbrev linW (A B C : BitVec 32) : BitVec 32 :=
  IntOp.addi (IntOp.addi (IntOp.muli A 16384#32) (IntOp.muli B 128#32)) C

/-- For three words in `[0, 127]` the 32-bit flat index does not wrap: it is `A·16384 + B·128 + C`. -/
theorem linW_toNat (A B C : BitVec 32) (hA : A.toNat ≤ 127) (hB : B.toNat ≤ 127) (hC : C.toNat ≤ 127) :
    (linW A B C).toNat = A.toNat * 16384 + B.toNat * 128 + C.toNat := by
  have e1 : (16384#32 : BitVec 32).toNat = 16384 := by decide
  have e2 : (128#32 : BitVec 32).toNat = 128 := by decide
  unfold linW IntOp.addi IntOp.muli
  rw [BitVec.toNat_add, BitVec.toNat_add, BitVec.toNat_mul, BitVec.toNat_mul, e1, e2]
  omega

/-- … so read signed it is nonnegative, at most `2097151`, and the same number. -/
theorem linW_bounds (A B C : BitVec 32) (hA : A.toNat ≤ 127) (hB : B.toNat ≤ 127) (hC : C.toNat ≤ 127) :
    0 ≤ (linW A B C).toInt ∧ (linW A B C).toInt ≤ 2097151 ∧
      (linW A B C).toInt.toNat = A.toNat * 16384 + B.toNat * 128 + C.toNat := by
  have hn := linW_toNat A B C hA hB hC
  have hc := BitVec.toInt_eq_toNat_cond (linW A B C)
  split at hc <;> omega

/-- A word that reads signed in `[0, 2097151]` passes the take's bounds test `0 ≤ · ≤ 2097151`. -/
theorem inRange_one (L : BitVec 32) (h0 : 0 ≤ L.toInt) (h1 : L.toInt ≤ 2097151) :
    IntOp.andi (IntOp.cmpi .sge L 0#32) (IntOp.cmpi .sle L 2097151#32) = 1#1 := by
  have e0 : (0#32 : BitVec 32).toInt = 0 := by decide
  have e1 : (2097151#32 : BitVec 32).toInt = 2097151 := by decide
  rw [IntOp.andi_eq_one]
  exact ⟨IntOp.cmpi_sge.mpr (by omega), IntOp.cmpi_sle.mpr (by omega)⟩

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons.mpr (Or.inl rfl))
    have h11 : IntOp.andi 1#1 1#1 = 1#1 := by decide
    rw [List.foldl_cons, ha, h11]
    exact foldl_andi_one f l fun n hn => h n (List.mem_cons.mpr (Or.inr hn))

/-- A reduce by `and` from the constant 1 over an array of 1s is 1 everywhere. -/
theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x _ fun i _ => hx i

end Words

/-! ## The row-major flattening of `[128, 128, 128]` read at a flat index -/

section Reshape
variable {α : Type}

/-- The row-major flattening of a field on `[128, 128, 128]`, read at the flat position `i·16384 + j·128 + k`, is the
    field at `(i, j, k)`. -/
theorem flat_apply (x : (⟨3, ![128, 128, 128]⟩ : Shape).Idx → α)
    (hsc : (⟨3, ![128, 128, 128]⟩ : Shape).ShapeCasts ⟨1, ![2097152]⟩)
    (i j k : Fin 128) (n : Fin 2097152) (hn : n.val = i.val * 16384 + j.val * 128 + k.val) :
    shapeCast ⟨1, ![2097152]⟩ x hsc (ix1 n) = x (ix3 i j k) := by
  refine shapeCast_apply x hsc (ix1 n) (ix3 i j k) ?_
  rw [Shape.rowMajor_val_three, Shape.rowMajor_val_one]
  show (i.val * 128 + j.val) * 128 + k.val = n.val
  omega

/-- Two rank-3 indices with the same coordinates are the same index. -/
theorem ix3_val_congr {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha
  obtain rfl := Fin.ext hb
  obtain rfl := Fin.ext hc
  rfl

end Reshape

/-! ## The two programs' chains of operations, and their equality

The shapes, spelled as the programs spell them. -/

abbrev S_ : Shape := ⟨0, ![]⟩
abbrev S1 : Shape := ⟨1, ![1]⟩
abbrev S1x1x1 : Shape := ⟨3, ![1, 1, 1]⟩
abbrev S2097152 : Shape := ⟨1, ![2097152]⟩
abbrev S128x128x128 : Shape := ⟨3, ![128, 128, 128]⟩
abbrev S262144x128 : Shape := ⟨2, ![262144, 128]⟩
abbrev S262144x128x1 : Shape := ⟨3, ![262144, 128, 1]⟩
abbrev S262144x128x3 : Shape := ⟨3, ![262144, 128, 3]⟩

section Chains
variable {α : Type}

/-- The clip of a coordinate array into `[0, 127]`: the signed maximum with the broadcast 0, then the signed minimum
    of the broadcast 127 with it. -/
abbrev clip (bc : S_.BroadcastsInDim S262144x128 (![] : Fin 0 → Fin S262144x128.rank)) (z : IVec S262144x128 32) :
    IVec S262144x128 32 :=
  minsi (broadcastInDim S262144x128 ![] bc (constantI S_ 32 127#32))
    (maxsi (broadcastInDim S262144x128 ![] bc (constantI S_ 32 0#32)) z)

/-- "A negative index counts from the end" for an axis of extent `n`: where the word is negative, the word plus `n`. -/
abbrev wrap (bc : S_.BroadcastsInDim S262144x128 (![] : Fin 0 → Fin S262144x128.rank)) (n : BitVec 32)
    (z : IVec S262144x128 32) : IVec S262144x128 32 :=
  select (cmpi .slt z (broadcastInDim S262144x128 ![] bc (constantI S_ 32 0#32)))
    (addi z (broadcastInDim S262144x128 ![] bc (constantI S_ 32 n))) z

/-- The flat index array `A·16384 + B·128 + C`, in wrapping 32-bit arithmetic. -/
abbrev lin (bc : S_.BroadcastsInDim S262144x128 (![] : Fin 0 → Fin S262144x128.rank)) (A B C : IVec S262144x128 32) :
    IVec S262144x128 32 :=
  addi (addi (muli A (broadcastInDim S262144x128 ![] bc (constantI S_ 32 16384#32)))
    (muli B (broadcastInDim S262144x128 ![] bc (constantI S_ 32 128#32)))) C

/-- An index array with a trailing unit axis added: the column of index vectors of length one. -/
abbrev col (bc1 : S262144x128.BroadcastsInDim S262144x128x1 (![0, 1] : Fin 2 → Fin S262144x128x1.rank))
    (z : IVec S262144x128 32) : IVec S262144x128x1 32 :=
  broadcastInDim S262144x128x1 ![0, 1] bc1 z

/-- The take's bounds mask: the reduce by `and`, over the unit axis, of `0 ≤ i ∧ i ≤ 2097151`. -/
abbrev takeMask (bc01 : S_.BroadcastsInDim S262144x128x1 (![] : Fin 0 → Fin S262144x128x1.rank))
    (bcA : S1.BroadcastsInDim S1x1x1 (![2] : Fin 1 → Fin S1x1x1.rank))
    (bcB : S1x1x1.BroadcastsInDim S262144x128x1 (![0, 1, 2] : Fin 3 → Fin S262144x128x1.rank))
    (red : S262144x128x1.ReducesTo [2] S262144x128) (hS_ : 0 < S_.numel) (i3 : IVec S262144x128x1 32) :
    IVec S262144x128 1 :=
  Host.reduce IntOp.andi
    (andi (cmpi .sge i3 (broadcastInDim S262144x128x1 ![] bc01 (constantI S_ 32 0#32)))
      (cmpi .sle i3 (broadcastInDim S262144x128x1 ![0, 1, 2] bcB
        (broadcastInDim S1x1x1 ![2] bcA (constantI S1 32 2097151#32)))))
    (constantI S_ 1 1#1) red hS_

/-- THE FLAT CHAIN: the take, along the one axis of the row-major flattening of `x`, at the flat index array `l`
    (wrapped where negative, masked to `fill` where out of range). -/
abbrev takeK (bc : S_.BroadcastsInDim S262144x128 (![] : Fin 0 → Fin S262144x128.rank))
    (bc1 : S262144x128.BroadcastsInDim S262144x128x1 (![0, 1] : Fin 2 → Fin S262144x128x1.rank))
    (bc01 : S_.BroadcastsInDim S262144x128x1 (![] : Fin 0 → Fin S262144x128x1.rank))
    (bcA : S1.BroadcastsInDim S1x1x1 (![2] : Fin 1 → Fin S1x1x1.rank))
    (bcB : S1x1x1.BroadcastsInDim S262144x128x1 (![0, 1, 2] : Fin 3 → Fin S262144x128x1.rank))
    (red : S262144x128x1.ReducesTo [2] S262144x128) (hS_ : 0 < S_.numel)
    (hsc : S128x128x128.ShapeCasts S2097152)
    (wf1 : GatherDims.WF S2097152 S262144x128x1 S262144x128 [] [0] [] [0] [] 2 ![1])
    (x : S128x128x128.Idx → α) (fill : S262144x128.Idx → α) (l : IVec S262144x128 32) : S262144x128.Idx → α :=
  select (takeMask bc01 bcA bcB red hS_ (col bc1 (wrap bc 2097152#32 l)))
    (Host.gather (takeDims 2097152 262144 128 wf1) (shapeCast S2097152 x hsc) (col bc1 (wrap bc 2097152#32 l)))
    fill

/-- THE RANK-3 CHAIN: the gather of single elements of `x` at the index vectors `(A, B, C)` (each wrapped where
    negative), concatenated along the last axis. -/
abbrev gatherR (bc : S_.BroadcastsInDim S262144x128 (![] : Fin 0 → Fin S262144x128.rank))
    (bc1 : S262144x128.BroadcastsInDim S262144x128x1 (![0, 1] : Fin 2 → Fin S262144x128x1.rank))
    (cat : Shape.Concatenates [S262144x128x1, S262144x128x1, S262144x128x1] S262144x128x3 2)
    (wf3 : GatherDims.WF S128x128x128 S262144x128x3 S262144x128 [] [0, 1, 2] [] [0, 1, 2] [] 2 ![1, 1, 1])
    (x : S128x128x128.Idx → α) (A B C : IVec S262144x128 32) : S262144x128.Idx → α :=
  Host.gather (gather3Dims 128 128 128 262144 128 wf3) x
    (concatenate S262144x128x3 2 [⟨S262144x128x1, col bc1 (wrap bc 128#32 A)⟩,
      ⟨S262144x128x1, col bc1 (wrap bc 128#32 B)⟩, ⟨S262144x128x1, col bc1 (wrap bc 128#32 C)⟩] cat)

/-- The column read at `[t, j, _]` is the array at `(t, j)`. -/
theorem col_apply (bc1 : S262144x128.BroadcastsInDim S262144x128x1 (![0, 1] : Fin 2 → Fin S262144x128x1.rank))
    (z : IVec S262144x128 32) (j : S262144x128x1.Idx) (y : S262144x128.Idx)
    (h0 : (y 0).val = (j 0).val) (h1 : (y 1).val = (j 1).val) : col bc1 z j = z y := by
  refine broadcastInDim_apply _ bc1 z j y fun a => ?_
  match a with
  | ⟨0, _⟩ =>
    show (y 0).val = if (262144 : Nat) = 1 then 0 else (j 0).val
    rw [if_neg (by decide)]; exact h0
  | ⟨1, _⟩ =>
    show (y 1).val = if (128 : Nat) = 1 then 0 else (j 1).val
    rw [if_neg (by decide)]; exact h1

/-- The concatenation of three columns along the last axis, read at `[t, j, k]`, is column `k` at `[t, j, 0]`. -/
theorem cat3_apply {β : Type}
    (cat : Shape.Concatenates [S262144x128x1, S262144x128x1, S262144x128x1] S262144x128x3 2)
    (u0 u1 u2 : S262144x128x1.Idx → β) (y : S262144x128.Idx) :
    concatenate S262144x128x3 2 [⟨S262144x128x1, u0⟩, ⟨S262144x128x1, u1⟩, ⟨S262144x128x1, u2⟩] cat (gather3Idx y 0)
        = u0 (takeIdx y) ∧
      concatenate S262144x128x3 2 [⟨S262144x128x1, u0⟩, ⟨S262144x128x1, u1⟩, ⟨S262144x128x1, u2⟩] cat (gather3Idx y 1)
        = u1 (takeIdx y) ∧
      concatenate S262144x128x3 2 [⟨S262144x128x1, u0⟩, ⟨S262144x128x1, u1⟩, ⟨S262144x128x1, u2⟩] cat (gather3Idx y 2)
        = u2 (takeIdx y) := by
  have hi : ∀ (k : Fin 3) (b : Fin S262144x128x1.rank),
      b.cast (rfl : S262144x128x1.rank = S262144x128x3.rank) ≠ 2 →
        (takeIdx y b).val = (gather3Idx y k (b.cast (rfl : S262144x128x1.rank = S262144x128x3.rank))).val := by
    intro k b hb
    match b, hb with
    | ⟨0, _⟩, _ => rfl
    | ⟨1, _⟩, _ => rfl
    | ⟨2, _⟩, hb => exact absurd rfl hb
  refine ⟨?_, ?_, ?_⟩
  · exact concatenate_apply_piece (t := S262144x128x3) 2
      ([⟨S262144x128x1, u0⟩, ⟨S262144x128x1, u1⟩, ⟨S262144x128x1, u2⟩] : List ((s : Shape) × (s.Idx → β))) cat (gather3Idx y 0) 0 (by show (0 : Nat) < 3; decide) S262144x128x1 u0 rfl rfl 0 rfl
      (takeIdx y) (hi 0) rfl
  · exact concatenate_apply_piece (t := S262144x128x3) 2
      ([⟨S262144x128x1, u0⟩, ⟨S262144x128x1, u1⟩, ⟨S262144x128x1, u2⟩] : List ((s : Shape) × (s.Idx → β))) cat (gather3Idx y 1) 1 (by show (1 : Nat) < 3; decide) S262144x128x1 u1 rfl rfl 1 rfl
      (takeIdx y) (hi 1) rfl
  · exact concatenate_apply_piece (t := S262144x128x3) 2
      ([⟨S262144x128x1, u0⟩, ⟨S262144x128x1, u1⟩, ⟨S262144x128x1, u2⟩] : List ((s : Shape) × (s.Idx → β))) cat (gather3Idx y 2) 2 (by show (2 : Nat) < 3; decide) S262144x128x1 u2 rfl rfl 2 rfl
      (takeIdx y) (hi 2) rfl

end Chains

/-! ## The main theorem -/

section Main
variable {α : Type}

/-- READING THROUGH THE FLATTENING IS THE RANK-3 GATHER. For a field `x` on `[128, 128, 128]` and three integer
    coordinate arrays `a`, `b`, `c`, each clipped into `[0, 127]`: taking from the row-major flattening of `x` at the
    wrapping 32-bit flat index `A·16384 + B·128 + C` (negative indices wrapped, out-of-range ones masked to `fill`) is
    gathering `x` at `(A, B, C)` (negative indices wrapped) — because a clipped coordinate is nonnegative, the flat index
    of three of them neither wraps nor leaves `[0, 2097151]`, and it is the row-major position of `(A, B, C)`. -/
theorem take_flat_eq_gather3
    (bc : S_.BroadcastsInDim S262144x128 (![] : Fin 0 → Fin S262144x128.rank))
    (bc1 : S262144x128.BroadcastsInDim S262144x128x1 (![0, 1] : Fin 2 → Fin S262144x128x1.rank))
    (bc01 : S_.BroadcastsInDim S262144x128x1 (![] : Fin 0 → Fin S262144x128x1.rank))
    (bcA : S1.BroadcastsInDim S1x1x1 (![2] : Fin 1 → Fin S1x1x1.rank))
    (bcB : S1x1x1.BroadcastsInDim S262144x128x1 (![0, 1, 2] : Fin 3 → Fin S262144x128x1.rank))
    (red : S262144x128x1.ReducesTo [2] S262144x128) (hS_ : 0 < S_.numel)
    (hsc : S128x128x128.ShapeCasts S2097152)
    (wf1 : GatherDims.WF S2097152 S262144x128x1 S262144x128 [] [0] [] [0] [] 2 ![1])
    (cat : Shape.Concatenates [S262144x128x1, S262144x128x1, S262144x128x1] S262144x128x3 2)
    (wf3 : GatherDims.WF S128x128x128 S262144x128x3 S262144x128 [] [0, 1, 2] [] [0, 1, 2] [] 2 ![1, 1, 1])
    (x : S128x128x128.Idx → α) (fill : S262144x128.Idx → α) (a b c : IVec S262144x128 32) :
    takeK bc bc1 bc01 bcA bcB red hS_ hsc wf1 x fill (lin bc (clip bc a) (clip bc b) (clip bc c))
      = gatherR bc bc1 cat wf3 x (clip bc a) (clip bc b) (clip bc c) := by
  funext y
  -- a clipped coordinate, at any point, is a word in [0, 127]
  have hcl : ∀ (z : IVec S262144x128 32) (p : S262144x128.Idx),
      (clip bc z p).toNat ≤ 127 ∧ (clip bc z p).toInt = ((clip bc z p).toNat : Int) := fun z p => clipW_toNat (z p)
  have hcl0 : ∀ (z : IVec S262144x128 32) (p : S262144x128.Idx), 0 ≤ (clip bc z p).toInt :=
    fun z p => (clipW_bounds (z p)).1
  -- so the flat index, at any point, neither wraps nor leaves [0, 2097151]
  have hlb : ∀ p : S262144x128.Idx, 0 ≤ (linW (clip bc a p) (clip bc b p) (clip bc c p)).toInt ∧
      (linW (clip bc a p) (clip bc b p) (clip bc c p)).toInt ≤ 2097151 ∧
      (linW (clip bc a p) (clip bc b p) (clip bc c p)).toInt.toNat
        = (clip bc a p).toNat * 16384 + (clip bc b p).toNat * 128 + (clip bc c p).toNat :=
    fun p => linW_bounds _ _ _ (hcl a p).1 (hcl b p).1 (hcl c p).1
  -- the two "negative index" selects are the identity
  have hw : ∀ p : S262144x128.Idx, wrap bc 2097152#32 (lin bc (clip bc a) (clip bc b) (clip bc c)) p
      = linW (clip bc a p) (clip bc b p) (clip bc c p) := fun p =>
    wrap_nonneg (linW (clip bc a p) (clip bc b p) (clip bc c p)) 2097152#32 (hlb p).1
  have hwr : ∀ (z : IVec S262144x128 32) (p : S262144x128.Idx), wrap bc 128#32 (clip bc z) p = clip bc z p :=
    fun z p => wrap_nonneg (clip bc z p) 128#32 (hcl0 z p)
  -- the bounds mask is true
  have hmask : takeMask bc01 bcA bcB red hS_ (col bc1 (wrap bc 2097152#32 (lin bc (clip bc a) (clip bc b) (clip bc c)))) y = 1#1 := by
    refine reduce_andi_one _ _ red hS_ (fun _ => rfl) (fun j => ?_) y
    show IntOp.andi (IntOp.cmpi .sge (col bc1 (wrap bc 2097152#32 (lin bc (clip bc a) (clip bc b) (clip bc c))) j) 0#32)
      (IntOp.cmpi .sle (col bc1 (wrap bc 2097152#32 (lin bc (clip bc a) (clip bc b) (clip bc c))) j) 2097151#32) = 1#1
    rw [col_apply bc1 _ j (ix2 ⟨(j 0).val, (j 0).isLt⟩ ⟨(j 1).val, (j 1).isLt⟩) rfl rfl, hw]
    exact inRange_one _ (hlb _).1 (hlb _).2.1
  have hA := hcl a y
  have hB := hcl b y
  have hC := hcl c y
  -- both sides are the field at the three clipped coordinates
  trans x (ix3 ⟨(clip bc a y).toNat, by omega⟩ ⟨(clip bc b y).toNat, by omega⟩ ⟨(clip bc c y).toNat, by omega⟩)
  · show Scalar.select (takeMask bc01 bcA bcB red hS_ (col bc1 (wrap bc 2097152#32 (lin bc (clip bc a) (clip bc b) (clip bc c)))) y)
      (Host.gather (takeDims 2097152 262144 128 wf1) (shapeCast S2097152 x hsc)
        (col bc1 (wrap bc 2097152#32 (lin bc (clip bc a) (clip bc b) (clip bc c)))) y) (fill y) = _
    rw [hmask, select_one, gather_take_apply (by decide) wf1 _ _ y]
    refine flat_apply x hsc _ _ _ _ ?_
    show min ((col bc1 (wrap bc 2097152#32 (lin bc (clip bc a) (clip bc b) (clip bc c)))) (takeIdx y)).toInt.toNat (2097152 - 1)
      = (clip bc a y).toNat * 16384 + (clip bc b y).toNat * 128 + (clip bc c y).toNat
    rw [col_apply bc1 _ (takeIdx y) y rfl rfl, hw y]
    have h3 := (hlb y).2.2
    omega
  · symm
    show Host.gather (gather3Dims 128 128 128 262144 128 wf3) x
      (concatenate S262144x128x3 2 [⟨S262144x128x1, col bc1 (wrap bc 128#32 (clip bc a))⟩,
        ⟨S262144x128x1, col bc1 (wrap bc 128#32 (clip bc b))⟩, ⟨S262144x128x1, col bc1 (wrap bc 128#32 (clip bc c))⟩] cat) y = _
    rw [gather3_apply (by decide) (by decide) (by decide) wf3 x _ y]
    obtain ⟨c0, c1, c2⟩ := cat3_apply cat (col bc1 (wrap bc 128#32 (clip bc a))) (col bc1 (wrap bc 128#32 (clip bc b)))
      (col bc1 (wrap bc 128#32 (clip bc c))) y
    refine congrArg x (ix3_val_congr ?_ ?_ ?_)
    · show min ((concatenate S262144x128x3 2 [⟨S262144x128x1, col bc1 (wrap bc 128#32 (clip bc a))⟩,
        ⟨S262144x128x1, col bc1 (wrap bc 128#32 (clip bc b))⟩, ⟨S262144x128x1, col bc1 (wrap bc 128#32 (clip bc c))⟩] cat)
          (gather3Idx y 0)).toInt.toNat (128 - 1) = (clip bc a y).toNat
      rw [c0, col_apply bc1 _ (takeIdx y) y rfl rfl, hwr a y]
      omega
    · show min ((concatenate S262144x128x3 2 [⟨S262144x128x1, col bc1 (wrap bc 128#32 (clip bc a))⟩,
        ⟨S262144x128x1, col bc1 (wrap bc 128#32 (clip bc b))⟩, ⟨S262144x128x1, col bc1 (wrap bc 128#32 (clip bc c))⟩] cat)
          (gather3Idx y 1)).toInt.toNat (128 - 1) = (clip bc b y).toNat
      rw [c1, col_apply bc1 _ (takeIdx y) y rfl rfl, hwr b y]
      omega
    · show min ((concatenate S262144x128x3 2 [⟨S262144x128x1, col bc1 (wrap bc 128#32 (clip bc a))⟩,
        ⟨S262144x128x1, col bc1 (wrap bc 128#32 (clip bc b))⟩, ⟨S262144x128x1, col bc1 (wrap bc 128#32 (clip bc c))⟩] cat)
          (gather3Idx y 2)).toInt.toNat (128 - 1) = (clip bc c y).toNat
      rw [c2, col_apply bc1 _ (takeIdx y) y rfl rfl, hwr c y]
      omega

end Main

end GatherFlat
-- ==== Proof.KHeadTake.lean ====
/- The kernel program's host operations before its region, read at the two sampled-neighbourhood buffers.

   The operations before the region are twenty-one stretches run in turn (the two flat takes cut in four each). Each stretch, from any contents, leaves at
   each buffer it writes a pure function of the buffers it reads, and every other buffer as it was; composing these
   along the two chains that end in the two flat takes gives each sampled-neighbourhood buffer as the take, from the
   row-major flattening of the field, at the flat index of the three clipped coordinate arrays of the positions
   (the old ones; the moved ones). -/
import proofs.«119652_j82712480186467_2_alg».proof.Proof.Gen.KernelIdeal.Frame
import proofs.«119652_j82712480186467_2_alg».proof.Proof.LibGatherFlat
import Idealize.ShloMosaic.Lib.StableHlo.Run

noncomputable section

namespace Cert.KernelIdeal.KHeadTake

open Cert.KernelIdeal Cert.KernelIdeal.Gen Idealize.ShloMosaic Idealize.ShloMosaic.TcCoe Idealize.SL.Sem Idealize.ShloMosaic.StableHlo

/-! ## The coordinate arrays and the fill, on the extended reals -/

/-- The integer base cell of each row: the positions truncated to integers, clamped to [0, 127]. -/
def kpos (p : FVec Ideal S262144x3 .f32) : IVec S262144x3 32 :=
  minsi (broadcastInDim S262144x3 ![] bcast_S_S262144x3 (constantI S_ 32 127#32))
    (maxsi (broadcastInDim S262144x3 ![] bcast_S_S262144x3 (constantI S_ 32 0#32)) (fptosi 32 p))

/-- Coordinate k of the 128 stencil points of every row, before its clamp: column k of the base cell spread along the
    points, plus the k-th offset table spread along the rows. -/
def kcoord0 (p : FVec Ideal S262144x3 .f32) : IVec S262144x128 32 :=
  addi (broadcastInDim S262144x128 ![0, 1] bcast_S262144x1_S262144x128_0_1 (extractStridedSlice S262144x1 ![0, 0] (kpos p) slices_S262144x3_S262144x1_0_0))
    (broadcastInDim S262144x128 ![0, 1] bcast_S1x128_S262144x128_0_1 (broadcastInDim S1x128 ![1] bcast_S128_S1x128_1 (fun i => lit0 (S128.rowMajor i))))
def kcoord1 (p : FVec Ideal S262144x3 .f32) : IVec S262144x128 32 :=
  addi (broadcastInDim S262144x128 ![0, 1] bcast_S262144x1_S262144x128_0_1 (extractStridedSlice S262144x1 ![0, 1] (kpos p) slices_S262144x3_S262144x1_0_1))
    (broadcastInDim S262144x128 ![0, 1] bcast_S1x128_S262144x128_0_1 (broadcastInDim S1x128 ![1] bcast_S128_S1x128_1 (fun i => lit1 (S128.rowMajor i))))
def kcoord2 (p : FVec Ideal S262144x3 .f32) : IVec S262144x128 32 :=
  addi (broadcastInDim S262144x128 ![0, 1] bcast_S262144x1_S262144x128_0_1 (extractStridedSlice S262144x1 ![0, 2] (kpos p) slices_S262144x3_S262144x1_0_2))
    (broadcastInDim S262144x128 ![0, 1] bcast_S1x128_S262144x128_0_1 (broadcastInDim S1x128 ![1] bcast_S128_S1x128_1 (fun i => lit2 (S128.rowMajor i))))

/-- The value a take puts where its index is out of range. -/
def kfill : FVec Ideal S262144x128 .f32 :=
  broadcastInDim S262144x128 ![] bcast_S_S262144x128 (constant (F := Ideal) S_ .f32 0x7FC00000#32)

/-! ## The stretches by name, and the contents before the region as their folds in turn -/

section
variable {F : FTy → Type} [FloatOps F]

def st0 : List (HloOp τ sig (Elt F)) := hostOps0
def st1 : List (HloOp τ sig (Elt F)) := hostOps0_1
def st2 : List (HloOp τ sig (Elt F)) := hostOps0_2
def st3 : List (HloOp τ sig (Elt F)) := hostOps0_3
def st4 : List (HloOp τ sig (Elt F)) := hostOps0_4
def st5 : List (HloOp τ sig (Elt F)) := hostOps0_5
def st6 : List (HloOp τ sig (Elt F)) := hostOps0_6
def st7 : List (HloOp τ sig (Elt F)) := hostOps0_7
def st8 : List (HloOp τ sig (Elt F)) := hostOps0_8
def st9a : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S262144x128, .i32⟩) (broadcastInDim S262144x128 ![] bcast_S_S262144x128),
    StableHlo.TRef.binary (.of main_v26 : StableHlo.TRef sig ⟨S262144x128, .i32⟩) (.of main_call4_v0 : StableHlo.TRef sig ⟨S262144x128, .i32⟩) (.of main_call4_v1 : StableHlo.TRef sig ⟨S262144x128, .i1⟩) (cmpi .slt),
    StableHlo.TRef.nullary (.of main_call4_c_0 : StableHlo.TRef sig ⟨S_, .i32⟩) (constantI S_ 32 2097152#32),
    StableHlo.TRef.unary (.of main_call4_c_0 : StableHlo.TRef sig ⟨S_, .i32⟩) (.of main_call4_v2 : StableHlo.TRef sig ⟨S262144x128, .i32⟩) (broadcastInDim S262144x128 ![] bcast_S_S262144x128),
    StableHlo.TRef.binary (.of main_v26 : StableHlo.TRef sig ⟨S262144x128, .i32⟩) (.of main_call4_v2 : StableHlo.TRef sig ⟨S262144x128, .i32⟩) (.of main_call4_v3 : StableHlo.TRef sig ⟨S262144x128, .i32⟩) addi,
    StableHlo.TRef.ternary (.of main_call4_v1 : StableHlo.TRef sig ⟨S262144x128, .i1⟩) (.of main_call4_v3 : StableHlo.TRef sig ⟨S262144x128, .i32⟩) (.of main_v26 : StableHlo.TRef sig ⟨S262144x128, .i32⟩) (.of main_call4_v4 : StableHlo.TRef sig ⟨S262144x128, .i32⟩) select,
    StableHlo.TRef.unary main_call4_call0.v0 (.of main_call4_v5 : StableHlo.TRef sig ⟨S262144x128x1, .i32⟩) (broadcastInDim S262144x128x1 ![0, 1] bcast_S262144x128_S262144x128x1_0_1) ]
def st9b : List (HloOp τ sig (Elt F)) :=
  [ StableHlo.TRef.nullary (.of main_call4_c_1 : StableHlo.TRef sig ⟨S1, .i32⟩) (constantI S1 32 2097151#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S262144x128x1, .i32⟩) (broadcastInDim S262144x128x1 ![] bcast_S_S262144x128x1),
    StableHlo.TRef.binary (.of main_call4_v5 : StableHlo.TRef sig ⟨S262144x128x1, .i32⟩) (.of main_call4_v6 : StableHlo.TRef sig ⟨S262144x128x1, .i32⟩) (.of main_call4_v7 : StableHlo.TRef sig ⟨S262144x128x1, .i1⟩) (cmpi .sge),
    StableHlo.TRef.unary (.of main_call4_c_1 : StableHlo.TRef sig ⟨S1, .i32⟩) (.of main_call4_v8 : StableHlo.TRef sig ⟨S1x1x1, .i32⟩) (broadcastInDim S1x1x1 ![2] bcast_S1_S1x1x1_2),
    StableHlo.TRef.unary (.of main_call4_v8 : StableHlo.TRef sig ⟨S1x1x1, .i32⟩) (.of main_call4_v9 : StableHlo.TRef sig ⟨S262144x128x1, .i32⟩) (broadcastInDim S262144x128x1 ![0, 1, 2] bcast_S1x1x1_S262144x128x1_0_1_2),
    StableHlo.TRef.binary (.of main_call4_v5 : StableHlo.TRef sig ⟨S262144x128x1, .i32⟩) (.of main_call4_v9 : StableHlo.TRef sig ⟨S262144x128x1, .i32⟩) (.of main_call4_v10 : StableHlo.TRef sig ⟨S262144x128x1, .i1⟩) (cmpi .sle),
    StableHlo.TRef.binary (.of main_call4_v7 : StableHlo.TRef sig ⟨S262144x128x1, .i1⟩) (.of main_call4_v10 : StableHlo.TRef sig ⟨S262144x128x1, .i1⟩) (.of main_call4_v11 : StableHlo.TRef sig ⟨S262144x128x1, .i1⟩) andi,
    StableHlo.TRef.nullary (.of main_call4_c_3 : StableHlo.TRef sig ⟨S_, .i1⟩) (constantI S_ 1 1#1),
    StableHlo.TRef.binary (.of main_call4_v11 : StableHlo.TRef sig ⟨S262144x128x1, .i1⟩) (.of main_call4_c_3 : StableHlo.TRef sig ⟨S_, .i1⟩) (.of main_call4_v12 : StableHlo.TRef sig ⟨S262144x128, .i1⟩) (fun x v => Host.reduce IntOp.andi x v reducesTo_S262144x128x1_S262144x128_d2 h_S_) ]
def st9c : List (HloOp τ sig (Elt F)) :=
  [ StableHlo.TRef.binary (.of main_v0 : StableHlo.TRef sig ⟨S2097152, .f32⟩) (.of main_call4_v5 : StableHlo.TRef sig ⟨S262144x128x1, .i32⟩) (.of main_call4_v13 : StableHlo.TRef sig ⟨S262144x128, .f32⟩) (fun x i => Host.gather gather_S2097152_S262144x128x1_S262144x128_n_0_n_n_0_2_1 x i) ]
def st9d : List (HloOp τ sig (Elt F)) :=
  [ StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S262144x128, .f32⟩) (broadcastInDim S262144x128 ![] bcast_S_S262144x128),
    StableHlo.TRef.ternary (.of main_call4_v12 : StableHlo.TRef sig ⟨S262144x128, .i1⟩) (.of main_call4_v13 : StableHlo.TRef sig ⟨S262144x128, .f32⟩) (.of main_call4_v14 : StableHlo.TRef sig ⟨S262144x128, .f32⟩) (.of main_v27 : StableHlo.TRef sig ⟨S262144x128, .f32⟩) select ]
def st10 : List (HloOp τ sig (Elt F)) := hostOps0_10
def st11 : List (HloOp τ sig (Elt F)) := hostOps0_11
def st12 : List (HloOp τ sig (Elt F)) := hostOps0_12
def st13 : List (HloOp τ sig (Elt F)) := hostOps0_13
def st14 : List (HloOp τ sig (Elt F)) := hostOps0_14
def st15 : List (HloOp τ sig (Elt F)) := hostOps0_15
def st16 : List (HloOp τ sig (Elt F)) := hostOps0_16
def st17 : List (HloOp τ sig (Elt F)) := hostOps0_17
def st18 : List (HloOp τ sig (Elt F)) := hostOps0_18
def st19a : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S262144x128, .i32⟩) (broadcastInDim S262144x128 ![] bcast_S_S262144x128),
    StableHlo.TRef.binary (.of main_v54 : StableHlo.TRef sig ⟨S262144x128, .i32⟩) (.of main_call9_v0 : StableHlo.TRef sig ⟨S262144x128, .i32⟩) (.of main_call9_v1 : StableHlo.TRef sig ⟨S262144x128, .i1⟩) (cmpi .slt),
    StableHlo.TRef.nullary (.of main_call9_c_0 : StableHlo.TRef sig ⟨S_, .i32⟩) (constantI S_ 32 2097152#32),
    StableHlo.TRef.unary (.of main_call9_c_0 : StableHlo.TRef sig ⟨S_, .i32⟩) (.of main_call9_v2 : StableHlo.TRef sig ⟨S262144x128, .i32⟩) (broadcastInDim S262144x128 ![] bcast_S_S262144x128),
    StableHlo.TRef.binary (.of main_v54 : StableHlo.TRef sig ⟨S262144x128, .i32⟩) (.of main_call9_v2 : StableHlo.TRef sig ⟨S262144x128, .i32⟩) (.of main_call9_v3 : StableHlo.TRef sig ⟨S262144x128, .i32⟩) addi,
    StableHlo.TRef.ternary (.of main_call9_v1 : StableHlo.TRef sig ⟨S262144x128, .i1⟩) (.of main_call9_v3 : StableHlo.TRef sig ⟨S262144x128, .i32⟩) (.of main_v54 : StableHlo.TRef sig ⟨S262144x128, .i32⟩) (.of main_call9_v4 : StableHlo.TRef sig ⟨S262144x128, .i32⟩) select,
    StableHlo.TRef.unary main_call9_call0.v0 (.of main_call9_v5 : StableHlo.TRef sig ⟨S262144x128x1, .i32⟩) (broadcastInDim S262144x128x1 ![0, 1] bcast_S262144x128_S262144x128x1_0_1) ]
def st19b : List (HloOp τ sig (Elt F)) :=
  [ StableHlo.TRef.nullary (.of main_call9_c_1 : StableHlo.TRef sig ⟨S1, .i32⟩) (constantI S1 32 2097151#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v6 : StableHlo.TRef sig ⟨S262144x128x1, .i32⟩) (broadcastInDim S262144x128x1 ![] bcast_S_S262144x128x1),
    StableHlo.TRef.binary (.of main_call9_v5 : StableHlo.TRef sig ⟨S262144x128x1, .i32⟩) (.of main_call9_v6 : StableHlo.TRef sig ⟨S262144x128x1, .i32⟩) (.of main_call9_v7 : StableHlo.TRef sig ⟨S262144x128x1, .i1⟩) (cmpi .sge),
    StableHlo.TRef.unary (.of main_call9_c_1 : StableHlo.TRef sig ⟨S1, .i32⟩) (.of main_call9_v8 : StableHlo.TRef sig ⟨S1x1x1, .i32⟩) (broadcastInDim S1x1x1 ![2] bcast_S1_S1x1x1_2),
    StableHlo.TRef.unary (.of main_call9_v8 : StableHlo.TRef sig ⟨S1x1x1, .i32⟩) (.of main_call9_v9 : StableHlo.TRef sig ⟨S262144x128x1, .i32⟩) (broadcastInDim S262144x128x1 ![0, 1, 2] bcast_S1x1x1_S262144x128x1_0_1_2),
    StableHlo.TRef.binary (.of main_call9_v5 : StableHlo.TRef sig ⟨S262144x128x1, .i32⟩) (.of main_call9_v9 : StableHlo.TRef sig ⟨S262144x128x1, .i32⟩) (.of main_call9_v10 : StableHlo.TRef sig ⟨S262144x128x1, .i1⟩) (cmpi .sle),
    StableHlo.TRef.binary (.of main_call9_v7 : StableHlo.TRef sig ⟨S262144x128x1, .i1⟩) (.of main_call9_v10 : StableHlo.TRef sig ⟨S262144x128x1, .i1⟩) (.of main_call9_v11 : StableHlo.TRef sig ⟨S262144x128x1, .i1⟩) andi,
    StableHlo.TRef.nullary (.of main_call9_c_3 : StableHlo.TRef sig ⟨S_, .i1⟩) (constantI S_ 1 1#1),
    StableHlo.TRef.binary (.of main_call9_v11 : StableHlo.TRef sig ⟨S262144x128x1, .i1⟩) (.of main_call9_c_3 : StableHlo.TRef sig ⟨S_, .i1⟩) (.of main_call9_v12 : StableHlo.TRef sig ⟨S262144x128, .i1⟩) (fun x v => Host.reduce IntOp.andi x v reducesTo_S262144x128x1_S262144x128_d2 h_S_) ]
def st19c : List (HloOp τ sig (Elt F)) :=
  [ StableHlo.TRef.binary (.of main_v0 : StableHlo.TRef sig ⟨S2097152, .f32⟩) (.of main_call9_v5 : StableHlo.TRef sig ⟨S262144x128x1, .i32⟩) (.of main_call9_v13 : StableHlo.TRef sig ⟨S262144x128, .f32⟩) (fun x i => Host.gather gather_S2097152_S262144x128x1_S262144x128_n_0_n_n_0_2_1 x i) ]
def st19d : List (HloOp τ sig (Elt F)) :=
  [ StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v14 : StableHlo.TRef sig ⟨S262144x128, .f32⟩) (broadcastInDim S262144x128 ![] bcast_S_S262144x128),
    StableHlo.TRef.ternary (.of main_call9_v12 : StableHlo.TRef sig ⟨S262144x128, .i1⟩) (.of main_call9_v13 : StableHlo.TRef sig ⟨S262144x128, .f32⟩) (.of main_call9_v14 : StableHlo.TRef sig ⟨S262144x128, .f32⟩) (.of main_v55 : StableHlo.TRef sig ⟨S262144x128, .f32⟩) select ]
def st20 : List (HloOp τ sig (Elt F)) := hostOps0_20

/-- The two take stretches, each cut in four: the wrapped index column; the bounds mask; the gather; the fill and the select. -/
theorem split9 : (hostOps0_9 : List (HloOp τ sig (Elt F))) = st9a ++ (st9b ++ (st9c ++ st9d)) := rfl
theorem split19 : (hostOps0_19 : List (HloOp τ sig (Elt F))) = st19a ++ (st19b ++ (st19c ++ st19d)) := rfl

/-- Contents moved to a typed reference's buffer type and back are unchanged. -/
theorem ofBuf_toBuf {Val : EltTy → Type} {T : BufTy} (x : TRef sig T) (v : T.Contents Val) : x.ofBuf (x.toBuf v) = v := by
  unfold TRef.ofBuf TRef.toBuf
  rw [cast_cast, cast_eq]

/-- The contents after two lines run in turn. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents when the region is entered: the stretches' folds, one inside the next. -/
theorem V0_staged (m : (ℓ : Loc nD τ sig) → Buf (Elt F) ℓ) (c : Dev nD) :
    V0 m c = after st20 (after st19d (after st19c (after st19b (after st19a (after st18 (after st17 (after st16 (after st15 (after st14 (after st13 (after st12 (after st11 (after st10 (after st9d (after st9c (after st9b (after st9a (after st8 (after st7 (after st6 (after st5 (after st4 (after st3 (after st2 (after st1 (after st0 (fun b => m (c, b)))))))))))))))))))))))))))) := by
  unfold st0 st1 st2 st3 st4 st5 st6 st7 st8 st10 st11 st12 st13 st14 st15 st16 st17 st18 st20
  simp only [V0, List.flatten_cons, List.flatten_nil, List.append_nil, split9, split19, after_append]

/-! ## What each stretch leaves at the buffers the chains read -/

/-- What the stretch `st9a` leaves at `main_call4_v5`, as a function of the buffers it reads. -/
def E_st9a_call4_v5 (x0 : (⟨S262144x128, .i32⟩ : BufTy).Contents (Elt F)) : (⟨S262144x128x1, .i32⟩ : BufTy).Contents (Elt F) :=
  ((broadcastInDim S262144x128x1 ![0, 1] bcast_S262144x128_S262144x128x1_0_1) (select ((cmpi .slt) x0 ((broadcastInDim S262144x128 ![] bcast_S_S262144x128) ((constantI S_ 32 0#32) : (⟨S_, .i32⟩ : BufTy).Contents (Elt F)) : (⟨S262144x128, .i32⟩ : BufTy).Contents (Elt F)) : (⟨S262144x128, .i1⟩ : BufTy).Contents (Elt F)) (addi x0 ((broadcastInDim S262144x128 ![] bcast_S_S262144x128) ((constantI S_ 32 2097152#32) : (⟨S_, .i32⟩ : BufTy).Contents (Elt F)) : (⟨S262144x128, .i32⟩ : BufTy).Contents (Elt F)) : (⟨S262144x128, .i32⟩ : BufTy).Contents (Elt F)) x0 : (⟨S262144x128, .i32⟩ : BufTy).Contents (Elt F)) : (⟨S262144x128x1, .i32⟩ : BufTy).Contents (Elt F))

/-- What the stretch `st9b` leaves at `main_call4_v12`, as a function of the buffers it reads. -/
def E_st9b_call4_v12 (x0 : (⟨S262144x128x1, .i32⟩ : BufTy).Contents (Elt F)) : (⟨S262144x128, .i1⟩ : BufTy).Contents (Elt F) :=
  ((fun x v => Host.reduce IntOp.andi x v reducesTo_S262144x128x1_S262144x128_d2 h_S_) (andi ((cmpi .sge) x0 ((broadcastInDim S262144x128x1 ![] bcast_S_S262144x128x1) ((constantI S_ 32 0#32) : (⟨S_, .i32⟩ : BufTy).Contents (Elt F)) : (⟨S262144x128x1, .i32⟩ : BufTy).Contents (Elt F)) : (⟨S262144x128x1, .i1⟩ : BufTy).Contents (Elt F)) ((cmpi .sle) x0 ((broadcastInDim S262144x128x1 ![0, 1, 2] bcast_S1x1x1_S262144x128x1_0_1_2) ((broadcastInDim S1x1x1 ![2] bcast_S1_S1x1x1_2) ((constantI S1 32 2097151#32) : (⟨S1, .i32⟩ : BufTy).Contents (Elt F)) : (⟨S1x1x1, .i32⟩ : BufTy).Contents (Elt F)) : (⟨S262144x128x1, .i32⟩ : BufTy).Contents (Elt F)) : (⟨S262144x128x1, .i1⟩ : BufTy).Contents (Elt F)) : (⟨S262144x128x1, .i1⟩ : BufTy).Contents (Elt F)) ((constantI S_ 1 1#1) : (⟨S_, .i1⟩ : BufTy).Contents (Elt F)) : (⟨S262144x128, .i1⟩ : BufTy).Contents (Elt F))

/-- What the stretch `st19a` leaves at `main_call9_v5`, as a function of the buffers it reads. -/
def E_st19a_call9_v5 (x0 : (⟨S262144x128, .i32⟩ : BufTy).Contents (Elt F)) : (⟨S262144x128x1, .i32⟩ : BufTy).Contents (Elt F) :=
  ((broadcastInDim S262144x128x1 ![0, 1] bcast_S262144x128_S262144x128x1_0_1) (select ((cmpi .slt) x0 ((broadcastInDim S262144x128 ![] bcast_S_S262144x128) ((constantI S_ 32 0#32) : (⟨S_, .i32⟩ : BufTy).Contents (Elt F)) : (⟨S262144x128, .i32⟩ : BufTy).Contents (Elt F)) : (⟨S262144x128, .i1⟩ : BufTy).Contents (Elt F)) (addi x0 ((broadcastInDim S262144x128 ![] bcast_S_S262144x128) ((constantI S_ 32 2097152#32) : (⟨S_, .i32⟩ : BufTy).Contents (Elt F)) : (⟨S262144x128, .i32⟩ : BufTy).Contents (Elt F)) : (⟨S262144x128, .i32⟩ : BufTy).Contents (Elt F)) x0 : (⟨S262144x128, .i32⟩ : BufTy).Contents (Elt F)) : (⟨S262144x128x1, .i32⟩ : BufTy).Contents (Elt F))

/-- What the stretch `st19b` leaves at `main_call9_v12`, as a function of the buffers it reads. -/
def E_st19b_call9_v12 (x0 : (⟨S262144x128x1, .i32⟩ : BufTy).Contents (Elt F)) : (⟨S262144x128, .i1⟩ : BufTy).Contents (Elt F) :=
  ((fun x v => Host.reduce IntOp.andi x v reducesTo_S262144x128x1_S262144x128_d2 h_S_) (andi ((cmpi .sge) x0 ((broadcastInDim S262144x128x1 ![] bcast_S_S262144x128x1) ((constantI S_ 32 0#32) : (⟨S_, .i32⟩ : BufTy).Contents (Elt F)) : (⟨S262144x128x1, .i32⟩ : BufTy).Contents (Elt F)) : (⟨S262144x128x1, .i1⟩ : BufTy).Contents (Elt F)) ((cmpi .sle) x0 ((broadcastInDim S262144x128x1 ![0, 1, 2] bcast_S1x1x1_S262144x128x1_0_1_2) ((broadcastInDim S1x1x1 ![2] bcast_S1_S1x1x1_2) ((constantI S1 32 2097151#32) : (⟨S1, .i32⟩ : BufTy).Contents (Elt F)) : (⟨S1x1x1, .i32⟩ : BufTy).Contents (Elt F)) : (⟨S262144x128x1, .i32⟩ : BufTy).Contents (Elt F)) : (⟨S262144x128x1, .i1⟩ : BufTy).Contents (Elt F)) : (⟨S262144x128x1, .i1⟩ : BufTy).Contents (Elt F)) ((constantI S_ 1 1#1) : (⟨S_, .i1⟩ : BufTy).Contents (Elt F)) : (⟨S262144x128, .i1⟩ : BufTy).Contents (Elt F))

variable (W : Valuation τ sig (Elt F))

theorem v_st0_v0 : after st0 W (Proc.devRef .tc main_v0 : DevRef τ sig)
    = (shapeCast S2097152 (W (Proc.devRef .tc main_arg0 : DevRef τ sig)) shapeCasts_S128x128x128_S2097152 : (⟨S2097152, .f32⟩ : BufTy).Contents (Elt F)) := by
  unfold st0
  after_results <;> (try simp only [ofBuf_toBuf]) <;> rfl
theorem v_st0_c_1 : after st0 W (Proc.devRef .tc main_c_1 : DevRef τ sig)
    = ((fun i => lit2 (S128.rowMajor i)) : (⟨S128, .i32⟩ : BufTy).Contents (Elt F)) := by
  unfold st0
  after_results <;> (try simp only [ofBuf_toBuf]) <;> rfl
theorem v_st0_c_0 : after st0 W (Proc.devRef .tc main_c_0 : DevRef τ sig)
    = ((fun i => lit1 (S128.rowMajor i)) : (⟨S128, .i32⟩ : BufTy).Contents (Elt F)) := by
  unfold st0
  after_results <;> (try simp only [ofBuf_toBuf]) <;> rfl
theorem v_st0_c : after st0 W (Proc.devRef .tc main_c : DevRef τ sig)
    = ((fun i => lit0 (S128.rowMajor i)) : (⟨S128, .i32⟩ : BufTy).Contents (Elt F)) := by
  unfold st0
  after_results <;> (try simp only [ofBuf_toBuf]) <;> rfl
theorem v_st0_v1 : after st0 W (Proc.devRef .tc main_v1 : DevRef τ sig)
    = ((fptosi 32 : (⟨S262144x3, .f32⟩ : BufTy).Contents (Elt F) → (⟨S262144x3, .i32⟩ : BufTy).Contents (Elt F)) (W (Proc.devRef .tc main_arg1 : DevRef τ sig)) : (⟨S262144x3, .i32⟩ : BufTy).Contents (Elt F)) := by
  unfold st0
  after_results <;> (try simp only [ofBuf_toBuf]) <;> rfl
theorem v_st0_c_2 : after st0 W (Proc.devRef .tc main_c_2 : DevRef τ sig)
    = ((constantI S_ 32 0#32) : (⟨S_, .i32⟩ : BufTy).Contents (Elt F)) := by
  unfold st0
  after_results <;> (try simp only [ofBuf_toBuf]) <;> rfl
theorem v_st0_c_3 : after st0 W (Proc.devRef .tc main_c_3 : DevRef τ sig)
    = ((constantI S_ 32 127#32) : (⟨S_, .i32⟩ : BufTy).Contents (Elt F)) := by
  unfold st0
  after_results <;> (try simp only [ofBuf_toBuf]) <;> rfl
theorem f_st0_arg3 : after st0 W (Proc.devRef .tc main_arg3 : DevRef τ sig) = W (Proc.devRef .tc main_arg3 : DevRef τ sig) := by
  unfold st0
  after_results
theorem f_st0_arg1 : after st0 W (Proc.devRef .tc main_arg1 : DevRef τ sig) = W (Proc.devRef .tc main_arg1 : DevRef τ sig) := by
  unfold st0
  after_results
theorem v_st1_v2 : after st1 W (Proc.devRef .tc main_v2 : DevRef τ sig)
    = (minsi ((broadcastInDim S262144x3 ![] bcast_S_S262144x3) (id (W (Proc.devRef .tc main_c_3 : DevRef τ sig)) : (⟨S_, .i32⟩ : BufTy).Contents (Elt F)) : (⟨S262144x3, .i32⟩ : BufTy).Contents (Elt F)) (maxsi ((broadcastInDim S262144x3 ![] bcast_S_S262144x3) (id (W (Proc.devRef .tc main_c_2 : DevRef τ sig)) : (⟨S_, .i32⟩ : BufTy).Contents (Elt F)) : (⟨S262144x3, .i32⟩ : BufTy).Contents (Elt F)) (W (Proc.devRef .tc main_v1 : DevRef τ sig)) : (⟨S262144x3, .i32⟩ : BufTy).Contents (Elt F)) : (⟨S262144x3, .i32⟩ : BufTy).Contents (Elt F)) := by
  unfold st1
  after_results <;> (try simp only [ofBuf_toBuf]) <;> rfl
theorem f_st1_arg3 : after st1 W (Proc.devRef .tc main_arg3 : DevRef τ sig) = W (Proc.devRef .tc main_arg3 : DevRef τ sig) := by
  unfold st1
  after_results
theorem f_st1_arg1 : after st1 W (Proc.devRef .tc main_arg1 : DevRef τ sig) = W (Proc.devRef .tc main_arg1 : DevRef τ sig) := by
  unfold st1
  after_results
theorem f_st1_v0 : after st1 W (Proc.devRef .tc main_v0 : DevRef τ sig) = W (Proc.devRef .tc main_v0 : DevRef τ sig) := by
  unfold st1
  after_results
theorem f_st1_c_1 : after st1 W (Proc.devRef .tc main_c_1 : DevRef τ sig) = W (Proc.devRef .tc main_c_1 : DevRef τ sig) := by
  unfold st1
  after_results
theorem f_st1_c_0 : after st1 W (Proc.devRef .tc main_c_0 : DevRef τ sig) = W (Proc.devRef .tc main_c_0 : DevRef τ sig) := by
  unfold st1
  after_results
theorem f_st1_c : after st1 W (Proc.devRef .tc main_c : DevRef τ sig) = W (Proc.devRef .tc main_c : DevRef τ sig) := by
  unfold st1
  after_results
theorem v_st2_v7 : after st2 W (Proc.devRef .tc main_v7 : DevRef τ sig)
    = ((addi : (⟨S262144x128, .i32⟩ : BufTy).Contents (Elt F) → (⟨S262144x128, .i32⟩ : BufTy).Contents (Elt F) → (⟨S262144x128, .i32⟩ : BufTy).Contents (Elt F)) ((broadcastInDim S262144x128 ![0, 1] bcast_S262144x1_S262144x128_0_1 : (⟨S262144x1, .i32⟩ : BufTy).Contents (Elt F) → (⟨S262144x128, .i32⟩ : BufTy).Contents (Elt F)) (extractStridedSlice S262144x1 ![0, 0] (W (Proc.devRef .tc main_v2 : DevRef τ sig)) slices_S262144x3_S262144x1_0_0 : (⟨S262144x1, .i32⟩ : BufTy).Contents (Elt F)) : (⟨S262144x128, .i32⟩ : BufTy).Contents (Elt F)) ((broadcastInDim S262144x128 ![0, 1] bcast_S1x128_S262144x128_0_1 : (⟨S1x128, .i32⟩ : BufTy).Contents (Elt F) → (⟨S262144x128, .i32⟩ : BufTy).Contents (Elt F)) ((broadcastInDim S1x128 ![1] bcast_S128_S1x128_1 : (⟨S128, .i32⟩ : BufTy).Contents (Elt F) → (⟨S1x128, .i32⟩ : BufTy).Contents (Elt F)) (W (Proc.devRef .tc main_c : DevRef τ sig)) : (⟨S1x128, .i32⟩ : BufTy).Contents (Elt F)) : (⟨S262144x128, .i32⟩ : BufTy).Contents (Elt F)) : (⟨S262144x128, .i32⟩ : BufTy).Contents (Elt F)) := by
  unfold st2
  after_results <;> (try simp only [ofBuf_toBuf]) <;> rfl
theorem v_st2_c_4 : after st2 W (Proc.devRef .tc main_c_4 : DevRef τ sig)
    = ((constantI S_ 32 0#32) : (⟨S_, .i32⟩ : BufTy).Contents (Elt F)) := by
  unfold st2
  after_results <;> (try simp only [ofBuf_toBuf]) <;> rfl
theorem v_st2_c_5 : after st2 W (Proc.devRef .tc main_c_5 : DevRef τ sig)
    = ((constantI S_ 32 127#32) : (⟨S_, .i32⟩ : BufTy).Contents (Elt F)) := by
  unfold st2
  after_results <;> (try simp only [ofBuf_toBuf]) <;> rfl
theorem f_st2_c : after st2 W (Proc.devRef .tc main_c : DevRef τ sig) = W (Proc.devRef .tc main_c : DevRef τ sig) := by
  unfold st2
  after_results
theorem f_st2_arg3 : after st2 W (Proc.devRef .tc main_arg3 : DevRef τ sig) = W (Proc.devRef .tc main_arg3 : DevRef τ sig) := by
  unfold st2
  after_results
theorem f_st2_arg1 : after st2 W (Proc.devRef .tc main_arg1 : DevRef τ sig) = W (Proc.devRef .tc main_arg1 : DevRef τ sig) := by
  unfold st2
  after_results
theorem f_st2_v0 : after st2 W (Proc.devRef .tc main_v0 : DevRef τ sig) = W (Proc.devRef .tc main_v0 : DevRef τ sig) := by
  unfold st2
  after_results
theorem f_st2_c_1 : after st2 W (Proc.devRef .tc main_c_1 : DevRef τ sig) = W (Proc.devRef .tc main_c_1 : DevRef τ sig) := by
  unfold st2
  after_results
theorem f_st2_c_0 : after st2 W (Proc.devRef .tc main_c_0 : DevRef τ sig) = W (Proc.devRef .tc main_c_0 : DevRef τ sig) := by
  unfold st2
  after_results
theorem f_st2_v2 : after st2 W (Proc.devRef .tc main_v2 : DevRef τ sig) = W (Proc.devRef .tc main_v2 : DevRef τ sig) := by
  unfold st2
  after_results
theorem v_st3_v8 : after st3 W (Proc.devRef .tc main_v8 : DevRef τ sig)
    = (minsi ((broadcastInDim S262144x128 ![] bcast_S_S262144x128) (id (W (Proc.devRef .tc main_c_5 : DevRef τ sig)) : (⟨S_, .i32⟩ : BufTy).Contents (Elt F)) : (⟨S262144x128, .i32⟩ : BufTy).Contents (Elt F)) (maxsi ((broadcastInDim S262144x128 ![] bcast_S_S262144x128) (id (W (Proc.devRef .tc main_c_4 : DevRef τ sig)) : (⟨S_, .i32⟩ : BufTy).Contents (Elt F)) : (⟨S262144x128, .i32⟩ : BufTy).Contents (Elt F)) (W (Proc.devRef .tc main_v7 : DevRef τ sig)) : (⟨S262144x128, .i32⟩ : BufTy).Contents (Elt F)) : (⟨S262144x128, .i32⟩ : BufTy).Contents (Elt F)) := by
  unfold st3
  after_results <;> (try simp only [ofBuf_toBuf]) <;> rfl
theorem f_st3_c : after st3 W (Proc.devRef .tc main_c : DevRef τ sig) = W (Proc.devRef .tc main_c : DevRef τ sig) := by
  unfold st3
  after_results
theorem f_st3_arg3 : after st3 W (Proc.devRef .tc main_arg3 : DevRef τ sig) = W (Proc.devRef .tc main_arg3 : DevRef τ sig) := by
  unfold st3
  after_results
theorem f_st3_arg1 : after st3 W (Proc.devRef .tc main_arg1 : DevRef τ sig) = W (Proc.devRef .tc main_arg1 : DevRef τ sig) := by
  unfold st3
  after_results
theorem f_st3_v0 : after st3 W (Proc.devRef .tc main_v0 : DevRef τ sig) = W (Proc.devRef .tc main_v0 : DevRef τ sig) := by
  unfold st3
  after_results
theorem f_st3_c_1 : after st3 W (Proc.devRef .tc main_c_1 : DevRef τ sig) = W (Proc.devRef .tc main_c_1 : DevRef τ sig) := by
  unfold st3
  after_results
theorem f_st3_c_0 : after st3 W (Proc.devRef .tc main_c_0 : DevRef τ sig) = W (Proc.devRef .tc main_c_0 : DevRef τ sig) := by
  unfold st3
  after_results
theorem f_st3_v2 : after st3 W (Proc.devRef .tc main_v2 : DevRef τ sig) = W (Proc.devRef .tc main_v2 : DevRef τ sig) := by
  unfold st3
  after_results
theorem v_st4_v13 : after st4 W (Proc.devRef .tc main_v13 : DevRef τ sig)
    = ((addi : (⟨S262144x128, .i32⟩ : BufTy).Contents (Elt F) → (⟨S262144x128, .i32⟩ : BufTy).Contents (Elt F) → (⟨S262144x128, .i32⟩ : BufTy).Contents (Elt F)) ((broadcastInDim S262144x128 ![0, 1] bcast_S262144x1_S262144x128_0_1 : (⟨S262144x1, .i32⟩ : BufTy).Contents (Elt F) → (⟨S262144x128, .i32⟩ : BufTy).Contents (Elt F)) (extractStridedSlice S262144x1 ![0, 1] (W (Proc.devRef .tc main_v2 : DevRef τ sig)) slices_S262144x3_S262144x1_0_1 : (⟨S262144x1, .i32⟩ : BufTy).Contents (Elt F)) : (⟨S262144x128, .i32⟩ : BufTy).Contents (Elt F)) ((broadcastInDim S262144x128 ![0, 1] bcast_S1x128_S262144x128_0_1 : (⟨S1x128, .i32⟩ : BufTy).Contents (Elt F) → (⟨S262144x128, .i32⟩ : BufTy).Contents (Elt F)) ((broadcastInDim S1x128 ![1] bcast_S128_S1x128_1 : (⟨S128, .i32⟩ : BufTy).Contents (Elt F) → (⟨S1x128, .i32⟩ : BufTy).Contents (Elt F)) (W (Proc.devRef .tc main_c_0 : DevRef τ sig)) : (⟨S1x128, .i32⟩ : BufTy).Contents (Elt F)) : (⟨S262144x128, .i32⟩ : BufTy).Contents (Elt F)) : (⟨S262144x128, .i32⟩ : BufTy).Contents (Elt F)) := by
  unfold st4
  after_results <;> (try simp only [ofBuf_toBuf]) <;> rfl
theorem v_st4_c_6 : after st4 W (Proc.devRef .tc main_c_6 : DevRef τ sig)
    = ((constantI S_ 32 0#32) : (⟨S_, .i32⟩ : BufTy).Contents (Elt F)) := by
  unfold st4
  after_results <;> (try simp only [ofBuf_toBuf]) <;> rfl
theorem v_st4_c_7 : after st4 W (Proc.devRef .tc main_c_7 : DevRef τ sig)
    = ((constantI S_ 32 127#32) : (⟨S_, .i32⟩ : BufTy).Contents (Elt F)) := by
  unfold st4
  after_results <;> (try simp only [ofBuf_toBuf]) <;> rfl
theorem f_st4_c_0 : after st4 W (Proc.devRef .tc main_c_0 : DevRef τ sig) = W (Proc.devRef .tc main_c_0 : DevRef τ sig) := by
  unfold st4
  after_results
theorem f_st4_c : after st4 W (Proc.devRef .tc main_c : DevRef τ sig) = W (Proc.devRef .tc main_c : DevRef τ sig) := by
  unfold st4
  after_results
theorem f_st4_arg3 : after st4 W (Proc.devRef .tc main_arg3 : DevRef τ sig) = W (Proc.devRef .tc main_arg3 : DevRef τ sig) := by
  unfold st4
  after_results
theorem f_st4_arg1 : after st4 W (Proc.devRef .tc main_arg1 : DevRef τ sig) = W (Proc.devRef .tc main_arg1 : DevRef τ sig) := by
  unfold st4
  after_results
theorem f_st4_v0 : after st4 W (Proc.devRef .tc main_v0 : DevRef τ sig) = W (Proc.devRef .tc main_v0 : DevRef τ sig) := by
  unfold st4
  after_results
theorem f_st4_c_1 : after st4 W (Proc.devRef .tc main_c_1 : DevRef τ sig) = W (Proc.devRef .tc main_c_1 : DevRef τ sig) := by
  unfold st4
  after_results
theorem f_st4_v2 : after st4 W (Proc.devRef .tc main_v2 : DevRef τ sig) = W (Proc.devRef .tc main_v2 : DevRef τ sig) := by
  unfold st4
  after_results
theorem f_st4_v8 : after st4 W (Proc.devRef .tc main_v8 : DevRef τ sig) = W (Proc.devRef .tc main_v8 : DevRef τ sig) := by
  unfold st4
  after_results
theorem v_st5_v14 : after st5 W (Proc.devRef .tc main_v14 : DevRef τ sig)
    = (minsi ((broadcastInDim S262144x128 ![] bcast_S_S262144x128) (id (W (Proc.devRef .tc main_c_7 : DevRef τ sig)) : (⟨S_, .i32⟩ : BufTy).Contents (Elt F)) : (⟨S262144x128, .i32⟩ : BufTy).Contents (Elt F)) (maxsi ((broadcastInDim S262144x128 ![] bcast_S_S262144x128) (id (W (Proc.devRef .tc main_c_6 : DevRef τ sig)) : (⟨S_, .i32⟩ : BufTy).Contents (Elt F)) : (⟨S262144x128, .i32⟩ : BufTy).Contents (Elt F)) (W (Proc.devRef .tc main_v13 : DevRef τ sig)) : (⟨S262144x128, .i32⟩ : BufTy).Contents (Elt F)) : (⟨S262144x128, .i32⟩ : BufTy).Contents (Elt F)) := by
  unfold st5
  after_results <;> (try simp only [ofBuf_toBuf]) <;> rfl
theorem f_st5_c_0 : after st5 W (Proc.devRef .tc main_c_0 : DevRef τ sig) = W (Proc.devRef .tc main_c_0 : DevRef τ sig) := by
  unfold st5
  after_results
theorem f_st5_c : after st5 W (Proc.devRef .tc main_c : DevRef τ sig) = W (Proc.devRef .tc main_c : DevRef τ sig) := by
  unfold st5
  after_results
theorem f_st5_arg3 : after st5 W (Proc.devRef .tc main_arg3 : DevRef τ sig) = W (Proc.devRef .tc main_arg3 : DevRef τ sig) := by
  unfold st5
  after_results
theorem f_st5_arg1 : after st5 W (Proc.devRef .tc main_arg1 : DevRef τ sig) = W (Proc.devRef .tc main_arg1 : DevRef τ sig) := by
  unfold st5
  after_results
theorem f_st5_v0 : after st5 W (Proc.devRef .tc main_v0 : DevRef τ sig) = W (Proc.devRef .tc main_v0 : DevRef τ sig) := by
  unfold st5
  after_results
theorem f_st5_c_1 : after st5 W (Proc.devRef .tc main_c_1 : DevRef τ sig) = W (Proc.devRef .tc main_c_1 : DevRef τ sig) := by
  unfold st5
  after_results
theorem f_st5_v2 : after st5 W (Proc.devRef .tc main_v2 : DevRef τ sig) = W (Proc.devRef .tc main_v2 : DevRef τ sig) := by
  unfold st5
  after_results
theorem f_st5_v8 : after st5 W (Proc.devRef .tc main_v8 : DevRef τ sig) = W (Proc.devRef .tc main_v8 : DevRef τ sig) := by
  unfold st5
  after_results
theorem v_st6_v19 : after st6 W (Proc.devRef .tc main_v19 : DevRef τ sig)
    = ((addi : (⟨S262144x128, .i32⟩ : BufTy).Contents (Elt F) → (⟨S262144x128, .i32⟩ : BufTy).Contents (Elt F) → (⟨S262144x128, .i32⟩ : BufTy).Contents (Elt F)) ((broadcastInDim S262144x128 ![0, 1] bcast_S262144x1_S262144x128_0_1 : (⟨S262144x1, .i32⟩ : BufTy).Contents (Elt F) → (⟨S262144x128, .i32⟩ : BufTy).Contents (Elt F)) (extractStridedSlice S262144x1 ![0, 2] (W (Proc.devRef .tc main_v2 : DevRef τ sig)) slices_S262144x3_S262144x1_0_2 : (⟨S262144x1, .i32⟩ : BufTy).Contents (Elt F)) : (⟨S262144x128, .i32⟩ : BufTy).Contents (Elt F)) ((broadcastInDim S262144x128 ![0, 1] bcast_S1x128_S262144x128_0_1 : (⟨S1x128, .i32⟩ : BufTy).Contents (Elt F) → (⟨S262144x128, .i32⟩ : BufTy).Contents (Elt F)) ((broadcastInDim S1x128 ![1] bcast_S128_S1x128_1 : (⟨S128, .i32⟩ : BufTy).Contents (Elt F) → (⟨S1x128, .i32⟩ : BufTy).Contents (Elt F)) (W (Proc.devRef .tc main_c_1 : DevRef τ sig)) : (⟨S1x128, .i32⟩ : BufTy).Contents (Elt F)) : (⟨S262144x128, .i32⟩ : BufTy).Contents (Elt F)) : (⟨S262144x128, .i32⟩ : BufTy).Contents (Elt F)) := by
  unfold st6
  after_results <;> (try simp only [ofBuf_toBuf]) <;> rfl
theorem v_st6_c_8 : after st6 W (Proc.devRef .tc main_c_8 : DevRef τ sig)
    = ((constantI S_ 32 0#32) : (⟨S_, .i32⟩ : BufTy).Contents (Elt F)) := by
  unfold st6
  after_results <;> (try simp only [ofBuf_toBuf]) <;> rfl
theorem v_st6_c_9 : after st6 W (Proc.devRef .tc main_c_9 : DevRef τ sig)
    = ((constantI S_ 32 127#32) : (⟨S_, .i32⟩ : BufTy).Contents (Elt F)) := by
  unfold st6
  after_results <;> (try simp only [ofBuf_toBuf]) <;> rfl
theorem f_st6_c_1 : after st6 W (Proc.devRef .tc main_c_1 : DevRef τ sig) = W (Proc.devRef .tc main_c_1 : DevRef τ sig) := by
  unfold st6
  after_results
theorem f_st6_c_0 : after st6 W (Proc.devRef .tc main_c_0 : DevRef τ sig) = W (Proc.devRef .tc main_c_0 : DevRef τ sig) := by
  unfold st6
  after_results
theorem f_st6_c : after st6 W (Proc.devRef .tc main_c : DevRef τ sig) = W (Proc.devRef .tc main_c : DevRef τ sig) := by
  unfold st6
  after_results
theorem f_st6_arg3 : after st6 W (Proc.devRef .tc main_arg3 : DevRef τ sig) = W (Proc.devRef .tc main_arg3 : DevRef τ sig) := by
  unfold st6
  after_results
theorem f_st6_arg1 : after st6 W (Proc.devRef .tc main_arg1 : DevRef τ sig) = W (Proc.devRef .tc main_arg1 : DevRef τ sig) := by
  unfold st6
  after_results
theorem f_st6_v0 : after st6 W (Proc.devRef .tc main_v0 : DevRef τ sig) = W (Proc.devRef .tc main_v0 : DevRef τ sig) := by
  unfold st6
  after_results
theorem f_st6_v14 : after st6 W (Proc.devRef .tc main_v14 : DevRef τ sig) = W (Proc.devRef .tc main_v14 : DevRef τ sig) := by
  unfold st6
  after_results
theorem f_st6_v8 : after st6 W (Proc.devRef .tc main_v8 : DevRef τ sig) = W (Proc.devRef .tc main_v8 : DevRef τ sig) := by
  unfold st6
  after_results
theorem v_st7_v20 : after st7 W (Proc.devRef .tc main_v20 : DevRef τ sig)
    = (minsi ((broadcastInDim S262144x128 ![] bcast_S_S262144x128) (id (W (Proc.devRef .tc main_c_9 : DevRef τ sig)) : (⟨S_, .i32⟩ : BufTy).Contents (Elt F)) : (⟨S262144x128, .i32⟩ : BufTy).Contents (Elt F)) (maxsi ((broadcastInDim S262144x128 ![] bcast_S_S262144x128) (id (W (Proc.devRef .tc main_c_8 : DevRef τ sig)) : (⟨S_, .i32⟩ : BufTy).Contents (Elt F)) : (⟨S262144x128, .i32⟩ : BufTy).Contents (Elt F)) (W (Proc.devRef .tc main_v19 : DevRef τ sig)) : (⟨S262144x128, .i32⟩ : BufTy).Contents (Elt F)) : (⟨S262144x128, .i32⟩ : BufTy).Contents (Elt F)) := by
  unfold st7
  after_results <;> (try simp only [ofBuf_toBuf]) <;> rfl
theorem f_st7_c_1 : after st7 W (Proc.devRef .tc main_c_1 : DevRef τ sig) = W (Proc.devRef .tc main_c_1 : DevRef τ sig) := by
  unfold st7
  after_results
theorem f_st7_c_0 : after st7 W (Proc.devRef .tc main_c_0 : DevRef τ sig) = W (Proc.devRef .tc main_c_0 : DevRef τ sig) := by
  unfold st7
  after_results
theorem f_st7_c : after st7 W (Proc.devRef .tc main_c : DevRef τ sig) = W (Proc.devRef .tc main_c : DevRef τ sig) := by
  unfold st7
  after_results
theorem f_st7_arg3 : after st7 W (Proc.devRef .tc main_arg3 : DevRef τ sig) = W (Proc.devRef .tc main_arg3 : DevRef τ sig) := by
  unfold st7
  after_results
theorem f_st7_arg1 : after st7 W (Proc.devRef .tc main_arg1 : DevRef τ sig) = W (Proc.devRef .tc main_arg1 : DevRef τ sig) := by
  unfold st7
  after_results
theorem f_st7_v0 : after st7 W (Proc.devRef .tc main_v0 : DevRef τ sig) = W (Proc.devRef .tc main_v0 : DevRef τ sig) := by
  unfold st7
  after_results
theorem f_st7_v14 : after st7 W (Proc.devRef .tc main_v14 : DevRef τ sig) = W (Proc.devRef .tc main_v14 : DevRef τ sig) := by
  unfold st7
  after_results
theorem f_st7_v8 : after st7 W (Proc.devRef .tc main_v8 : DevRef τ sig) = W (Proc.devRef .tc main_v8 : DevRef τ sig) := by
  unfold st7
  after_results
theorem v_st8_v26 : after st8 W (Proc.devRef .tc main_v26 : DevRef τ sig)
    = ((addi : (⟨S262144x128, .i32⟩ : BufTy).Contents (Elt F) → (⟨S262144x128, .i32⟩ : BufTy).Contents (Elt F) → (⟨S262144x128, .i32⟩ : BufTy).Contents (Elt F)) ((addi : (⟨S262144x128, .i32⟩ : BufTy).Contents (Elt F) → (⟨S262144x128, .i32⟩ : BufTy).Contents (Elt F) → (⟨S262144x128, .i32⟩ : BufTy).Contents (Elt F)) ((muli : (⟨S262144x128, .i32⟩ : BufTy).Contents (Elt F) → (⟨S262144x128, .i32⟩ : BufTy).Contents (Elt F) → (⟨S262144x128, .i32⟩ : BufTy).Contents (Elt F)) (W (Proc.devRef .tc main_v8 : DevRef τ sig)) ((broadcastInDim S262144x128 ![] bcast_S_S262144x128 : (⟨S_, .i32⟩ : BufTy).Contents (Elt F) → (⟨S262144x128, .i32⟩ : BufTy).Contents (Elt F)) ((constantI S_ 32 16384#32) : (⟨S_, .i32⟩ : BufTy).Contents (Elt F)) : (⟨S262144x128, .i32⟩ : BufTy).Contents (Elt F)) : (⟨S262144x128, .i32⟩ : BufTy).Contents (Elt F)) ((muli : (⟨S262144x128, .i32⟩ : BufTy).Contents (Elt F) → (⟨S262144x128, .i32⟩ : BufTy).Contents (Elt F) → (⟨S262144x128, .i32⟩ : BufTy).Contents (Elt F)) (W (Proc.devRef .tc main_v14 : DevRef τ sig)) ((broadcastInDim S262144x128 ![] bcast_S_S262144x128 : (⟨S_, .i32⟩ : BufTy).Contents (Elt F) → (⟨S262144x128, .i32⟩ : BufTy).Contents (Elt F)) ((constantI S_ 32 128#32) : (⟨S_, .i32⟩ : BufTy).Contents (Elt F)) : (⟨S262144x128, .i32⟩ : BufTy).Contents (Elt F)) : (⟨S262144x128, .i32⟩ : BufTy).Contents (Elt F)) : (⟨S262144x128, .i32⟩ : BufTy).Contents (Elt F)) (W (Proc.devRef .tc main_v20 : DevRef τ sig)) : (⟨S262144x128, .i32⟩ : BufTy).Contents (Elt F)) := by
  unfold st8
  after_results <;> (try simp only [ofBuf_toBuf]) <;> rfl
theorem f_st8_c_1 : after st8 W (Proc.devRef .tc main_c_1 : DevRef τ sig) = W (Proc.devRef .tc main_c_1 : DevRef τ sig) := by
  unfold st8
  after_results
theorem f_st8_c_0 : after st8 W (Proc.devRef .tc main_c_0 : DevRef τ sig) = W (Proc.devRef .tc main_c_0 : DevRef τ sig) := by
  unfold st8
  after_results
theorem f_st8_c : after st8 W (Proc.devRef .tc main_c : DevRef τ sig) = W (Proc.devRef .tc main_c : DevRef τ sig) := by
  unfold st8
  after_results
theorem f_st8_arg3 : after st8 W (Proc.devRef .tc main_arg3 : DevRef τ sig) = W (Proc.devRef .tc main_arg3 : DevRef τ sig) := by
  unfold st8
  after_results
theorem f_st8_arg1 : after st8 W (Proc.devRef .tc main_arg1 : DevRef τ sig) = W (Proc.devRef .tc main_arg1 : DevRef τ sig) := by
  unfold st8
  after_results
theorem f_st8_v0 : after st8 W (Proc.devRef .tc main_v0 : DevRef τ sig) = W (Proc.devRef .tc main_v0 : DevRef τ sig) := by
  unfold st8
  after_results
theorem v_st9a_call4_v5 : after st9a W (Proc.devRef .tc main_call4_v5 : DevRef τ sig) = E_st9a_call4_v5 (W (Proc.devRef .tc main_v26 : DevRef τ sig)) := by
  unfold st9a E_st9a_call4_v5
  after_results <;> (try simp only [ofBuf_toBuf]) <;> rfl
theorem f_st9a_c_1 : after st9a W (Proc.devRef .tc main_c_1 : DevRef τ sig) = W (Proc.devRef .tc main_c_1 : DevRef τ sig) := by
  unfold st9a
  after_results
theorem f_st9a_c_0 : after st9a W (Proc.devRef .tc main_c_0 : DevRef τ sig) = W (Proc.devRef .tc main_c_0 : DevRef τ sig) := by
  unfold st9a
  after_results
theorem f_st9a_c : after st9a W (Proc.devRef .tc main_c : DevRef τ sig) = W (Proc.devRef .tc main_c : DevRef τ sig) := by
  unfold st9a
  after_results
theorem f_st9a_arg3 : after st9a W (Proc.devRef .tc main_arg3 : DevRef τ sig) = W (Proc.devRef .tc main_arg3 : DevRef τ sig) := by
  unfold st9a
  after_results
theorem f_st9a_arg1 : after st9a W (Proc.devRef .tc main_arg1 : DevRef τ sig) = W (Proc.devRef .tc main_arg1 : DevRef τ sig) := by
  unfold st9a
  after_results
theorem f_st9a_v0 : after st9a W (Proc.devRef .tc main_v0 : DevRef τ sig) = W (Proc.devRef .tc main_v0 : DevRef τ sig) := by
  unfold st9a
  after_results
theorem v_st9b_call4_v12 : after st9b W (Proc.devRef .tc main_call4_v12 : DevRef τ sig) = E_st9b_call4_v12 (W (Proc.devRef .tc main_call4_v5 : DevRef τ sig)) := by
  unfold st9b E_st9b_call4_v12
  after_results
  simp only [TRef.toBuf, TRef.ofBuf, cast_eq]
theorem f_st9b_c_1 : after st9b W (Proc.devRef .tc main_c_1 : DevRef τ sig) = W (Proc.devRef .tc main_c_1 : DevRef τ sig) := by
  unfold st9b
  after_results
theorem f_st9b_c_0 : after st9b W (Proc.devRef .tc main_c_0 : DevRef τ sig) = W (Proc.devRef .tc main_c_0 : DevRef τ sig) := by
  unfold st9b
  after_results
theorem f_st9b_c : after st9b W (Proc.devRef .tc main_c : DevRef τ sig) = W (Proc.devRef .tc main_c : DevRef τ sig) := by
  unfold st9b
  after_results
theorem f_st9b_arg3 : after st9b W (Proc.devRef .tc main_arg3 : DevRef τ sig) = W (Proc.devRef .tc main_arg3 : DevRef τ sig) := by
  unfold st9b
  after_results
theorem f_st9b_arg1 : after st9b W (Proc.devRef .tc main_arg1 : DevRef τ sig) = W (Proc.devRef .tc main_arg1 : DevRef τ sig) := by
  unfold st9b
  after_results
theorem f_st9b_call4_v5 : after st9b W (Proc.devRef .tc main_call4_v5 : DevRef τ sig) = W (Proc.devRef .tc main_call4_v5 : DevRef τ sig) := by
  unfold st9b
  after_results
theorem f_st9b_v0 : after st9b W (Proc.devRef .tc main_v0 : DevRef τ sig) = W (Proc.devRef .tc main_v0 : DevRef τ sig) := by
  unfold st9b
  after_results
theorem v_st9c_call4_v13 : after st9c W (Proc.devRef .tc main_call4_v13 : DevRef τ sig)
    = ((fun x i => Host.gather gather_S2097152_S262144x128x1_S262144x128_n_0_n_n_0_2_1 x i) (W (Proc.devRef .tc main_v0 : DevRef τ sig)) (W (Proc.devRef .tc main_call4_v5 : DevRef τ sig)) : (⟨S262144x128, .f32⟩ : BufTy).Contents (Elt F)) := by
  unfold st9c
  after_results <;> (try simp only [ofBuf_toBuf]) <;> rfl
theorem f_st9c_v0 : after st9c W (Proc.devRef .tc main_v0 : DevRef τ sig) = W (Proc.devRef .tc main_v0 : DevRef τ sig) := by
  unfold st9c
  after_results
theorem f_st9c_c_1 : after st9c W (Proc.devRef .tc main_c_1 : DevRef τ sig) = W (Proc.devRef .tc main_c_1 : DevRef τ sig) := by
  unfold st9c
  after_results
theorem f_st9c_c_0 : after st9c W (Proc.devRef .tc main_c_0 : DevRef τ sig) = W (Proc.devRef .tc main_c_0 : DevRef τ sig) := by
  unfold st9c
  after_results
theorem f_st9c_c : after st9c W (Proc.devRef .tc main_c : DevRef τ sig) = W (Proc.devRef .tc main_c : DevRef τ sig) := by
  unfold st9c
  after_results
theorem f_st9c_arg3 : after st9c W (Proc.devRef .tc main_arg3 : DevRef τ sig) = W (Proc.devRef .tc main_arg3 : DevRef τ sig) := by
  unfold st9c
  after_results
theorem f_st9c_arg1 : after st9c W (Proc.devRef .tc main_arg1 : DevRef τ sig) = W (Proc.devRef .tc main_arg1 : DevRef τ sig) := by
  unfold st9c
  after_results
theorem f_st9c_call4_v12 : after st9c W (Proc.devRef .tc main_call4_v12 : DevRef τ sig) = W (Proc.devRef .tc main_call4_v12 : DevRef τ sig) := by
  unfold st9c
  after_results
theorem v_st9d_v27 : after st9d W (Proc.devRef .tc main_v27 : DevRef τ sig)
    = (select (W (Proc.devRef .tc main_call4_v12 : DevRef τ sig)) (W (Proc.devRef .tc main_call4_v13 : DevRef τ sig)) ((broadcastInDim S262144x128 ![] bcast_S_S262144x128) ((constant S_ .f32 0x7FC00000#32) : (⟨S_, .f32⟩ : BufTy).Contents (Elt F)) : (⟨S262144x128, .f32⟩ : BufTy).Contents (Elt F)) : (⟨S262144x128, .f32⟩ : BufTy).Contents (Elt F)) := by
  unfold st9d
  after_results <;> (try simp only [ofBuf_toBuf]) <;> rfl
theorem f_st9d_v0 : after st9d W (Proc.devRef .tc main_v0 : DevRef τ sig) = W (Proc.devRef .tc main_v0 : DevRef τ sig) := by
  unfold st9d
  after_results
theorem f_st9d_c_1 : after st9d W (Proc.devRef .tc main_c_1 : DevRef τ sig) = W (Proc.devRef .tc main_c_1 : DevRef τ sig) := by
  unfold st9d
  after_results
theorem f_st9d_c_0 : after st9d W (Proc.devRef .tc main_c_0 : DevRef τ sig) = W (Proc.devRef .tc main_c_0 : DevRef τ sig) := by
  unfold st9d
  after_results
theorem f_st9d_c : after st9d W (Proc.devRef .tc main_c : DevRef τ sig) = W (Proc.devRef .tc main_c : DevRef τ sig) := by
  unfold st9d
  after_results
theorem f_st9d_arg3 : after st9d W (Proc.devRef .tc main_arg3 : DevRef τ sig) = W (Proc.devRef .tc main_arg3 : DevRef τ sig) := by
  unfold st9d
  after_results
theorem f_st9d_arg1 : after st9d W (Proc.devRef .tc main_arg1 : DevRef τ sig) = W (Proc.devRef .tc main_arg1 : DevRef τ sig) := by
  unfold st9d
  after_results
theorem v_st10_v29 : after st10 W (Proc.devRef .tc main_v29 : DevRef τ sig)
    = ((fptosi 32 : (⟨S262144x3, .f32⟩ : BufTy).Contents (Elt F) → (⟨S262144x3, .i32⟩ : BufTy).Contents (Elt F)) ((addf : (⟨S262144x3, .f32⟩ : BufTy).Contents (Elt F) → (⟨S262144x3, .f32⟩ : BufTy).Contents (Elt F) → (⟨S262144x3, .f32⟩ : BufTy).Contents (Elt F)) (W (Proc.devRef .tc main_arg1 : DevRef τ sig)) (W (Proc.devRef .tc main_arg3 : DevRef τ sig)) : (⟨S262144x3, .f32⟩ : BufTy).Contents (Elt F)) : (⟨S262144x3, .i32⟩ : BufTy).Contents (Elt F)) := by
  unfold st10
  after_results <;> (try simp only [ofBuf_toBuf]) <;> rfl
theorem v_st10_c_12 : after st10 W (Proc.devRef .tc main_c_12 : DevRef τ sig)
    = ((constantI S_ 32 0#32) : (⟨S_, .i32⟩ : BufTy).Contents (Elt F)) := by
  unfold st10
  after_results <;> (try simp only [ofBuf_toBuf]) <;> rfl
theorem v_st10_c_13 : after st10 W (Proc.devRef .tc main_c_13 : DevRef τ sig)
    = ((constantI S_ 32 127#32) : (⟨S_, .i32⟩ : BufTy).Contents (Elt F)) := by
  unfold st10
  after_results <;> (try simp only [ofBuf_toBuf]) <;> rfl
theorem f_st10_v0 : after st10 W (Proc.devRef .tc main_v0 : DevRef τ sig) = W (Proc.devRef .tc main_v0 : DevRef τ sig) := by
  unfold st10
  after_results
theorem f_st10_c_1 : after st10 W (Proc.devRef .tc main_c_1 : DevRef τ sig) = W (Proc.devRef .tc main_c_1 : DevRef τ sig) := by
  unfold st10
  after_results
theorem f_st10_c_0 : after st10 W (Proc.devRef .tc main_c_0 : DevRef τ sig) = W (Proc.devRef .tc main_c_0 : DevRef τ sig) := by
  unfold st10
  after_results
theorem f_st10_c : after st10 W (Proc.devRef .tc main_c : DevRef τ sig) = W (Proc.devRef .tc main_c : DevRef τ sig) := by
  unfold st10
  after_results
theorem f_st10_v27 : after st10 W (Proc.devRef .tc main_v27 : DevRef τ sig) = W (Proc.devRef .tc main_v27 : DevRef τ sig) := by
  unfold st10
  after_results
theorem v_st11_v30 : after st11 W (Proc.devRef .tc main_v30 : DevRef τ sig)
    = (minsi ((broadcastInDim S262144x3 ![] bcast_S_S262144x3) (id (W (Proc.devRef .tc main_c_13 : DevRef τ sig)) : (⟨S_, .i32⟩ : BufTy).Contents (Elt F)) : (⟨S262144x3, .i32⟩ : BufTy).Contents (Elt F)) (maxsi ((broadcastInDim S262144x3 ![] bcast_S_S262144x3) (id (W (Proc.devRef .tc main_c_12 : DevRef τ sig)) : (⟨S_, .i32⟩ : BufTy).Contents (Elt F)) : (⟨S262144x3, .i32⟩ : BufTy).Contents (Elt F)) (W (Proc.devRef .tc main_v29 : DevRef τ sig)) : (⟨S262144x3, .i32⟩ : BufTy).Contents (Elt F)) : (⟨S262144x3, .i32⟩ : BufTy).Contents (Elt F)) := by
  unfold st11
  after_results <;> (try simp only [ofBuf_toBuf]) <;> rfl
theorem f_st11_v0 : after st11 W (Proc.devRef .tc main_v0 : DevRef τ sig) = W (Proc.devRef .tc main_v0 : DevRef τ sig) := by
  unfold st11
  after_results
theorem f_st11_c_1 : after st11 W (Proc.devRef .tc main_c_1 : DevRef τ sig) = W (Proc.devRef .tc main_c_1 : DevRef τ sig) := by
  unfold st11
  after_results
theorem f_st11_c_0 : after st11 W (Proc.devRef .tc main_c_0 : DevRef τ sig) = W (Proc.devRef .tc main_c_0 : DevRef τ sig) := by
  unfold st11
  after_results
theorem f_st11_c : after st11 W (Proc.devRef .tc main_c : DevRef τ sig) = W (Proc.devRef .tc main_c : DevRef τ sig) := by
  unfold st11
  after_results
theorem f_st11_v27 : after st11 W (Proc.devRef .tc main_v27 : DevRef τ sig) = W (Proc.devRef .tc main_v27 : DevRef τ sig) := by
  unfold st11
  after_results
theorem v_st12_v35 : after st12 W (Proc.devRef .tc main_v35 : DevRef τ sig)
    = ((addi : (⟨S262144x128, .i32⟩ : BufTy).Contents (Elt F) → (⟨S262144x128, .i32⟩ : BufTy).Contents (Elt F) → (⟨S262144x128, .i32⟩ : BufTy).Contents (Elt F)) ((broadcastInDim S262144x128 ![0, 1] bcast_S262144x1_S262144x128_0_1 : (⟨S262144x1, .i32⟩ : BufTy).Contents (Elt F) → (⟨S262144x128, .i32⟩ : BufTy).Contents (Elt F)) (extractStridedSlice S262144x1 ![0, 0] (W (Proc.devRef .tc main_v30 : DevRef τ sig)) slices_S262144x3_S262144x1_0_0 : (⟨S262144x1, .i32⟩ : BufTy).Contents (Elt F)) : (⟨S262144x128, .i32⟩ : BufTy).Contents (Elt F)) ((broadcastInDim S262144x128 ![0, 1] bcast_S1x128_S262144x128_0_1 : (⟨S1x128, .i32⟩ : BufTy).Contents (Elt F) → (⟨S262144x128, .i32⟩ : BufTy).Contents (Elt F)) ((broadcastInDim S1x128 ![1] bcast_S128_S1x128_1 : (⟨S128, .i32⟩ : BufTy).Contents (Elt F) → (⟨S1x128, .i32⟩ : BufTy).Contents (Elt F)) (W (Proc.devRef .tc main_c : DevRef τ sig)) : (⟨S1x128, .i32⟩ : BufTy).Contents (Elt F)) : (⟨S262144x128, .i32⟩ : BufTy).Contents (Elt F)) : (⟨S262144x128, .i32⟩ : BufTy).Contents (Elt F)) := by
  unfold st12
  after_results <;> (try simp only [ofBuf_toBuf]) <;> rfl
theorem v_st12_c_14 : after st12 W (Proc.devRef .tc main_c_14 : DevRef τ sig)
    = ((constantI S_ 32 0#32) : (⟨S_, .i32⟩ : BufTy).Contents (Elt F)) := by
  unfold st12
  after_results <;> (try simp only [ofBuf_toBuf]) <;> rfl
theorem v_st12_c_15 : after st12 W (Proc.devRef .tc main_c_15 : DevRef τ sig)
    = ((constantI S_ 32 127#32) : (⟨S_, .i32⟩ : BufTy).Contents (Elt F)) := by
  unfold st12
  after_results <;> (try simp only [ofBuf_toBuf]) <;> rfl
theorem f_st12_v0 : after st12 W (Proc.devRef .tc main_v0 : DevRef τ sig) = W (Proc.devRef .tc main_v0 : DevRef τ sig) := by
  unfold st12
  after_results
theorem f_st12_c_1 : after st12 W (Proc.devRef .tc main_c_1 : DevRef τ sig) = W (Proc.devRef .tc main_c_1 : DevRef τ sig) := by
  unfold st12
  after_results
theorem f_st12_c_0 : after st12 W (Proc.devRef .tc main_c_0 : DevRef τ sig) = W (Proc.devRef .tc main_c_0 : DevRef τ sig) := by
  unfold st12
  after_results
theorem f_st12_v30 : after st12 W (Proc.devRef .tc main_v30 : DevRef τ sig) = W (Proc.devRef .tc main_v30 : DevRef τ sig) := by
  unfold st12
  after_results
theorem f_st12_v27 : after st12 W (Proc.devRef .tc main_v27 : DevRef τ sig) = W (Proc.devRef .tc main_v27 : DevRef τ sig) := by
  unfold st12
  after_results
theorem v_st13_v36 : after st13 W (Proc.devRef .tc main_v36 : DevRef τ sig)
    = (minsi ((broadcastInDim S262144x128 ![] bcast_S_S262144x128) (id (W (Proc.devRef .tc main_c_15 : DevRef τ sig)) : (⟨S_, .i32⟩ : BufTy).Contents (Elt F)) : (⟨S262144x128, .i32⟩ : BufTy).Contents (Elt F)) (maxsi ((broadcastInDim S262144x128 ![] bcast_S_S262144x128) (id (W (Proc.devRef .tc main_c_14 : DevRef τ sig)) : (⟨S_, .i32⟩ : BufTy).Contents (Elt F)) : (⟨S262144x128, .i32⟩ : BufTy).Contents (Elt F)) (W (Proc.devRef .tc main_v35 : DevRef τ sig)) : (⟨S262144x128, .i32⟩ : BufTy).Contents (Elt F)) : (⟨S262144x128, .i32⟩ : BufTy).Contents (Elt F)) := by
  unfold st13
  after_results <;> (try simp only [ofBuf_toBuf]) <;> rfl
theorem f_st13_v0 : after st13 W (Proc.devRef .tc main_v0 : DevRef τ sig) = W (Proc.devRef .tc main_v0 : DevRef τ sig) := by
  unfold st13
  after_results
theorem f_st13_c_1 : after st13 W (Proc.devRef .tc main_c_1 : DevRef τ sig) = W (Proc.devRef .tc main_c_1 : DevRef τ sig) := by
  unfold st13
  after_results
theorem f_st13_c_0 : after st13 W (Proc.devRef .tc main_c_0 : DevRef τ sig) = W (Proc.devRef .tc main_c_0 : DevRef τ sig) := by
  unfold st13
  after_results
theorem f_st13_v30 : after st13 W (Proc.devRef .tc main_v30 : DevRef τ sig) = W (Proc.devRef .tc main_v30 : DevRef τ sig) := by
  unfold st13
  after_results
theorem f_st13_v27 : after st13 W (Proc.devRef .tc main_v27 : DevRef τ sig) = W (Proc.devRef .tc main_v27 : DevRef τ sig) := by
  unfold st13
  after_results
theorem v_st14_v41 : after st14 W (Proc.devRef .tc main_v41 : DevRef τ sig)
    = ((addi : (⟨S262144x128, .i32⟩ : BufTy).Contents (Elt F) → (⟨S262144x128, .i32⟩ : BufTy).Contents (Elt F) → (⟨S262144x128, .i32⟩ : BufTy).Contents (Elt F)) ((broadcastInDim S262144x128 ![0, 1] bcast_S262144x1_S262144x128_0_1 : (⟨S262144x1, .i32⟩ : BufTy).Contents (Elt F) → (⟨S262144x128, .i32⟩ : BufTy).Contents (Elt F)) (extractStridedSlice S262144x1 ![0, 1] (W (Proc.devRef .tc main_v30 : DevRef τ sig)) slices_S262144x3_S262144x1_0_1 : (⟨S262144x1, .i32⟩ : BufTy).Contents (Elt F)) : (⟨S262144x128, .i32⟩ : BufTy).Contents (Elt F)) ((broadcastInDim S262144x128 ![0, 1] bcast_S1x128_S262144x128_0_1 : (⟨S1x128, .i32⟩ : BufTy).Contents (Elt F) → (⟨S262144x128, .i32⟩ : BufTy).Contents (Elt F)) ((broadcastInDim S1x128 ![1] bcast_S128_S1x128_1 : (⟨S128, .i32⟩ : BufTy).Contents (Elt F) → (⟨S1x128, .i32⟩ : BufTy).Contents (Elt F)) (W (Proc.devRef .tc main_c_0 : DevRef τ sig)) : (⟨S1x128, .i32⟩ : BufTy).Contents (Elt F)) : (⟨S262144x128, .i32⟩ : BufTy).Contents (Elt F)) : (⟨S262144x128, .i32⟩ : BufTy).Contents (Elt F)) := by
  unfold st14
  after_results <;> (try simp only [ofBuf_toBuf]) <;> rfl
theorem v_st14_c_16 : after st14 W (Proc.devRef .tc main_c_16 : DevRef τ sig)
    = ((constantI S_ 32 0#32) : (⟨S_, .i32⟩ : BufTy).Contents (Elt F)) := by
  unfold st14
  after_results <;> (try simp only [ofBuf_toBuf]) <;> rfl
theorem v_st14_c_17 : after st14 W (Proc.devRef .tc main_c_17 : DevRef τ sig)
    = ((constantI S_ 32 127#32) : (⟨S_, .i32⟩ : BufTy).Contents (Elt F)) := by
  unfold st14
  after_results <;> (try simp only [ofBuf_toBuf]) <;> rfl
theorem f_st14_v0 : after st14 W (Proc.devRef .tc main_v0 : DevRef τ sig) = W (Proc.devRef .tc main_v0 : DevRef τ sig) := by
  unfold st14
  after_results
theorem f_st14_c_1 : after st14 W (Proc.devRef .tc main_c_1 : DevRef τ sig) = W (Proc.devRef .tc main_c_1 : DevRef τ sig) := by
  unfold st14
  after_results
theorem f_st14_v30 : after st14 W (Proc.devRef .tc main_v30 : DevRef τ sig) = W (Proc.devRef .tc main_v30 : DevRef τ sig) := by
  unfold st14
  after_results
theorem f_st14_v36 : after st14 W (Proc.devRef .tc main_v36 : DevRef τ sig) = W (Proc.devRef .tc main_v36 : DevRef τ sig) := by
  unfold st14
  after_results
theorem f_st14_v27 : after st14 W (Proc.devRef .tc main_v27 : DevRef τ sig) = W (Proc.devRef .tc main_v27 : DevRef τ sig) := by
  unfold st14
  after_results
theorem v_st15_v42 : after st15 W (Proc.devRef .tc main_v42 : DevRef τ sig)
    = (minsi ((broadcastInDim S262144x128 ![] bcast_S_S262144x128) (id (W (Proc.devRef .tc main_c_17 : DevRef τ sig)) : (⟨S_, .i32⟩ : BufTy).Contents (Elt F)) : (⟨S262144x128, .i32⟩ : BufTy).Contents (Elt F)) (maxsi ((broadcastInDim S262144x128 ![] bcast_S_S262144x128) (id (W (Proc.devRef .tc main_c_16 : DevRef τ sig)) : (⟨S_, .i32⟩ : BufTy).Contents (Elt F)) : (⟨S262144x128, .i32⟩ : BufTy).Contents (Elt F)) (W (Proc.devRef .tc main_v41 : DevRef τ sig)) : (⟨S262144x128, .i32⟩ : BufTy).Contents (Elt F)) : (⟨S262144x128, .i32⟩ : BufTy).Contents (Elt F)) := by
  unfold st15
  after_results <;> (try simp only [ofBuf_toBuf]) <;> rfl
theorem f_st15_v0 : after st15 W (Proc.devRef .tc main_v0 : DevRef τ sig) = W (Proc.devRef .tc main_v0 : DevRef τ sig) := by
  unfold st15
  after_results
theorem f_st15_c_1 : after st15 W (Proc.devRef .tc main_c_1 : DevRef τ sig) = W (Proc.devRef .tc main_c_1 : DevRef τ sig) := by
  unfold st15
  after_results
theorem f_st15_v30 : after st15 W (Proc.devRef .tc main_v30 : DevRef τ sig) = W (Proc.devRef .tc main_v30 : DevRef τ sig) := by
  unfold st15
  after_results
theorem f_st15_v36 : after st15 W (Proc.devRef .tc main_v36 : DevRef τ sig) = W (Proc.devRef .tc main_v36 : DevRef τ sig) := by
  unfold st15
  after_results
theorem f_st15_v27 : after st15 W (Proc.devRef .tc main_v27 : DevRef τ sig) = W (Proc.devRef .tc main_v27 : DevRef τ sig) := by
  unfold st15
  after_results
theorem v_st16_v47 : after st16 W (Proc.devRef .tc main_v47 : DevRef τ sig)
    = ((addi : (⟨S262144x128, .i32⟩ : BufTy).Contents (Elt F) → (⟨S262144x128, .i32⟩ : BufTy).Contents (Elt F) → (⟨S262144x128, .i32⟩ : BufTy).Contents (Elt F)) ((broadcastInDim S262144x128 ![0, 1] bcast_S262144x1_S262144x128_0_1 : (⟨S262144x1, .i32⟩ : BufTy).Contents (Elt F) → (⟨S262144x128, .i32⟩ : BufTy).Contents (Elt F)) (extractStridedSlice S262144x1 ![0, 2] (W (Proc.devRef .tc main_v30 : DevRef τ sig)) slices_S262144x3_S262144x1_0_2 : (⟨S262144x1, .i32⟩ : BufTy).Contents (Elt F)) : (⟨S262144x128, .i32⟩ : BufTy).Contents (Elt F)) ((broadcastInDim S262144x128 ![0, 1] bcast_S1x128_S262144x128_0_1 : (⟨S1x128, .i32⟩ : BufTy).Contents (Elt F) → (⟨S262144x128, .i32⟩ : BufTy).Contents (Elt F)) ((broadcastInDim S1x128 ![1] bcast_S128_S1x128_1 : (⟨S128, .i32⟩ : BufTy).Contents (Elt F) → (⟨S1x128, .i32⟩ : BufTy).Contents (Elt F)) (W (Proc.devRef .tc main_c_1 : DevRef τ sig)) : (⟨S1x128, .i32⟩ : BufTy).Contents (Elt F)) : (⟨S262144x128, .i32⟩ : BufTy).Contents (Elt F)) : (⟨S262144x128, .i32⟩ : BufTy).Contents (Elt F)) := by
  unfold st16
  after_results <;> (try simp only [ofBuf_toBuf]) <;> rfl
theorem v_st16_c_18 : after st16 W (Proc.devRef .tc main_c_18 : DevRef τ sig)
    = ((constantI S_ 32 0#32) : (⟨S_, .i32⟩ : BufTy).Contents (Elt F)) := by
  unfold st16
  after_results <;> (try simp only [ofBuf_toBuf]) <;> rfl
theorem v_st16_c_19 : after st16 W (Proc.devRef .tc main_c_19 : DevRef τ sig)
    = ((constantI S_ 32 127#32) : (⟨S_, .i32⟩ : BufTy).Contents (Elt F)) := by
  unfold st16
  after_results <;> (try simp only [ofBuf_toBuf]) <;> rfl
theorem f_st16_v0 : after st16 W (Proc.devRef .tc main_v0 : DevRef τ sig) = W (Proc.devRef .tc main_v0 : DevRef τ sig) := by
  unfold st16
  after_results
theorem f_st16_v42 : after st16 W (Proc.devRef .tc main_v42 : DevRef τ sig) = W (Proc.devRef .tc main_v42 : DevRef τ sig) := by
  unfold st16
  after_results
theorem f_st16_v36 : after st16 W (Proc.devRef .tc main_v36 : DevRef τ sig) = W (Proc.devRef .tc main_v36 : DevRef τ sig) := by
  unfold st16
  after_results
theorem f_st16_v27 : after st16 W (Proc.devRef .tc main_v27 : DevRef τ sig) = W (Proc.devRef .tc main_v27 : DevRef τ sig) := by
  unfold st16
  after_results
theorem v_st17_v48 : after st17 W (Proc.devRef .tc main_v48 : DevRef τ sig)
    = (minsi ((broadcastInDim S262144x128 ![] bcast_S_S262144x128) (id (W (Proc.devRef .tc main_c_19 : DevRef τ sig)) : (⟨S_, .i32⟩ : BufTy).Contents (Elt F)) : (⟨S262144x128, .i32⟩ : BufTy).Contents (Elt F)) (maxsi ((broadcastInDim S262144x128 ![] bcast_S_S262144x128) (id (W (Proc.devRef .tc main_c_18 : DevRef τ sig)) : (⟨S_, .i32⟩ : BufTy).Contents (Elt F)) : (⟨S262144x128, .i32⟩ : BufTy).Contents (Elt F)) (W (Proc.devRef .tc main_v47 : DevRef τ sig)) : (⟨S262144x128, .i32⟩ : BufTy).Contents (Elt F)) : (⟨S262144x128, .i32⟩ : BufTy).Contents (Elt F)) := by
  unfold st17
  after_results <;> (try simp only [ofBuf_toBuf]) <;> rfl
theorem f_st17_v0 : after st17 W (Proc.devRef .tc main_v0 : DevRef τ sig) = W (Proc.devRef .tc main_v0 : DevRef τ sig) := by
  unfold st17
  after_results
theorem f_st17_v42 : after st17 W (Proc.devRef .tc main_v42 : DevRef τ sig) = W (Proc.devRef .tc main_v42 : DevRef τ sig) := by
  unfold st17
  after_results
theorem f_st17_v36 : after st17 W (Proc.devRef .tc main_v36 : DevRef τ sig) = W (Proc.devRef .tc main_v36 : DevRef τ sig) := by
  unfold st17
  after_results
theorem f_st17_v27 : after st17 W (Proc.devRef .tc main_v27 : DevRef τ sig) = W (Proc.devRef .tc main_v27 : DevRef τ sig) := by
  unfold st17
  after_results
theorem v_st18_v54 : after st18 W (Proc.devRef .tc main_v54 : DevRef τ sig)
    = ((addi : (⟨S262144x128, .i32⟩ : BufTy).Contents (Elt F) → (⟨S262144x128, .i32⟩ : BufTy).Contents (Elt F) → (⟨S262144x128, .i32⟩ : BufTy).Contents (Elt F)) ((addi : (⟨S262144x128, .i32⟩ : BufTy).Contents (Elt F) → (⟨S262144x128, .i32⟩ : BufTy).Contents (Elt F) → (⟨S262144x128, .i32⟩ : BufTy).Contents (Elt F)) ((muli : (⟨S262144x128, .i32⟩ : BufTy).Contents (Elt F) → (⟨S262144x128, .i32⟩ : BufTy).Contents (Elt F) → (⟨S262144x128, .i32⟩ : BufTy).Contents (Elt F)) (W (Proc.devRef .tc main_v36 : DevRef τ sig)) ((broadcastInDim S262144x128 ![] bcast_S_S262144x128 : (⟨S_, .i32⟩ : BufTy).Contents (Elt F) → (⟨S262144x128, .i32⟩ : BufTy).Contents (Elt F)) ((constantI S_ 32 16384#32) : (⟨S_, .i32⟩ : BufTy).Contents (Elt F)) : (⟨S262144x128, .i32⟩ : BufTy).Contents (Elt F)) : (⟨S262144x128, .i32⟩ : BufTy).Contents (Elt F)) ((muli : (⟨S262144x128, .i32⟩ : BufTy).Contents (Elt F) → (⟨S262144x128, .i32⟩ : BufTy).Contents (Elt F) → (⟨S262144x128, .i32⟩ : BufTy).Contents (Elt F)) (W (Proc.devRef .tc main_v42 : DevRef τ sig)) ((broadcastInDim S262144x128 ![] bcast_S_S262144x128 : (⟨S_, .i32⟩ : BufTy).Contents (Elt F) → (⟨S262144x128, .i32⟩ : BufTy).Contents (Elt F)) ((constantI S_ 32 128#32) : (⟨S_, .i32⟩ : BufTy).Contents (Elt F)) : (⟨S262144x128, .i32⟩ : BufTy).Contents (Elt F)) : (⟨S262144x128, .i32⟩ : BufTy).Contents (Elt F)) : (⟨S262144x128, .i32⟩ : BufTy).Contents (Elt F)) (W (Proc.devRef .tc main_v48 : DevRef τ sig)) : (⟨S262144x128, .i32⟩ : BufTy).Contents (Elt F)) := by
  unfold st18
  after_results <;> (try simp only [ofBuf_toBuf]) <;> rfl
theorem f_st18_v0 : after st18 W (Proc.devRef .tc main_v0 : DevRef τ sig) = W (Proc.devRef .tc main_v0 : DevRef τ sig) := by
  unfold st18
  after_results
theorem f_st18_v27 : after st18 W (Proc.devRef .tc main_v27 : DevRef τ sig) = W (Proc.devRef .tc main_v27 : DevRef τ sig) := by
  unfold st18
  after_results
theorem v_st19a_call9_v5 : after st19a W (Proc.devRef .tc main_call9_v5 : DevRef τ sig) = E_st19a_call9_v5 (W (Proc.devRef .tc main_v54 : DevRef τ sig)) := by
  unfold st19a E_st19a_call9_v5
  after_results <;> (try simp only [ofBuf_toBuf]) <;> rfl
theorem f_st19a_v0 : after st19a W (Proc.devRef .tc main_v0 : DevRef τ sig) = W (Proc.devRef .tc main_v0 : DevRef τ sig) := by
  unfold st19a
  after_results
theorem f_st19a_v27 : after st19a W (Proc.devRef .tc main_v27 : DevRef τ sig) = W (Proc.devRef .tc main_v27 : DevRef τ sig) := by
  unfold st19a
  after_results
theorem v_st19b_call9_v12 : after st19b W (Proc.devRef .tc main_call9_v12 : DevRef τ sig) = E_st19b_call9_v12 (W (Proc.devRef .tc main_call9_v5 : DevRef τ sig)) := by
  unfold st19b E_st19b_call9_v12
  after_results
  simp only [TRef.toBuf, TRef.ofBuf, cast_eq]
theorem f_st19b_call9_v5 : after st19b W (Proc.devRef .tc main_call9_v5 : DevRef τ sig) = W (Proc.devRef .tc main_call9_v5 : DevRef τ sig) := by
  unfold st19b
  after_results
theorem f_st19b_v0 : after st19b W (Proc.devRef .tc main_v0 : DevRef τ sig) = W (Proc.devRef .tc main_v0 : DevRef τ sig) := by
  unfold st19b
  after_results
theorem f_st19b_v27 : after st19b W (Proc.devRef .tc main_v27 : DevRef τ sig) = W (Proc.devRef .tc main_v27 : DevRef τ sig) := by
  unfold st19b
  after_results
theorem v_st19c_call9_v13 : after st19c W (Proc.devRef .tc main_call9_v13 : DevRef τ sig)
    = ((fun x i => Host.gather gather_S2097152_S262144x128x1_S262144x128_n_0_n_n_0_2_1 x i) (W (Proc.devRef .tc main_v0 : DevRef τ sig)) (W (Proc.devRef .tc main_call9_v5 : DevRef τ sig)) : (⟨S262144x128, .f32⟩ : BufTy).Contents (Elt F)) := by
  unfold st19c
  after_results <;> (try simp only [ofBuf_toBuf]) <;> rfl
theorem f_st19c_call9_v12 : after st19c W (Proc.devRef .tc main_call9_v12 : DevRef τ sig) = W (Proc.devRef .tc main_call9_v12 : DevRef τ sig) := by
  unfold st19c
  after_results
theorem f_st19c_v27 : after st19c W (Proc.devRef .tc main_v27 : DevRef τ sig) = W (Proc.devRef .tc main_v27 : DevRef τ sig) := by
  unfold st19c
  after_results
theorem v_st19d_v55 : after st19d W (Proc.devRef .tc main_v55 : DevRef τ sig)
    = (select (W (Proc.devRef .tc main_call9_v12 : DevRef τ sig)) (W (Proc.devRef .tc main_call9_v13 : DevRef τ sig)) ((broadcastInDim S262144x128 ![] bcast_S_S262144x128) ((constant S_ .f32 0x7FC00000#32) : (⟨S_, .f32⟩ : BufTy).Contents (Elt F)) : (⟨S262144x128, .f32⟩ : BufTy).Contents (Elt F)) : (⟨S262144x128, .f32⟩ : BufTy).Contents (Elt F)) := by
  unfold st19d
  after_results <;> (try simp only [ofBuf_toBuf]) <;> rfl
theorem f_st19d_v27 : after st19d W (Proc.devRef .tc main_v27 : DevRef τ sig) = W (Proc.devRef .tc main_v27 : DevRef τ sig) := by
  unfold st19d
  after_results
theorem f_st20_v55 : after st20 W (Proc.devRef .tc main_v55 : DevRef τ sig) = W (Proc.devRef .tc main_v55 : DevRef τ sig) := by
  unfold st20
  after_results
theorem f_st20_v27 : after st20 W (Proc.devRef .tc main_v27 : DevRef τ sig) = W (Proc.devRef .tc main_v27 : DevRef τ sig) := by
  unfold st20
  after_results

end

/-! ## The two sampled-neighbourhood buffers -/

variable (m : (ℓ : Loc nD τ sig) → Buf (Elt Ideal) ℓ) (c : Dev nD)

set_option maxHeartbeats 1000000 in
/-- The first sampled-neighbourhood buffer: the take at the old positions' flat index. -/
theorem V_v27 : (V m c main_v27 : S262144x128.Idx → EReal)
    = GatherFlat.takeK bcast_S_S262144x128 bcast_S262144x128_S262144x128x1_0_1 bcast_S_S262144x128x1 bcast_S1_S1x1x1_2 bcast_S1x1x1_S262144x128x1_0_1_2 reducesTo_S262144x128x1_S262144x128_d2 h_S_ shapeCasts_S128x128x128_S2097152 gather_S2097152_S262144x128x1_S262144x128_n_0_n_n_0_2_1_wf
        (m ((c : Thread nD τ).loc main_arg0)) kfill
        (GatherFlat.lin bcast_S_S262144x128 (GatherFlat.clip bcast_S_S262144x128 (kcoord0 (m ((c : Thread nD τ).loc main_arg1))))
          (GatherFlat.clip bcast_S_S262144x128 (kcoord1 (m ((c : Thread nD τ).loc main_arg1)))) (GatherFlat.clip bcast_S_S262144x128 (kcoord2 (m ((c : Thread nD τ).loc main_arg1))))) := by
  show V0 m c (Proc.devRef .tc main_v27) = _
  rw [V0_staged]
  rw [f_st20_v27, f_st19d_v27, f_st19c_v27, f_st19b_v27, f_st19a_v27, f_st18_v27, f_st17_v27, f_st16_v27,
    f_st15_v27, f_st14_v27, f_st13_v27, f_st12_v27, f_st11_v27, f_st10_v27, v_st9d_v27, f_st9c_call4_v12,
    v_st9c_call4_v13, v_st9b_call4_v12, f_st9b_v0, f_st9b_call4_v5, v_st9a_call4_v5, f_st9a_v0, v_st8_v26, f_st8_v0,
    f_st7_v8, f_st7_v14, v_st7_v20, f_st7_v0, f_st6_v8, f_st6_v14, v_st6_c_9, v_st6_c_8,
    v_st6_v19, f_st6_v0, f_st5_v8, v_st5_v14, f_st5_v2, f_st5_c_1, f_st5_v0, f_st4_v8,
    v_st4_c_7, v_st4_c_6, v_st4_v13, f_st4_v2, f_st4_c_1, f_st4_v0, v_st3_v8, f_st3_v2,
    f_st3_c_0, f_st3_c_1, f_st3_v0, v_st2_c_5, v_st2_c_4, v_st2_v7, f_st2_v2, f_st2_c_0,
    f_st2_c_1, f_st2_v0, v_st1_v2, f_st1_c, f_st1_c_0, f_st1_c_1, f_st1_v0, v_st0_c_3,
    v_st0_c_2, v_st0_v1, v_st0_c, v_st0_c_0, v_st0_c_1, v_st0_v0]
  rfl

set_option maxHeartbeats 1000000 in
/-- The second sampled-neighbourhood buffer: the take at the moved positions' flat index. -/
theorem V_v55 : (V m c main_v55 : S262144x128.Idx → EReal)
    = GatherFlat.takeK bcast_S_S262144x128 bcast_S262144x128_S262144x128x1_0_1 bcast_S_S262144x128x1 bcast_S1_S1x1x1_2 bcast_S1x1x1_S262144x128x1_0_1_2 reducesTo_S262144x128x1_S262144x128_d2 h_S_ shapeCasts_S128x128x128_S2097152 gather_S2097152_S262144x128x1_S262144x128_n_0_n_n_0_2_1_wf
        (m ((c : Thread nD τ).loc main_arg0)) kfill
        (GatherFlat.lin bcast_S_S262144x128 (GatherFlat.clip bcast_S_S262144x128 (kcoord0 (addf (F := Ideal) (s := S262144x3) (φ := .f32) (m ((c : Thread nD τ).loc main_arg1)) (m ((c : Thread nD τ).loc main_arg3)))))
          (GatherFlat.clip bcast_S_S262144x128 (kcoord1 (addf (F := Ideal) (s := S262144x3) (φ := .f32) (m ((c : Thread nD τ).loc main_arg1)) (m ((c : Thread nD τ).loc main_arg3))))) (GatherFlat.clip bcast_S_S262144x128 (kcoord2 (addf (F := Ideal) (s := S262144x3) (φ := .f32) (m ((c : Thread nD τ).loc main_arg1)) (m ((c : Thread nD τ).loc main_arg3)))))) := by
  show V0 m c (Proc.devRef .tc main_v55) = _
  rw [V0_staged]
  rw [f_st20_v55, v_st19d_v55, f_st19c_call9_v12, v_st19c_call9_v13, v_st19b_call9_v12, f_st19b_v0, f_st19b_call9_v5, v_st19a_call9_v5,
    f_st19a_v0, v_st18_v54, f_st18_v0, f_st17_v36, f_st17_v42, v_st17_v48, f_st17_v0, f_st16_v36,
    f_st16_v42, v_st16_c_19, v_st16_c_18, v_st16_v47, f_st16_v0, f_st15_v36, v_st15_v42, f_st15_v30,
    f_st15_c_1, f_st15_v0, f_st14_v36, v_st14_c_17, v_st14_c_16, v_st14_v41, f_st14_v30, f_st14_c_1,
    f_st14_v0, v_st13_v36, f_st13_v30, f_st13_c_0, f_st13_c_1, f_st13_v0, v_st12_c_15, v_st12_c_14,
    v_st12_v35, f_st12_v30, f_st12_c_0, f_st12_c_1, f_st12_v0, v_st11_v30, f_st11_c, f_st11_c_0,
    f_st11_c_1, f_st11_v0, v_st10_c_13, v_st10_c_12, v_st10_v29, f_st10_c, f_st10_c_0, f_st10_c_1,
    f_st10_v0, f_st9d_arg1, f_st9d_arg3, f_st9d_c, f_st9d_c_0, f_st9d_c_1, f_st9d_v0, f_st9c_arg1,
    f_st9c_arg3, f_st9c_c, f_st9c_c_0, f_st9c_c_1, f_st9c_v0, f_st9b_arg1, f_st9b_arg3, f_st9b_c,
    f_st9b_c_0, f_st9b_c_1, f_st9b_v0, f_st9a_arg1, f_st9a_arg3, f_st9a_c, f_st9a_c_0, f_st9a_c_1,
    f_st9a_v0, f_st8_arg1, f_st8_arg3, f_st8_c, f_st8_c_0, f_st8_c_1, f_st8_v0, f_st7_arg1,
    f_st7_arg3, f_st7_c, f_st7_c_0, f_st7_c_1, f_st7_v0, f_st6_arg1, f_st6_arg3, f_st6_c,
    f_st6_c_0, f_st6_c_1, f_st6_v0, f_st5_arg1, f_st5_arg3, f_st5_c, f_st5_c_0, f_st5_c_1,
    f_st5_v0, f_st4_arg1, f_st4_arg3, f_st4_c, f_st4_c_0, f_st4_c_1, f_st4_v0, f_st3_arg1,
    f_st3_arg3, f_st3_c, f_st3_c_0, f_st3_c_1, f_st3_v0, f_st2_arg1, f_st2_arg3, f_st2_c,
    f_st2_c_0, f_st2_c_1, f_st2_v0, f_st1_arg1, f_st1_arg3, f_st1_c, f_st1_c_0, f_st1_c_1,
    f_st1_v0, f_st0_arg1, f_st0_arg3, v_st0_c, v_st0_c_0, v_st0_c_1, v_st0_v0]
  rfl

end Cert.KernelIdeal.KHeadTake

end
-- ==== Proof.KHeadLoc.lean ====
/-
  THE KERNEL'S TWO READS OF THE FIELD ARE THE REFERENCE'S LOCAL FIELD VALUES.

  The kernel reads the 3-D field through its row-major flattening, at the flat index of three clipped integer
  coordinates; the reference gathers it in three dimensions at the same three clipped coordinates. The coordinates
  are the same arrays in both programs (the integer positions, clipped, one column spread along the 128 stencil
  points, plus the stencil's offset table, which is the same literal table in both); reading through the flattening
  at a flat index that cannot wrap or leave the array is the rank-3 gather; and from there on the two programs apply
  the same operations one for one.
-/
import proofs.«119652_j82712480186467_2_alg».proof.Proof.Gen.KernelIdeal.Frame
import proofs.«119652_j82712480186467_2_alg».proof.Proof.LibGatherFlat
import proofs.«119652_j82712480186467_2_alg».proof.Proof.RefDefs
import proofs.«119652_j82712480186467_2_alg».proof.Proof.KHeadTake
import Idealize.ShloMosaic.PureOps.Ideal

set_option maxRecDepth 16384

noncomputable section

namespace Cert.KernelIdeal.KHead
open Idealize.ShloMosaic Idealize.ShloMosaic.TcCoe Idealize.SL.Sem Cert.KernelIdeal Cert.KernelIdeal.Gen
open Cert.KernelIdeal.KHeadTake

variable (m : (ℓ : Loc nD τ sig) → Buf (Elt Ideal) ℓ)

/-! ## The two programs' offset tables are the same literals -/

/-- The first coordinates of the 128 stencil points: the same table in both programs. -/
theorem lit0_eq : Cert.KernelIdeal.lit0 = Cert.ReferenceIdeal.lit0 := by
  funext i; revert i; decide
/-- The second coordinates: the same table. -/
theorem lit1_eq : Cert.KernelIdeal.lit1 = Cert.ReferenceIdeal.lit1 := by
  funext i; revert i; decide
/-- The third coordinates: the same table. -/
theorem lit2_eq : Cert.KernelIdeal.lit2 = Cert.ReferenceIdeal.lit2 := by
  funext i; revert i; decide

/-! ## The kernel's coordinate arrays are the reference's -/

/-- Coordinate 0 of every stencil point of every row, before its clip: the same array in both programs. -/
theorem kcoord0_eq (p : FVec Ideal S262144x3 .f32) : kcoord0 p = Cert.ReferenceIdeal.RefRun.coord0 (F := Ideal) p := by
  have ht : (fun i : S128.Idx => Cert.KernelIdeal.lit0 (S128.rowMajor i)) = Cert.ReferenceIdeal.RefRun.tab0 (F := Ideal) := by
    rw [lit0_eq]; rfl
  unfold Cert.ReferenceIdeal.RefRun.coord0
  rw [← ht]
  rfl
/-- Coordinate 1, likewise. -/
theorem kcoord1_eq (p : FVec Ideal S262144x3 .f32) : kcoord1 p = Cert.ReferenceIdeal.RefRun.coord1 (F := Ideal) p := by
  have ht : (fun i : S128.Idx => Cert.KernelIdeal.lit1 (S128.rowMajor i)) = Cert.ReferenceIdeal.RefRun.tab1 (F := Ideal) := by
    rw [lit1_eq]; rfl
  unfold Cert.ReferenceIdeal.RefRun.coord1
  rw [← ht]
  rfl
/-- Coordinate 2, likewise. -/
theorem kcoord2_eq (p : FVec Ideal S262144x3 .f32) : kcoord2 p = Cert.ReferenceIdeal.RefRun.coord2 (F := Ideal) p := by
  have ht : (fun i : S128.Idx => Cert.KernelIdeal.lit2 (S128.rowMajor i)) = Cert.ReferenceIdeal.RefRun.tab2 (F := Ideal) := by
    rw [lit2_eq]; rfl
  unfold Cert.ReferenceIdeal.RefRun.coord2
  rw [← ht]
  rfl

/-! ## The field read through its flattening is the reference's rank-3 gather -/

/-- The flat take at the flat index of the three clipped coordinates of positions `p` is the reference's local field
    values of `p`: reading through the row-major flattening is the rank-3 gather, and the coordinates, the clip, the
    per-axis wrap, the concatenation and the gather are the reference's operations one for one. -/
theorem take_eq_locR (field : S128x128x128.Idx → EReal) (p : FVec Ideal S262144x3 .f32) :
    (GatherFlat.takeK bcast_S_S262144x128 bcast_S262144x128_S262144x128x1_0_1 bcast_S_S262144x128x1 bcast_S1_S1x1x1_2
        bcast_S1x1x1_S262144x128x1_0_1_2 reducesTo_S262144x128x1_S262144x128_d2 h_S_ shapeCasts_S128x128x128_S2097152
        gather_S2097152_S262144x128x1_S262144x128_n_0_n_n_0_2_1_wf
        field kfill
        (GatherFlat.lin bcast_S_S262144x128 (GatherFlat.clip bcast_S_S262144x128 (kcoord0 p)) (GatherFlat.clip bcast_S_S262144x128 (kcoord1 p))
          (GatherFlat.clip bcast_S_S262144x128 (kcoord2 p))) : S262144x128.Idx → EReal)
      = Cert.ReferenceIdeal.RefRun.locR (F := Ideal) field p := by
  rw [GatherFlat.take_flat_eq_gather3 bcast_S_S262144x128 bcast_S262144x128_S262144x128x1_0_1 bcast_S_S262144x128x1 bcast_S1_S1x1x1_2
        bcast_S1x1x1_S262144x128x1_0_1_2 reducesTo_S262144x128x1_S262144x128_d2 h_S_ shapeCasts_S128x128x128_S2097152
        gather_S2097152_S262144x128x1_S262144x128_n_0_n_n_0_2_1_wf
      Cert.ReferenceIdeal.Gen.concatenates_S262144x128x1_S262144x128x1_S262144x128x1_S262144x128x3_d2
      Cert.ReferenceIdeal.Gen.gather_S128x128x128_S262144x128x3_S262144x128_n_012_n_n_012_2_111_wf
      field kfill (kcoord0 p) (kcoord1 p) (kcoord2 p)]
  rw [kcoord0_eq, kcoord1_eq, kcoord2_eq]
  rfl

/-- The kernel's field values at the old positions are the reference's. -/
theorem loc_old (c : Dev nD) : (V m c main_v27 : S262144x128.Idx → EReal)
    = Cert.ReferenceIdeal.RefRun.locR (F := Ideal) (m ((c : Thread nD τ).loc main_arg0)) (m ((c : Thread nD τ).loc main_arg1)) :=
  (KHeadTake.V_v27 m c).trans (take_eq_locR (m ((c : Thread nD τ).loc main_arg0)) (m ((c : Thread nD τ).loc main_arg1)))

/-- The kernel's field values at the moved positions are the reference's. -/
theorem loc_new (c : Dev nD) : (V m c main_v55 : S262144x128.Idx → EReal)
    = Cert.ReferenceIdeal.RefRun.locR (F := Ideal) (m ((c : Thread nD τ).loc main_arg0)) (addf (F := Ideal) (s := S262144x3) (φ := .f32) (m ((c : Thread nD τ).loc main_arg1)) (m ((c : Thread nD τ).loc main_arg3))) :=
  (KHeadTake.V_v55 m c).trans (take_eq_locR (m ((c : Thread nD τ).loc main_arg0)) (addf (F := Ideal) (s := S262144x3) (φ := .f32) (m ((c : Thread nD τ).loc main_arg1)) (m ((c : Thread nD τ).loc main_arg3))))

end Cert.KernelIdeal.KHead
end
-- ==== Proof.RefStab.lean ====
/- The reference's stability, read one row at a time, on the extended reals.

   Every operation in `stabR` is row-wise: the first product contracts over the 256 entries of the row made of the
   signal's 128 and the local values' 128, which is the sum of two 128-term sums; the bias is one row laid over all rows;
   tanh is pointwise; the second product contracts along the row; the squared residual is summed along the row. So
   `stabR` at row `n` is `StabSpec.rowStab` of row `n` of the signal and of the local values. -/
import proofs.«119652_j82712480186467_2_alg».proof.Proof.RefDefs
import proofs.«119652_j82712480186467_2_alg».proof.Proof.StabSpec
import Idealize.ShloMosaic.Lib.ValueIdx
import Idealize.ShloMosaic.Lib.Pipeline.Value
import Idealize.ShloMosaic.PureOps.Ideal.Laws

noncomputable section

namespace Cert.ReferenceIdeal.RefRun

open Idealize.ShloMosaic Idealize.ShloMosaic.ValueIdx Cert.ReferenceIdeal Cert.ReferenceIdeal.Gen

/-- A [262144,256] × [256,128] product at (n, c): the sum over the row's 256 entries. -/
theorem dot1_at (lhs : FVec Ideal S262144x256 .f32) (rhs : FVec Ideal S256x128 .f32) (n : Fin 262144) (c : Fin 128) :
    Host.dotGeneral dot_S262144x256_S256x128_S262144x128_1_0_0_1_n_n none lhs rhs (ix2 n c) = ∑ k : Fin 256, lhs (ix2 n k) * rhs (ix2 k c) := by
  refine (Ideal.dotGeneral_apply dot_S262144x256_S256x128_S262144x128_1_0_0_1_n_n none .single lhs rhs (ix2 n c)).trans ?_
  rw [← Equiv.sum_comp (contrEquiv1 dot_S262144x256_S256x128_S262144x128_1_0_0_1_n_n 256 rfl rfl).symm]
  refine Finset.sum_congr rfl fun k _ => ?_
  have hk := contrEquiv1_symm_val dot_S262144x256_S256x128_S262144x128_1_0_0_1_n_n 256 rfl rfl k
  have hl := DotDims.lhsIdx_val_of_single (d := dot_S262144x256_S256x128_S262144x128_1_0_0_1_n_n) (cl := (1 : Fin 2)) rfl (ix2 n c)
    ((contrEquiv1 dot_S262144x256_S256x128_S262144x128_1_0_0_1_n_n 256 rfl rfl).symm k)
  have hr := DotDims.rhsIdx_val_of_single (d := dot_S262144x256_S256x128_S262144x128_1_0_0_1_n_n) (cr := (0 : Fin 2)) rfl (ix2 n c)
    ((contrEquiv1 dot_S262144x256_S256x128_S262144x128_1_0_0_1_n_n 256 rfl rfl).symm k)
  congr 2
  · funext a
    match a with
    | ⟨0, _⟩ => rfl
    | ⟨1, _⟩ => exact Fin.ext (hl.trans hk)
  · funext a
    match a with
    | ⟨0, _⟩ => exact Fin.ext (hr.trans hk)
    | ⟨1, _⟩ => rfl

/-- A [262144,128] × [128,128] product at (n, c): the sum over the row's 128 entries. -/
theorem dot2_at (lhs : FVec Ideal S262144x128 .f32) (rhs : FVec Ideal S128x128 .f32) (n : Fin 262144) (c : Fin 128) :
    Host.dotGeneral dot_S262144x128_S128x128_S262144x128_1_0_0_1_n_n none lhs rhs (ix2 n c) = ∑ k : Fin 128, lhs (ix2 n k) * rhs (ix2 k c) := by
  refine (Ideal.dotGeneral_apply dot_S262144x128_S128x128_S262144x128_1_0_0_1_n_n none .single lhs rhs (ix2 n c)).trans ?_
  rw [← Equiv.sum_comp (contrEquiv1 dot_S262144x128_S128x128_S262144x128_1_0_0_1_n_n 128 rfl rfl).symm]
  refine Finset.sum_congr rfl fun k _ => ?_
  have hk := contrEquiv1_symm_val dot_S262144x128_S128x128_S262144x128_1_0_0_1_n_n 128 rfl rfl k
  have hl := DotDims.lhsIdx_val_of_single (d := dot_S262144x128_S128x128_S262144x128_1_0_0_1_n_n) (cl := (1 : Fin 2)) rfl (ix2 n c)
    ((contrEquiv1 dot_S262144x128_S128x128_S262144x128_1_0_0_1_n_n 128 rfl rfl).symm k)
  have hr := DotDims.rhsIdx_val_of_single (d := dot_S262144x128_S128x128_S262144x128_1_0_0_1_n_n) (cr := (0 : Fin 2)) rfl (ix2 n c)
    ((contrEquiv1 dot_S262144x128_S128x128_S262144x128_1_0_0_1_n_n 128 rfl rfl).symm k)
  congr 2
  · funext a
    match a with
    | ⟨0, _⟩ => rfl
    | ⟨1, _⟩ => exact Fin.ext (hl.trans hk)
  · funext a
    match a with
    | ⟨0, _⟩ => exact Fin.ext (hr.trans hk)
    | ⟨1, _⟩ => rfl

/-- A bias vector laid over all rows, at (n, k): its k-th entry. -/
theorem biasRows_at (b : FVec Ideal S128 .f32) (n : Fin 262144) (k : Fin 128) :
    biasRows (F := Ideal) b (ix2 n k) = b (ix1 k) := by
  unfold biasRows
  refine (broadcastInDim_apply ![0, 1] bcast_S1x128_S262144x128_0_1 _ (ix2 n k) (ix2 (0 : Fin 1) k) fun a => ?_).trans
    (broadcastInDim_apply ![1] bcast_S128_S1x128_1 b (ix2 (0 : Fin 1) k) (ix1 k) fun a => ?_)
  · match a with
    | ⟨0, _⟩ => rfl
    | ⟨1, _⟩ => rfl
  · match a with
    | ⟨0, _⟩ => rfl

/-- The sum along each row, from zero, at row n: the sum of the row's 128 entries. -/
theorem rowsum_at (x : FVec Ideal S262144x128 .f32) (n : Fin 262144) :
    Host.reduceAdd x (constant (F := Ideal) S_ .f32 0x00000000#32) reducesTo_S262144x128_S262144_d1 h_S_ (ix1 n)
      = ∑ j : Fin 128, x (ix2 n j) := by
  have hR : S262144x128.Reduces [1] S262144 := by decide
  show Ideal.hostReduceAdd reducesTo_S262144x128_S262144_d1 x (Ideal.ofBits .f32 0x00000000#32) (ix1 n) = _
  rw [Ideal.hostReduceAdd_single reducesTo_S262144x128_S262144_d1 hR x _ (ix1 n), Ideal.ofBits_zero_f32, zero_add]
  refine Finset.sum_congr rfl fun j _ => congrArg x ?_
  funext a
  match a with
  | ⟨0, _⟩ => rfl
  | ⟨1, _⟩ => rfl

/-- The first layer before its bias, at (n, k): the 256-term contraction over the joined row is the signal's
    128-term sum against the upper half of `W1` plus the local values' 128-term sum against the lower half. -/
theorem layer1_at (sg loc : FVec Ideal S262144x128 .f32) (W1 : FVec Ideal S256x128 .f32) (n : Fin 262144) (k : Fin 128) :
    layer1 (F := Ideal) sg loc W1 (ix2 n k)
      = (∑ a : Fin 128, sg (ix2 n a) * W1 (ix2 (⟨a.val, by have := a.isLt; omega⟩ : Fin 256) k))
        + (∑ a : Fin 128, loc (ix2 n a) * W1 (ix2 (⟨128 + a.val, by have := a.isLt; omega⟩ : Fin 256) k)) := by
  unfold layer1
  refine (dot1_at _ W1 n k).trans ?_
  refine (Fin.sum_univ_add (a := 128) (b := 128) fun c : Fin (128 + 128) =>
    concatenate S262144x256 1 [⟨S262144x128, sg⟩, ⟨S262144x128, loc⟩] concatenates_S262144x128_S262144x128_S262144x256_d1 (ix2 n c)
      * W1 (ix2 c k)).trans ?_
  refine congrArg₂ (· + ·) (Finset.sum_congr rfl fun a _ => congrArg₂ (· * ·) ?_ rfl)
    (Finset.sum_congr rfl fun a _ => congrArg₂ (· * ·) ?_ rfl)
  · refine concatenate_pair_apply_left (1 : Fin 2) sg loc concatenates_S262144x128_S262144x128_S262144x256_d1
      (ix2 n (Fin.castAdd 128 a)) rfl (ix2 n a) fun b => ?_
    match b with
    | ⟨0, _⟩ => rfl
    | ⟨1, _⟩ => rfl
  · refine concatenate_pair_apply_right (1 : Fin 2) sg loc concatenates_S262144x128_S262144x128_S262144x256_d1
      (ix2 n (Fin.natAdd 128 a)) rfl rfl (ix2 n a) (fun b => ?_) ?_
    · match b with
      | ⟨0, _⟩ => exact fun _ => rfl
      | ⟨1, _⟩ => exact fun h => absurd rfl h
    · show a.val + 128 = 128 + a.val
      omega

/-- The root and the hyperbolic tangent, pointwise, are the extended reals' own. -/
theorem sqrt_at {s : Shape} (x : FVec Ideal s .f32) (i : s.Idx) : Host.sqrt x i = Ideal.sqrt (x i) := rfl
theorem tanh_at {s : Shape} (x : FVec Ideal s .f32) (i : s.Idx) : Host.tanh x i = Ideal.tanh (x i) := rfl

set_option maxRecDepth 4096 in
/-- THE STABILITY AT ROW n is the one-unit formula of row n of the signal and of the local values, the first layer's
    weights split into the signal's half (rows 0 … 127) and the local values' half (rows 128 … 255). -/
theorem stabR_at (sg loc : FVec Ideal S262144x128 .f32) (W1 : FVec Ideal S256x128 .f32) (b1 : FVec Ideal S128 .f32)
    (W2 : FVec Ideal S128x128 .f32) (b2 : FVec Ideal S128 .f32) (n : Fin 262144) :
    stabR (F := Ideal) sg loc W1 b1 W2 b2 (ix1 n)
      = StabSpec.rowStab (fun a => sg (ix2 n a)) (fun a => loc (ix2 n a))
          (fun a k => W1 (ix2 (⟨a.val, by have := a.isLt; omega⟩ : Fin 256) k))
          (fun a k => W1 (ix2 (⟨128 + a.val, by have := a.isLt; omega⟩ : Fin 256) k))
          (fun k => b1 (ix1 k)) (fun k j => W2 (ix2 k j)) (fun j => b2 (ix1 j)) := by
  unfold stabR stabTail StabSpec.rowStab
  refine (sqrt_at _ (ix1 n)).trans (congrArg Ideal.sqrt ((rowsum_at _ n).trans (Finset.sum_congr rfl fun j _ => ?_)))
  have hD : ∀ j : Fin 128,
      subf (F := Ideal) (φ := .f32) (addf (F := Ideal) (φ := .f32) (Host.dotGeneral (F := Ideal) (φ₁ := .f32) (φ₂ := .f32) dot_S262144x128_S128x128_S262144x128_1_0_0_1_n_n none
          (Host.tanh (F := Ideal) (φ := .f32) (addf (F := Ideal) (φ := .f32) (layer1 (F := Ideal) sg loc W1) (biasRows (F := Ideal) b1))) W2) (biasRows (F := Ideal) b2)) sg (ix2 n j)
        = StabSpec.resid (fun a => sg (ix2 n a)) (fun a => loc (ix2 n a))
          (fun a k => W1 (ix2 (⟨a.val, by have := a.isLt; omega⟩ : Fin 256) k))
          (fun a k => W1 (ix2 (⟨128 + a.val, by have := a.isLt; omega⟩ : Fin 256) k))
          (fun k => b1 (ix1 k)) (fun k j => W2 (ix2 k j)) (fun j => b2 (ix1 j)) j := by
    intro j
    unfold StabSpec.resid
    refine congrArg₂ (· - ·) (congrArg₂ (· + ·) ((dot2_at _ W2 n j).trans ?_) (biasRows_at b2 n j)) rfl
    refine Finset.sum_congr rfl fun k _ => congrArg (· * W2 (ix2 k j)) ?_
    unfold StabSpec.hidden
    exact (tanh_at _ (ix2 n k)).trans (congrArg Ideal.tanh (congrArg₂ (· + ·) (layer1_at sg loc W1 n k) (biasRows_at b1 n k)))
  exact congrArg₂ (· * ·) (hD j) (hD j)

end Cert.ReferenceIdeal.RefRun

end
-- ==== Proof.LibAcceptBit.lean ====
/-
  AN ACCEPTANCE BIT WRITTEN AS A NUMBER AND READ BACK.

  A one-bit word `b`, widened to 32 bits and converted to a float, is the number 0 or 1; that number is greater than
  one half exactly when `b` is 1. So the comparison "greater than 0.5" gives the bit back. The float word
  `0x3F000000` is one half: sign 0, biased exponent 126, significand 0, so `2^23 · 2^(126 − 127 − 23) = 1/2`.
-/
import Idealize.ShloMosaic.PureOps.Ideal
import Idealize.ShloMosaic.Lib.ValueIdx

namespace AcceptBit

open Idealize.ShloMosaic

/-- The 32-bit float pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- THE BIT READ BACK: a one-bit word, widened and converted to a float (the number 0 or 1), compared "greater than
    one half", is the word itself. -/
theorem accept_bit (b : BitVec 1) :
    Ideal.cmp .ogt (FloatOps.sitofp (F := Ideal) .f32 (b.setWidth 32)) (Ideal.ofBits .f32 0x3F000000#32) = b := by
  rw [ofBits_half_f32]
  show BitVec.ofBool (decide ((((1 : ℝ) / 2 : ℝ) : EReal) < ((((b.setWidth 32).toInt : ℤ) : ℝ) : EReal))) = b
  rcases BitVec.eq_zero_or_eq_one b with rfl | rfl
  · have e : ((0#1 : BitVec 1).setWidth 32).toInt = 0 := by decide
    have h : ¬ ((((1 : ℝ) / 2 : ℝ) : EReal) < ((((0 : ℤ)) : ℝ) : EReal)) := by
      rw [EReal.coe_lt_coe_iff]; norm_num
    rw [e, decide_eq_false h]; rfl
  · have e : ((1#1 : BitVec 1).setWidth 32).toInt = 1 := by decide
    have h : ((((1 : ℝ) / 2 : ℝ) : EReal) < ((((1 : ℤ)) : ℝ) : EReal)) := by
      rw [EReal.coe_lt_coe_iff]; norm_num
    rw [e, decide_eq_true h]; rfl

/-- The same for an array of bits, the one half a broadcast scalar constant: the comparison gives the array back. -/
theorem accept_bit_vec {S : Shape} (h : (⟨0, ![]⟩ : Shape).BroadcastsInDim S ![]) (g : IVec S 1) :
    cmpf .ogt (fun i => FloatOps.sitofp (F := Ideal) .f32 ((g i).setWidth 32) : FVec Ideal S .f32)
      (broadcastInDim S ![] h (constant (F := Ideal) ⟨0, ![]⟩ .f32 0x3F000000#32)) = g := by
  funext i
  exact accept_bit (g i)

/-- The same with the widening and the conversion written as the vector operations. -/
theorem accept_bit_vec' {S : Shape} (h : (⟨0, ![]⟩ : Shape).BroadcastsInDim S ![]) (g : IVec S 1) (hw : 1 < 32) :
    cmpf .ogt (sitofp .f32 (extui 32 g hw) : FVec Ideal S .f32)
      (broadcastInDim S ![] h (constant (F := Ideal) ⟨0, ![]⟩ .f32 0x3F000000#32)) = g := by
  funext i
  exact accept_bit (g i)

end AcceptBit
-- ==== Proof.Bridge.lean ====
/-
  The two programs compute the same two results.

  Both programs judge a unit by the same one-unit formula (StabSpec): the kernel program evaluates it block by block
  over the arrays the region finds (KBlocks), the reference over whole arrays, contracting the joined
  signature-and-neighbourhood row against the whole first-layer matrix; splitting that 256-term sum at 128 gives the
  kernel's two 128-term sums (RefStab). The neighbourhood arrays agree because reading the field at clamped integer
  coordinates is the same through the flattened field at the linear index as through the three coordinates
  (KHeadTake and KHeadLoc over LibGatherFlat). The acceptance condition survives its passage through the numbers 0 and 1 (LibAcceptBit). So result
  0, the smaller norm, and result 1, the chosen position, are equal index by index.
-/
import proofs.«119652_j82712480186467_2_alg».proof.Proof.KTail
import proofs.«119652_j82712480186467_2_alg».proof.Proof.KHead
import proofs.«119652_j82712480186467_2_alg».proof.Proof.KHeadLoc
import proofs.«119652_j82712480186467_2_alg».proof.Proof.RefDefs
import proofs.«119652_j82712480186467_2_alg».proof.Proof.RefStab
import proofs.«119652_j82712480186467_2_alg».proof.Proof.LibAcceptBit
import Idealize.ShloMosaic.Lib.ValueIdx
import Idealize.ShloMosaic.Lib.ValueLayout
import Idealize.ShloMosaic.Lib.Pipeline.Value

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen
open Cert.ReferenceIdeal.RefRun (stabR locR acceptR res0 res1)

variable (m : (ℓ : Loc nD τ sig) → Buf (Elt Ideal) ℓ) (c : Dev nD)

/-- The eight argument arrays on core `c`. -/
abbrev field : S128x128x128.Idx → EReal := m ((c : Thread nD τ).loc main_arg0)
abbrev pos : S262144x3.Idx → EReal := m ((c : Thread nD τ).loc main_arg1)
abbrev sg : S262144x128.Idx → EReal := m ((c : Thread nD τ).loc main_arg2)
abbrev off : S262144x3.Idx → EReal := m ((c : Thread nD τ).loc main_arg3)
abbrev W1 : S256x128.Idx → EReal := m ((c : Thread nD τ).loc main_arg4)
abbrev b1 : S128.Idx → EReal := m ((c : Thread nD τ).loc main_arg5)
abbrev W2 : S128x128.Idx → EReal := m ((c : Thread nD τ).loc main_arg6)
abbrev b2 : S128.Idx → EReal := m ((c : Thread nD τ).loc main_arg7)

/-- A unit's residual norm: the kernel program's reading over the arrays the region finds is the reference's, for
    any neighbourhood array. -/
theorem stab_eq (loc : S262144x128.Idx → EReal) (n : Fin 262144) :
    KBlocks.stabV m c loc n
      = stabR (F := Ideal) (sg m c) loc (W1 m c) (b1 m c) (W2 m c) (b2 m c) (ix1 n) := by
  rw [Cert.ReferenceIdeal.RefRun.stabR_at]
  unfold KBlocks.stabV
  refine StabSpec.rowStab_congr (fun a => congrFun (V_main_arg2 m c) _) (fun a => rfl) (fun a k => ?_) (fun a k => ?_)
    (fun k => ?_) (fun k j => congrFun (V_main_arg6 m c) _) (fun j => ?_)
  · exact (congrFun (KHead.V_v56 m c) (ix2 a k)).trans (slice2_axis0_apply 0 _ _ a k _ (by simp))
  · exact (congrFun (KHead.V_v57 m c) (ix2 a k)).trans (slice2_axis0_apply 128 _ _ a k _ rfl)
  · exact (congrFun (KHead.V_v58 m c) (ix2 (0 : Fin 1) k)).trans (shapeCast_a_1a_apply _ _ 0 k)
  · exact (congrFun (KHead.V_v59 m c) (ix2 (0 : Fin 1) j)).trans (shapeCast_a_1a_apply _ _ 0 j)

/-- The old and the new norm of unit `n`, in the reference's spelling. -/
theorem stab_old (n : Fin 262144) :
    KBlocks.stabV m c (V m c main_v27) n
      = stabR (F := Ideal) (sg m c) (locR (F := Ideal) (field m c) (pos m c)) (W1 m c) (b1 m c) (W2 m c) (b2 m c) (ix1 n) := by
  rw [stab_eq, KHead.loc_old]

theorem stab_new (n : Fin 262144) :
    KBlocks.stabV m c (V m c main_v55) n
      = stabR (F := Ideal) (sg m c) (locR (F := Ideal) (field m c) (addf (F := Ideal) (s := S262144x3) (φ := .f32) (pos m c) (off m c))) (W1 m c) (b1 m c) (W2 m c) (b2 m c) (ix1 n) := by
  rw [stab_eq, KHead.loc_new]

/-- A one-column array read as a vector, at unit `n`. -/
theorem column_at (X : S262144x1.Idx → EReal) (n : Fin 262144) :
    shapeCast S262144 X shapeCasts_S262144x1_S262144 (ix1 n) = X (ix2 n (0 : Fin 1)) :=
  shapeCast_apply X shapeCasts_S262144x1_S262144 (ix1 n) (ix2 n (0 : Fin 1)) (by
    rw [Shape.rowMajor_val_two, Shape.rowMajor_val_one]
    show n.val * 1 + 0 = n.val
    omega)

/-- RESULT 0 of the kernel program is the reference's. -/
theorem res0_eq :
    KTail.kres0 m c = res0 (F := Ideal) (field m c) (pos m c) (sg m c) (off m c) (W1 m c) (b1 m c) (W2 m c) (b2 m c) := by
  funext i
  obtain ⟨n, rfl⟩ : ∃ n : Fin 262144, i = ix1 n := ⟨i 0, eq_ix1 i⟩
  unfold KTail.kres0
  refine (column_at _ n).trans ?_
  unfold KBlocks.G8
  show Scalar.select (Ideal.cmp .ole (KBlocks.stabV m c (V m c main_v55) n) (KBlocks.stabV m c (V m c main_v27) n))
      (KBlocks.stabV m c (V m c main_v55) n) (KBlocks.stabV m c (V m c main_v27) n) = _
  rw [stab_old, stab_new]
  unfold Cert.ReferenceIdeal.RefRun.res0 Cert.ReferenceIdeal.RefRun.acceptR
  simp only [select_apply, cmpf_apply, Ideal.cmpf_def]

/-- The acceptance condition the kernel program reads back off its 0/1 array is the reference's. -/
theorem accept_eq :
    KTail.kaccept m c
      = acceptR (F := Ideal) (field m c) (pos m c) (sg m c) (off m c) (W1 m c) (b1 m c) (W2 m c) (b2 m c) := by
  have hcol : (shapeCast S262144 (KBlocks.G9 m c) shapeCasts_S262144x1_S262144 : FVec Ideal S262144 .f32)
      = fun i => FloatOps.sitofp (F := Ideal) .f32
          ((acceptR (F := Ideal) (field m c) (pos m c) (sg m c) (off m c) (W1 m c) (b1 m c) (W2 m c) (b2 m c) i).setWidth 32) := by
    funext i
    obtain ⟨n, rfl⟩ : ∃ n : Fin 262144, i = ix1 n := ⟨i 0, eq_ix1 i⟩
    refine (column_at _ n).trans ?_
    unfold KBlocks.G9
    show FloatOps.sitofp (F := Ideal) .f32 ((Ideal.cmp .ole (KBlocks.stabV m c (V m c main_v55) n)
        (KBlocks.stabV m c (V m c main_v27) n)).setWidth 32) = _
    rw [stab_old, stab_new]
    unfold Cert.ReferenceIdeal.RefRun.acceptR
    simp only [cmpf_apply, Ideal.cmpf_def]
  unfold KTail.kaccept
  rw [hcol]
  exact AcceptBit.accept_bit_vec bcast_S_S262144 _

/-- RESULT 1 of the kernel program is the reference's. -/
theorem res1_eq :
    KTail.kres1 m c = res1 (F := Ideal) (field m c) (pos m c) (sg m c) (off m c) (W1 m c) (b1 m c) (W2 m c) (b2 m c) := by
  unfold KTail.kres1
  rw [accept_eq, KHead.V_v28, V_main_arg1]
  rfl

end Cert.Proof.Bridge

end
-- ==== Proof.lean ====
/-
  The certificate's five claims.

  The programs. A population of 262144 units lives in a 128³ scalar field. Each unit has a position, a 128-entry
  signature and a proposed displacement. Around the integer cell of a position (clamped into the field) 128 fixed
  neighbouring cells (clamped again) are sampled; a two-layer network maps signature and sample to a response, and the
  unit's residual is the Euclidean norm of response minus signature. The residual is computed at the resting and at
  the displaced position; the displacement is accepted when it does not increase the residual. Results: the smaller
  residual, and the chosen position.

  The kernel program samples through the flattened field at a linear index, evaluates the network in a tiled kernel,
  2048 units per grid point, with the first layer split into its signature half and its sample half, and passes the
  acceptance through an array of zeros and ones. The reference samples with a three-coordinate gather and evaluates
  the network on whole arrays with the signature and the sample joined into one 256-entry row.

  On the extended reals the two agree exactly: sampling at clamped coordinates is the same either way
  (Proof/LibGatherFlat, Proof/KHead); the tiled evaluation is row-wise, so each block row is the one-unit formula
  (Proof/StabSpec, Proof/KPay) of the whole arrays' row (Proof/KBlocks); the reference's 256-term contraction splits
  into the kernel's two 128-term sums (Proof/RefStab), sums of extended reals being commutative and associative with
  no finiteness needed; the acceptance bit survives the passage through 0 and 1 (Proof/LibAcceptBit, Proof/KTail);
  Proof/Bridge joins the two sides. The inputs' finiteness is never used. The three frame claims are the programs'
  runs with the results dropped; the idealization rewrote nothing, so the fourth claim is `True`.
-/
import proofs.«119652_j82712480186467_2_alg».proof.Defs
import proofs.«119652_j82712480186467_2_alg».proof.Proof.Gen.Kernel
import proofs.«119652_j82712480186467_2_alg».proof.Proof.Gen.Kernel.Skeleton
import proofs.«119652_j82712480186467_2_alg».proof.Proof.Gen.Kernel.Launch
import proofs.«119652_j82712480186467_2_alg».proof.Proof.Gen.Kernel.Points
import proofs.«119652_j82712480186467_2_alg».proof.Proof.Gen.Kernel.Frame
import proofs.«119652_j82712480186467_2_alg».proof.Proof.Gen.KernelIdeal
import proofs.«119652_j82712480186467_2_alg».proof.Proof.Gen.KernelIdeal.Skeleton
import proofs.«119652_j82712480186467_2_alg».proof.Proof.Gen.KernelIdeal.Launch
import proofs.«119652_j82712480186467_2_alg».proof.Proof.Gen.KernelIdeal.Points
import proofs.«119652_j82712480186467_2_alg».proof.Proof.Gen.KernelIdeal.Frame
import proofs.«119652_j82712480186467_2_alg».proof.Proof.Gen.ReferenceIdeal
import proofs.«119652_j82712480186467_2_alg».proof.Proof.Gen.Pre_finite_inputs
import proofs.«119652_j82712480186467_2_alg».proof.Proof.KTail
import proofs.«119652_j82712480186467_2_alg».proof.Proof.RefRun
import proofs.«119652_j82712480186467_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- And the reference: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- From memories agreeing on the arguments both programs run, to equal results and unchanged arguments. -/
theorem algebraic : Cert.algebraic_KernelIdeal_ReferenceIdeal := by
  intro m ρ m' ρ' _ hagree
  refine ⟨fun c => Cert.KernelIdeal.KTail.kres0 m c, fun c => Cert.KernelIdeal.KTail.kres1 m c,
    Cert.KernelIdeal.KTail.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨h0, h1, h2, h3, h4, h5, h6, h7⟩ := hagree c
    rw [h0, h1, h2, h3, h4, h5, h6, h7]
    exact (Bridge.res0_eq m c).symm
  · obtain ⟨h0, h1, h2, h3, h4, h5, h6, h7⟩ := hagree c
    rw [h0, h1, h2, h3, h4, h5, h6, h7]
    exact (Bridge.res1_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
